-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8x2048x1024 .f32) (main_arg1 : FVec F S8x2048x1024 .f32) (main_arg2 : FVec F S8x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩
abbrev S16384x1024 : Shape := ⟨2, ![16384, 1024]⟩
abbrev S512x1024 : Shape := ⟨2, ![512, 1024]⟩
abbrev S1x1024 : Shape := ⟨2, ![1, 1024]⟩
abbrev S1x1024x1024 : Shape := ⟨3, ![1, 1024, 1024]⟩
abbrev S1x512x1024 : Shape := ⟨3, ![1, 512, 1024]⟩
abbrev S1024x1 : Shape := ⟨2, ![1024, 1]⟩
abbrev S1024x512 : Shape := ⟨2, ![1024, 512]⟩

abbrev nBuf : Space → Nat
  | .hbm => 25
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024x1024, .bf16⟩
  | .hbm, ⟨17, _⟩ => ⟨S1024x1024, .bf16⟩
  | .hbm, ⟨18, _⟩ => ⟨S16384x1024, .f32⟩
  | .hbm, ⟨19, _⟩ => ⟨S16384x1024, .bf16⟩
  | .hbm, ⟨20, _⟩ => ⟨S8x2048x1024, .bf16⟩
  | .hbm, ⟨21, _⟩ => ⟨S16384x1024, .f32⟩
  | .hbm, ⟨22, _⟩ => ⟨S16384x1024, .bf16⟩
  | .hbm, ⟨23, _⟩ => ⟨S8x2048x1024, .bf16⟩
  | .hbm, ⟨24, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024, .f32⟩
  | .local _ .vmem, ⟨10, _⟩ => ⟨S512x1024, .bf16⟩
  | .local _ .vmem, ⟨11, _⟩ => ⟨S512x1024, .bf16⟩
  | .local _ .vmem, ⟨12, _⟩ => ⟨S1x1024x1024, .f32⟩
  | .local _ .vmem, ⟨13, _⟩ => ⟨S1x1024x1024, .f32⟩
  | .local _ .vmem, ⟨14, _⟩ => ⟨S1024x1024, .bf16⟩
  | .local _ .vmem, ⟨15, _⟩ => ⟨S1024, .f32⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1024x1024, .f32⟩
  | .local _ .vmem, ⟨21, _⟩ => ⟨S1x1024x1024, .f32⟩
  | .local _ .vmem, ⟨22, _⟩ => ⟨S1024x1024, .bf16⟩
  | .local _ .vmem, ⟨23, _⟩ => ⟨S1024x1, .f32⟩
  | .local _ .vmem, ⟨24, _⟩ => ⟨S1024x1, .f32⟩
  | .local _ .vmem, ⟨25, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_scratch0 : Ref sig .tc := ⟨.vmem, 22, rfl⟩
abbrev cc2_scratch1 : Ref sig .tc := ⟨.vmem, 23, rfl⟩
abbrev cc2_scratch2 : Ref sig .tc := ⟨.vmem, 24, rfl⟩
abbrev cc2_scratch3 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![8, 2, 4], ![false, false, false]⟩

def k2_cond2 (i : grid2.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_25 : BitVec 32 := 0#32
  let v42 : BitVec 1 := Scalar.cmpi .ne v41 c0_i32_25
  v42

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 2 → Memref sig .tc .vmem S1x512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, true]

abbrev stage2_4 : Fin 2 → Memref sig .tc .vmem S1x512x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, true]

abbrev stage2_5 : Fin 2 → Memref sig .tc .vmem S1x1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

class Facts₀ : Prop where
  bcast_S_S1024x1024 : S_.BroadcastsInDim S1024x1024 (![] : Fin 0 → Fin S1024x1024.rank)
  bitsLt_bf16_f32 : FTy.bits .bf16 < FTy.bits .f32
  bcast_S_S1024 : S_.BroadcastsInDim S1024 (![] : Fin 0 → Fin S1024.rank)
  shapeCasts_S8x2048x1024_S16384x1024 : S8x2048x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S16384x1024_S8x2048x1024 : S16384x1024.ShapeCasts S8x2048x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024_S1024 : S1024.ShapeCasts S1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S512x1024_S1024x1024_S512x1024_1_0_0_1_n_n_wf : DotDims.WF S512x1024 S1024x1024 S512x1024 [1] [0] [0] [1] [] []
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .bf16 = 32 ∨ (Rect.block (s := S16384x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .f32 = 32 ∨ (Rect.block (s := S16384x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S16384x1024.size a
  hwx1_3 : ∀ i : grid1.Coords, EltTy.bits .bf16 = 32 ∨ (Rect.block (s := S16384x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S8x2048x1024.size a
  hwx2_0 : ∀ i : grid2.Coords, EltTy.bits .f32 = 32 ∨ (Rect.block (s := S8x2048x1024) S1x1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S8x2048x1024.size a
  hwx2_3 : ∀ i : grid2.Coords, EltTy.bits .bf16 = 32 ∨ (Rect.block (s := S8x2048x1024) S1x512x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x1024.size a ≤ S8x2048x1024.size a
  hwx2_4 : ∀ i : grid2.Coords, EltTy.bits .bf16 = 32 ∨ (Rect.block (s := S8x2048x1024) S1x512x1024.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1024x1024.size a ≤ S8x2048x1024.size a
  hwx2_5 : ∀ i : grid2.Coords, EltTy.bits .f32 = 32 ∨ (Rect.block (s := S8x2048x1024) S1x1024x1024.size (cc2_transform_5 i) (hinb2_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v7) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x512x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v13) S1x1024x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8x2048x1024, .f32⟩
  | .hbm, ⟨10, _⟩ => ⟨S1x1x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S1x1x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S_, .f32⟩
  | .hbm, ⟨31, _⟩ => ⟨S8x2048, .f32⟩
  | .hbm, ⟨32, _⟩ => ⟨S8x2048, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.WordProj0.lean ====
/-
  Projection region 0 (a row tile of 512 rows of the [16384,1024] operand times the whole [1024,1024] weight, plus the bias row):
  what one grid point leaves in the output tile's buffer as a function of the three input blocks, the body's
  Hoare triple, the pipeline's proof data at given region-entry contents, and the body obligation at every point.
  Everything is stated for any float instance.
-/
import proofs.«158720_j6236292514541_2_alg».proof.Proof.Gen.Kernel.Launch
import proofs.«158720_j6236292514541_2_alg».proof.Proof.Gen.Kernel.Skeleton
import proofs.«158720_j6236292514541_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, whether the point fetched it or an earlier one did
    (the block index has not moved since). -/
theorem before_in0_of {c : Dev nD} (dat : Dat τ (Elt F) Unit ℕ (UR sig nD τ) ℕ cfg0 c)
    (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, whether the point fetched it or an earlier one did
    (the block index has not moved since). -/
theorem before_in1_of {c : Dev nD} (dat : Dat τ (Elt F) Unit ℕ (UR sig nD τ) ℕ cfg0 c)
    (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, whether the point fetched it or an earlier one did
    (the block index has not moved since). -/
theorem before_in2_of {c : Dev nD} (dat : Dat τ (Elt F) Unit ℕ (UR sig nD τ) ℕ cfg0 c)
    (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body loads and stores through. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1024 := Rect.unit (s := S1024) ![0] S1024.size inb_S1024_S1024_0

/-- The output tile after the body: its one store, of the payload (tile·weight + bias, cast) of the three input blocks. -/
def outTile (x0 : Vec F S512x1024 .f32) (x1 : Vec F S1024x1024 .bf16) (x2 : Vec F S1024 .f32) : Vec F S512x1024 .bf16 :=
  View.canon [⟨rX, k0_pay1 (View.ld x0 rX) (View.ld x1 rW) (View.ld x2 rB)⟩]

/-- The store covers the tile. -/
theorem cover (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 1000000 in
/-- The body on whole buffers: the inputs at `x0 x1 x2` and the output at anything run to the inputs unchanged and the
    output at `outTile x0 x1 x2`. -/
theorem sound_kernel (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S512x1024 .bf16) (harg4 : arg4.IsWhole)
    (x0 : Vec F S512x1024 .f32) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outTile x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-- The proof data at entry contents `V`: each input's buffer keeps its block, the output's holds `outTile` of the point's blocks;
    the invariant is the scoped rest and the generator register; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outTile (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = outTile (iblk V c 0 t) (iblk V c 1 t) (iblk V c 2 t) := by dsimp only [dat]

theorem before_0 (c : Dev nD) (t : Fin cfg0.N) (d) : (dat V c).before 0 t d = iblk V c 0 t :=
  before_in0_of V (dat V c) (A_eq V c 0) (after_0 V c) t d
theorem before_1 (c : Dev nD) (t : Fin cfg0.N) (d) : (dat V c).before 1 t d = iblk V c 1 t :=
  before_in1_of V (dat V c) (A_eq V c 1) (after_1 V c) t d
theorem before_2 (c : Dev nD) (t : Fin cfg0.N) (d) : (dat V c).before 2 t d = iblk V c 2 t :=
  before_in2_of V (dat V c) (A_eq V c 2) (after_2 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the triple applies; the invariant passes through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation (c : Dev nD) : BodyObligation (dat (F := F) V c) (defs₀ (F := F)) Variants.none () Set.univ := fun t => by
  rw [bigSep_W0, bigSep_W0]
  exact sound_body V c t

end Cert.Kernel.Proj0

end
-- ==== Proof.WordProj1.lean ====
/-
  Projection region 1 (a row tile of 512 rows of the [16384,1024] operand times the whole [1024,1024] weight, plus the bias row):
  what one grid point leaves in the output tile's buffer as a function of the three input blocks, the body's
  Hoare triple, the pipeline's proof data at given region-entry contents, and the body obligation at every point.
  Everything is stated for any float instance.
-/
import proofs.«158720_j6236292514541_2_alg».proof.Proof.Gen.Kernel.Launch
import proofs.«158720_j6236292514541_2_alg».proof.Proof.Gen.Kernel.Skeleton
import proofs.«158720_j6236292514541_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, whether the point fetched it or an earlier one did
    (the block index has not moved since). -/
theorem before_in0_of {c : Dev nD} (dat : Dat τ (Elt F) Unit ℕ (UR sig nD τ) ℕ cfg1 c)
    (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, whether the point fetched it or an earlier one did
    (the block index has not moved since). -/
theorem before_in1_of {c : Dev nD} (dat : Dat τ (Elt F) Unit ℕ (UR sig nD τ) ℕ cfg1 c)
    (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, whether the point fetched it or an earlier one did
    (the block index has not moved since). -/
theorem before_in2_of {c : Dev nD} (dat : Dat τ (Elt F) Unit ℕ (UR sig nD τ) ℕ cfg1 c)
    (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body loads and stores through. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1024 := Rect.unit (s := S1024) ![0] S1024.size inb_S1024_S1024_0

/-- The output tile after the body: its one store, of the payload (tile·weight + bias, cast) of the three input blocks. -/
def outTile (x0 : Vec F S512x1024 .f32) (x1 : Vec F S1024x1024 .bf16) (x2 : Vec F S1024 .f32) : Vec F S512x1024 .bf16 :=
  View.canon [⟨rX, k1_pay1 (View.ld x0 rX) (View.ld x1 rW) (View.ld x2 rB)⟩]

/-- The store covers the tile. -/
theorem cover (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 1000000 in
/-- The body on whole buffers: the inputs at `x0 x1 x2` and the output at anything run to the inputs unchanged and the
    output at `outTile x0 x1 x2`. -/
theorem sound_kernel (c : Dev nD) (E : Set ℕ) (i : grid1.Coords)
    (arg1 : Memref sig .tc .vmem S512x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S512x1024 .bf16) (harg4 : arg4.IsWhole)
    (x0 : Vec F S512x1024 .f32) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outTile x0 x1 x2)) -∗ K ⟨⟩))
      ⊢ wp frame (wpE (defs₀ (F := F)) Variants.none c none) E (cc1__proj_kernel i arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-- The proof data at entry contents `V`: each input's buffer keeps its block, the output's holds `outTile` of the point's blocks;
    the invariant is the scoped rest and the generator register; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outTile (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) :
    (dat V c).after 3 t = outTile (iblk V c 0 t) (iblk V c 1 t) (iblk V c 2 t) := by dsimp only [dat]

theorem before_0 (c : Dev nD) (t : Fin cfg1.N) (d) : (dat V c).before 0 t d = iblk V c 0 t :=
  before_in0_of V (dat V c) (A_eq V c 0) (after_0 V c) t d
theorem before_1 (c : Dev nD) (t : Fin cfg1.N) (d) : (dat V c).before 1 t d = iblk V c 1 t :=
  before_in1_of V (dat V c) (A_eq V c 1) (after_1 V c) t d
theorem before_2 (c : Dev nD) (t : Fin cfg1.N) (d) : (dat V c).before 2 t d = iblk V c 2 t :=
  before_in2_of V (dat V c) (A_eq V c 2) (after_2 V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so the triple applies; the invariant passes through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation (c : Dev nD) : BodyObligation (dat (F := F) V c) (defs₀ (F := F)) Variants.none () Set.univ := fun t => by
  rw [bigSep_W1, bigSep_W1]
  exact sound_body V c t

end Cert.Kernel.Proj1

end
-- ==== Proof.WordAttnBodyDefs.lean ====
/- The fused attention body, one key tile at a time: the names of what one step of the streaming
   softmax leaves in its four carried buffers (scaled query projection, running row maximum, running
   row sum, running weighted sum of values), the normalised output of the last step, and the two
   conditions on the key-tile coordinate that select the first and the last step. -/
import proofs.«158720_j6236292514541_2_alg».proof.Proof.Gen.Kernel.Launch
import proofs.«158720_j6236292514541_2_alg».proof.Proof.Gen.Kernel.Skeleton
import proofs.«158720_j6236292514541_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the key-tile coordinate -/

/-- The condition of the first conditional region: the key-tile coordinate is zero. -/
abbrev cond2_0 (i : grid2.Coords) : Prop :=
  (Scalar.cmpi .ne (Scalar.extui (Scalar.cmpi .eq (BitVec.ofNat 32 (i 2).val) 0#32)) 0#32) = 1#1
/-- The condition of the last conditional region: the key-tile coordinate is three. -/
abbrev cond2_1 (i : grid2.Coords) : Prop := k2_cond2 i = 1#1

/-- The first condition holds exactly at key tile 0 (decided over the four key tiles). -/
theorem cond2_0_iff (i : grid2.Coords) : cond2_0 i ↔ (i 2).val = 0 :=
  (by decide : ∀ j : Fin 4,
    (Scalar.cmpi .ne (Scalar.extui (Scalar.cmpi .eq (BitVec.ofNat 32 j.val) 0#32)) 0#32 = 1#1) ↔ j.val = 0) (i 2)
/-- The last condition holds exactly at key tile 3 (decided over the four key tiles). -/
theorem cond2_1_iff (i : grid2.Coords) : cond2_1 i ↔ (i 2).val = 3 :=
  (by decide : ∀ j : Fin 4,
    (Scalar.cmpi .ne (Scalar.extui (Scalar.cmpi .eq (BitVec.ofNat 32 j.val) 3#32)) 0#32 = 1#1) ↔ j.val = 3) (i 2)

/-! ## What one step leaves, as functions of what it finds

`qs` is the scaled query projection (rows of the query tile), `kt` and `vt` the key and value
tiles, `m`, `l`, `acc` the running row maximum, row sum and weighted sum of values. -/

/-- The scaled query projection of a query tile `x`: `x · W + b` with the scale folded into the
    weight `W` and the bias `b`, rounded to the narrow format. -/
def attnQs (x : Vec F S1x1024x1024 .f32) (W : Vec F S1024x1024 .bf16) (b : Vec F S1024 .f32) :
    Vec F S1024x1024 .bf16 := k2_pay4 x W b
/-- The running maximum at the start: minus infinity in every row. -/
def attnM0 : Vec F S1024x1 .f32 := k2_pay5 (F := F)
/-- The running sum at the start: zero in every row. -/
def attnL0 : Vec F S1024x1 .f32 := k2_pay6 (F := F)
/-- The running weighted sum at the start: zero everywhere. -/
def attnAcc0 : Vec F S1024x1024 .f32 := k2_pay7 (F := F)

/-- The new running maximum: `max m (rowmax (qs · ktᵀ))`. -/
def attnM (qs : Vec F S1024x1024 .bf16) (kt : Vec F S1x512x1024 .bf16) (m : Vec F S1024x1 .f32) :
    Vec F S1024x1 .f32 := k2_pay2 (k2_pay10 qs kt m)
/-- The new running sum: `exp (m − m') · l + rowsum (exp (qs · ktᵀ − m'))` with `m'` the new maximum. -/
def attnL (qs : Vec F S1024x1024 .bf16) (kt : Vec F S1x512x1024 .bf16) (m l : Vec F S1024x1 .f32) :
    Vec F S1024x1 .f32 := k2_pay13 qs kt m m l
/-- The new running weighted sum: `exp (m − m') · acc + exp (qs · ktᵀ − m') · vt`. -/
def attnAcc (qs : Vec F S1024x1024 .bf16) (kt vt : Vec F S1x512x1024 .bf16) (m : Vec F S1024x1 .f32)
    (acc : Vec F S1024x1024 .f32) : Vec F S1024x1024 .f32 :=
  k2_pay1 (k2_pay8 vt) (k2_pay14 qs kt m m acc) (k2_pay15 qs kt m)
/-- The output tile of the last step: the weighted sum divided row by row by the sum. -/
def attnOut (acc : Vec F S1024x1024 .f32) (l : Vec F S1024x1 .f32) : Vec F S1x1024x1024 .f32 :=
  k2_pay3 acc l

/-! ## Whole-buffer rectangles

Every load and store of the body goes through the rectangle of the buffer's own sizes at zero offsets:
a load through it reads the contents and one store through it leaves its payload. -/

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- What a whole buffer reads after a store through its whole-buffer rectangle, whatever was stored
    before: the payload of that store. -/
theorem read_store_whole {Val : EltTy → Type} [∀ e, Nonempty (Val e)] {sig : RefSig} {κ : Kind} {sp : Space}
    {S : Shape} {e : EltTy} (v : View sig κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _
      (fun y => ⟨_, List.mem_cons.mpr (Or.inl rfl), View.mem_set_unit_zero h inb y⟩),
    View.canon_cons_unit_zero h inb]

/-- What a load through the whole-buffer rectangle reads after a store through it, whatever was
    stored before: the payload of that store. -/
theorem readCov_store_whole {Val : EltTy → Type} [∀ e, Nonempty (Val e)] {sig : RefSig} {κ : Kind} {sp : Space}
    {S : Shape} {e : EltTy} (v : View sig κ sp S e) {off : Fin S.rank → Nat}
    (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  rw [View.readCov_eq_canon_ld v _ _
      (fun y => ⟨_, List.mem_cons.mpr (Or.inl rfl), View.mem_set_unit_zero h inb y⟩),
    View.canon_cons_unit_zero h inb, View.ld_unit_zero h inb]

end Cert.Kernel.Gen

end
-- ==== Proof.WordAttn.lean ====
/-
  The fused attention region: grid (8 batches, 2 query tiles, 4 key tiles), the key tile innermost. Along the four key
  tiles of one (batch, query tile) the body carries four buffers — the scaled query projection, the running row maximum,
  the running row sum and the running weighted sum of values —, sets them at key tile 0 and stores the output tile at key
  tile 3. This module names what the carried buffers hold after each grid point (by recursion on the point), the
  invariant between points, and the pipeline's proof data at given region-entry contents.
-/
import proofs.«158720_j6236292514541_2_alg».proof.Proof.WordAttnBodyDefs
import Idealize.ShloMosaic.Lib.Pipeline.RegionsLoop
import Idealize.ShloMosaic.Lib.Pipeline.FrameSuffix
import Idealize.ShloMosaic.Lib.Ring

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at grid point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, whether the point fetched it or an earlier one did. -/
theorem before_in0_of {c : Dev nD} (dat : Dat τ (Elt F) Unit ℕ (UR sig nD τ) ℕ cfg2 c)
    (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, whether the point fetched it or an earlier one did. -/
theorem before_in1_of {c : Dev nD} (dat : Dat τ (Elt F) Unit ℕ (UR sig nD τ) ℕ cfg2 c)
    (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, whether the point fetched it or an earlier one did. -/
theorem before_in2_of {c : Dev nD} (dat : Dat τ (Elt F) Unit ℕ (UR sig nD τ) ℕ cfg2 c)
    (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, whether the point fetched it or an earlier one did. -/
theorem before_in3_of {c : Dev nD} (dat : Dat τ (Elt F) Unit ℕ (UR sig nD τ) ℕ cfg2 c)
    (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every point, whether the point fetched it or an earlier one did. -/
theorem before_in4_of {c : Dev nD} (dat : Dat τ (Elt F) Unit ℕ (UR sig nD τ) ℕ cfg2 c)
    (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The carried buffers -/

/-- What the four carried buffers hold. -/
structure Scr (F : FTy → Type) [FloatOps F] where
  qs : Vec F S1024x1024 .bf16
  m : Vec F S1024x1 .f32
  l : Vec F S1024x1 .f32
  acc : Vec F S1024x1024 .f32

/-- After a point at key tile 0: the projection of the query tile, and one step from the initial running values. -/
def stepFirst (x0 : Vec F S1x1024x1024 .f32) (x1 : Vec F S1024x1024 .bf16) (x2 : Vec F S1024 .f32)
    (x3 x4 : Vec F S1x512x1024 .bf16) : Scr F :=
  ⟨attnQs x0 x1 x2, attnM (attnQs x0 x1 x2) x3 attnM0, attnL (attnQs x0 x1 x2) x3 attnM0 attnL0,
    attnAcc (attnQs x0 x1 x2) x3 x4 attnM0 attnAcc0⟩

/-- After a point at a later key tile: one step from what the point before left. -/
def stepNext (x3 x4 : Vec F S1x512x1024 .bf16) (s : Scr F) : Scr F :=
  ⟨s.qs, attnM s.qs x3 s.m, attnL s.qs x3 s.m s.l, attnAcc s.qs x3 x4 s.m s.acc⟩

/-- What the carried buffers hold after the first `n` grid points (at `n = 0` a value nothing reads). -/
def scr (c : Dev nD) : ℕ → Scr F
  | 0 => ⟨attnQs (iblk V c 0 ⟨0, by decide⟩) (iblk V c 1 ⟨0, by decide⟩) (iblk V c 2 ⟨0, by decide⟩), attnM0, attnL0, attnAcc0⟩
  | n + 1 =>
    if h : n < cfg2.N then
      if n % 4 = 0 then stepFirst (iblk V c 0 ⟨n, h⟩) (iblk V c 1 ⟨n, h⟩) (iblk V c 2 ⟨n, h⟩) (iblk V c 3 ⟨n, h⟩) (iblk V c 4 ⟨n, h⟩)
      else stepNext (iblk V c 3 ⟨n, h⟩) (iblk V c 4 ⟨n, h⟩) (scr c n)
    else scr c n

theorem scr_first (c : Dev nD) (t : Fin cfg2.N) (h : t.val % 4 = 0) :
    scr V c (t.val + 1) = stepFirst (iblk V c 0 t) (iblk V c 1 t) (iblk V c 2 t) (iblk V c 3 t) (iblk V c 4 t) := by
  rw [scr, dif_pos t.isLt, if_pos h]
theorem scr_next (c : Dev nD) (t : Fin cfg2.N) (h : t.val % 4 ≠ 0) :
    scr V c (t.val + 1) = stepNext (iblk V c 3 t) (iblk V c 4 t) (scr V c t.val) := by
  rw [scr, dif_pos t.isLt, if_neg h]

/-! ## The invariant between points -/

/-- The four carried buffers at contents `s`. -/
def scratchAt (c : Dev nD) (s : Scr F) : sProp 𝕄 :=
  iprop(owns (c : Thread nD τ) (Memref.whole cc2_scratch0 : Memref sig .tc .vmem S1024x1024 .bf16) fullShare s.qs
    ∗ owns (c : Thread nD τ) (Memref.whole cc2_scratch1 : Memref sig .tc .vmem S1024x1 .f32) fullShare s.m
    ∗ owns (c : Thread nD τ) (Memref.whole cc2_scratch2 : Memref sig .tc .vmem S1024x1 .f32) fullShare s.l
    ∗ owns (c : Thread nD τ) (Memref.whole cc2_scratch3 : Memref sig .tc .vmem S1024x1024 .f32) fullShare s.acc)

/-- The scoped buffers of the other two regions, each whole at some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- Before grid point `n` (and after point `n − 1`): the other regions' scoped buffers, the generator register, and the
    carried buffers — at what the points so far leave when the next point is not the first of its four (else at anything:
    that point overwrites them). -/
def Phi (c : Dev nD) (n : ℕ) : sProp 𝕄 :=
  iprop(otherScoped c ∗ (∃ r, prngReg c r) ∗ ∃ s : Scr F, ⌜n % 4 ≠ 0 → s = scr V c n⌝ ∗ scratchAt c s)

/-! ## The proof data -/

/-- At entry contents `V`: each input's buffer keeps its block; the output's holds, after a point, the normalised
    weighted sum of what the carried buffers then hold (read only at the points that write it back: key tile 3). -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => attnOut (scr V c (t.val + 1)).acc (scr V c (t.val + 1)).l
  Φ t := Phi V c t.val
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) :
    (dat V c).after 5 t = attnOut (scr V c (t.val + 1)).acc (scr V c (t.val + 1)).l := by dsimp only [dat]

theorem before_0 (c : Dev nD) (t : Fin cfg2.N) (d) : (dat V c).before 0 t d = iblk V c 0 t :=
  before_in0_of V (dat V c) (A_eq V c 0) (after_0 V c) t d
theorem before_1 (c : Dev nD) (t : Fin cfg2.N) (d) : (dat V c).before 1 t d = iblk V c 1 t :=
  before_in1_of V (dat V c) (A_eq V c 1) (after_1 V c) t d
theorem before_2 (c : Dev nD) (t : Fin cfg2.N) (d) : (dat V c).before 2 t d = iblk V c 2 t :=
  before_in2_of V (dat V c) (A_eq V c 2) (after_2 V c) t d
theorem before_3 (c : Dev nD) (t : Fin cfg2.N) (d) : (dat V c).before 3 t d = iblk V c 3 t :=
  before_in3_of V (dat V c) (A_eq V c 3) (after_3 V c) t d
theorem before_4 (c : Dev nD) (t : Fin cfg2.N) (d) : (dat V c).before 4 t d = iblk V c 4 t :=
  before_in4_of V (dat V c) (A_eq V c 4) (after_4 V c) t d

/-! ## The invariant at the region's two ends -/

/-- At entry the carried buffers hold anything: the first point overwrites them. -/
theorem phi_in (c : Dev nD) :
    iprop((∃ r, prngReg c r) ∗ Pipeline.scopedRest (Ix := Unit) (Name := ℕ) (U := UR sig nD τ) (Lvl := ℕ) (Val := Elt F) spec2 c) ⊢ (Phi V c 0 : sProp 𝕄) := by
  rw [scopedRest2_eq]; unfold Phi otherScoped scratchAt
  simp only [owns_whole_eq]
  iintro ⟨Hp, H1, H2, H3, H4, H5, H6, H7, H8, H9, H10, H11, H12, ⟨%f0, S0⟩, ⟨%f1, S1⟩, ⟨%f2, S2⟩, ⟨%f3, S3⟩⟩
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [Hp]; · iexact Hp
  iexists (⟨f0, f1, f2, f3⟩ : Scr F)
  isplitr; · ipureintro; intro h; exact absurd rfl h
  isplitl [S0]; · iexists f0; isplitr; · ipureintro; rfl
                  iexact S0
  isplitl [S1]; · iexists f1; isplitr; · ipureintro; rfl
                  iexact S1
  isplitl [S2]; · iexists f2; isplitr; · ipureintro; rfl
                  iexact S2
  iexists f3; isplitr; · ipureintro; rfl
  iexact S3

/-- At exit the carried buffers are given back at whatever they hold. -/
theorem phi_out (c : Dev nD) (n : ℕ) :
    (Phi V c n : sProp 𝕄) ⊢ iprop((∃ r, prngReg c r) ∗ Pipeline.scopedRest (Ix := Unit) (Name := ℕ) (U := UR sig nD τ) (Lvl := ℕ) (Val := Elt F) spec2 c) := by
  rw [scopedRest2_eq]; unfold Phi otherScoped scratchAt
  simp only [owns_whole_eq]
  iintro ⟨⟨H1, H2, H3, H4, H5, H6, H7, H8, H9, H10, H11, H12⟩, Hp, ⟨%s, -, ⟨%f0, -, S0⟩, ⟨%f1, -, S1⟩, ⟨%f2, -, S2⟩, ⟨%f3, -, S3⟩⟩⟩
  isplitl [Hp]; · iexact Hp
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexists f0; iexact S0
  isplitl [S1]; · iexists f1; iexact S1
  isplitl [S2]; · iexists f2; iexact S2
  iexists f3; iexact S3

end Cert.Kernel.Attn

end
-- ==== Proof.WordContents.lean ====
/-
  What every unscoped buffer of a core holds between two segments of the program: the launch contents, then each
  host stretch's operations applied, then, after a region, the region's output array replaced by what the region's
  write-backs leave (the array read off the region's proof data after its last grid point).
-/
import proofs.«158720_j6236292514541_2_alg».proof.Proof.WordProj0
import proofs.«158720_j6236292514541_2_alg».proof.Proof.WordProj1
import proofs.«158720_j6236292514541_2_alg».proof.Proof.WordAttn
import proofs.«158720_j6236292514541_2_alg».proof.Proof.Gen.Kernel.Regions

set_option maxRecDepth 16384

noncomputable section

namespace Cert.Kernel.Run

open Cert.Kernel Cert.Kernel.Gen
open Idealize.ShloMosaic Idealize.ShloMosaic.TcCoe
open Idealize.SL Idealize.SL.Sem
open Idealize.ShloMosaic.Pipeline (Dat)

variable {F : FTy → Type} [FloatOps F]

/-- A core's buffer contents, one buffer per reference. -/
abbrev Contents (F : FTy → Type) [FloatOps F] : Type := (c : Dev nD) → (b : Ref sig .tc) → Buf (Elt F) ((c : Thread nD τ).loc b)

variable (m : (ℓ : Loc nD τ sig) → Buf (Elt F) ℓ)

/-- Contents nothing reads: the launch memory. -/
abbrev junk : Outs (F := F) := fun _ r c => m ((c : Thread nD τ).loc r)

/-- What the key projection is entered with: the launch contents after the first host stretch. -/
abbrev C1 : Contents F := fun c b => V1 m c b
/-- After the key projection: its output array at what the write-backs leave. -/
def o2 (r : Ref sig .tc) (c : Dev nD) : Buf (Elt F) ((c : Thread nD τ).loc r) :=
  Pipeline.withArrays spec0 c (V1 m c) (fun w => (Proj0.dat (C1 m) c).arrAt w cfg0.N) (Proc.devRef .tc r)
def outsA : Outs (F := F) := fun J r c => if J = 2 then o2 m r c else junk m J r c
/-- What the value projection is entered with. -/
abbrev C3 : Contents F := fun c b => V3 m (outsA m) c b
def o4 (r : Ref sig .tc) (c : Dev nD) : Buf (Elt F) ((c : Thread nD τ).loc r) :=
  Pipeline.withArrays spec1 c (V3 m (outsA m) c) (fun w => (Proj1.dat (C3 m) c).arrAt w cfg1.N) (Proc.devRef .tc r)
def outsB : Outs (F := F) := fun J r c => if J = 2 then o2 m r c else if J = 4 then o4 m r c else junk m J r c
/-- What the attention region is entered with. -/
abbrev C5 : Contents F := fun c b => V5 m (outsB m) c b
def o6 (r : Ref sig .tc) (c : Dev nD) : Buf (Elt F) ((c : Thread nD τ).loc r) :=
  Pipeline.withArrays spec2 c (V5 m (outsB m) c) (fun w => (Attn.dat (C5 m) c).arrAt w cfg2.N) (Proc.devRef .tc r)
/-- What each region leaves in its output array. -/
def outs : Outs (F := F) := fun J r c =>
  if J = 2 then o2 m r c else if J = 4 then o4 m r c else if J = 6 then o6 m r c else junk m J r c

/-- Each region's output array, after the region, is the array of its proof data after the last grid point. -/
theorem o2_out (c : Dev nD) : o2 m main_v8 c = (Proj0.dat (C1 m) c).arrAt 3 cfg0.N := by
  unfold o2; exact Pipeline.withArrays_arr spec0 launch0.win.arr_inj c _ _ 3
theorem o4_out (c : Dev nD) : o4 m main_v11 c = (Proj1.dat (C3 m) c).arrAt 3 cfg1.N := by
  unfold o4; exact Pipeline.withArrays_arr spec1 launch1.win.arr_inj c _ _ 3
theorem o6_out (c : Dev nD) : o6 m main_v13 c = (Attn.dat (C5 m) c).arrAt 5 cfg2.N := by
  unfold o6; exact Pipeline.withArrays_arr spec2 launch2.win.arr_inj c _ _ 5

end Cert.Kernel.Run

end
-- ==== Proof.WordAttnBodyB.lean ====
/- The fused attention body at a middle key tile (key tiles 1 and 2): neither conditional region is
   entered; the step reads the carried buffers and leaves the new running maximum, sum and weighted
   sum in them, the scaled query projection and the output tile untouched. -/
import proofs.«158720_j6236292514541_2_alg».proof.Proof.WordAttnBodyDefs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a key tile that is neither the first nor the last, on whole buffers — the five inputs at
    `x0 … x4`, the output tile at `d`, the carried buffers at `qs`, `m`, `l`, `acc` — the body runs to
    the continuation with the inputs, the output tile and the query projection as they were and the
    running maximum, sum and weighted sum advanced by one step. -/
theorem attn_body_B (c : Dev nD) (E : Set ℕ) (i : grid2.Coords) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x1024x1024 .f32) (harg8 : arg8.IsWhole) (arg9 : Memref sig .tc .vmem S1024x1024 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole)
    (h0 : (i 2).val ≠ 0) (h3 : (i 2).val ≠ 3)
    (x0 : Vec F S1x1024x1024 .f32) (x1 : Vec F S1024x1024 .bf16) (x2 : Vec F S1024 .f32) (x3 x4 : Vec F S1x512x1024 .bf16)
    (d : Vec F S1x1024x1024 .f32) (qs : Vec F S1024x1024 .bf16) (m l : Vec F S1024x1 .f32) (acc : Vec F S1024x1024 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare d
        ∗ owns (c : Thread nD τ) arg9 fullShare qs ∗ owns (c : Thread nD τ) arg10 fullShare m ∗ owns (c : Thread nD τ) arg11 fullShare l
        ∗ owns (c : Thread nD τ) arg12 fullShare acc
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (d)
            ∗ owns (c : Thread nD τ) arg9 fullShare (qs)
            ∗ owns (c : Thread nD τ) arg10 fullShare (attnM qs x3 m)
            ∗ owns (c : Thread nD τ) arg11 fullShare (attnL qs x3 m l)
            ∗ owns (c : Thread nD τ) arg12 fullShare (attnAcc qs x3 x4 m acc)) -∗ K ⟨⟩))
      ⊢ wp frame (wpE (defs₀ (F := F)) Variants.none c none) E (cc2__fused_attn_kernel i arg3 harg3 arg4 harg4 arg5 harg5 arg6 harg6 arg7 harg7 arg8 harg8 arg9 harg9 arg10 harg10 arg11 harg11 arg12 harg12) K := by
  have hc0 : ¬cond2_0 i := fun h => h0 ((cond2_0_iff i).mp h)
  have hc1 : ¬cond2_1 i := fun h => h3 ((cond2_1_iff i).mp h)
  simp only [cc2__fused_attn_kernel_eq_skeleton]; unfold cc2__fused_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  obtain rfl := harg12.eq_unread hf9
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr
    swap; · iexact H7
    ipureintro
    rw [read_store_whole _ _ zeros2]
    delta attn_body_B.sl.r_1
    simp only [View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
    rfl
  isplitl [H8]
  · iexists _; isplitr
    swap; · iexact H8
    ipureintro
    rw [read_store_whole _ _ zeros2]
    simp only [View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
    rfl
  iexists _; isplitr
  swap; · iexact H9
  ipureintro
  rw [read_store_whole _ _ zeros2]
  delta attn_body_B.sl.r attn_body_B.sl.r_2 attn_body_B.sl.r_3
  simp only [View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
  rfl

end Cert.Kernel.Gen

end
-- ==== Proof.WordAttnBodyA.lean ====
/- The fused attention body at the first key tile (key tile 0): the first conditional region is
   entered, the last is not; the step computes the scaled query projection, resets the running
   maximum, sum and weighted sum, and advances them by one step. -/
import proofs.«158720_j6236292514541_2_alg».proof.Proof.WordAttnBodyB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first key tile, on whole buffers — the five inputs at `x0 … x4`, the output tile at `d`,
    the four carried buffers at any contents `qs`, `m`, `l`, `acc` (never read before they are
    overwritten) — the body runs to the continuation with the inputs and the output tile as they were,
    the query projection computed from the query tile, and the running maximum, sum and weighted sum
    one step on from minus infinity, zero and zero. -/
theorem attn_body_A (c : Dev nD) (E : Set ℕ) (i : grid2.Coords) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x1024x1024 .f32) (harg8 : arg8.IsWhole) (arg9 : Memref sig .tc .vmem S1024x1024 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole)
    (h0 : (i 2).val = 0)
    (x0 : Vec F S1x1024x1024 .f32) (x1 : Vec F S1024x1024 .bf16) (x2 : Vec F S1024 .f32) (x3 x4 : Vec F S1x512x1024 .bf16)
    (d : Vec F S1x1024x1024 .f32) (qs : Vec F S1024x1024 .bf16) (m l : Vec F S1024x1 .f32) (acc : Vec F S1024x1024 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare d
        ∗ owns (c : Thread nD τ) arg9 fullShare qs ∗ owns (c : Thread nD τ) arg10 fullShare m ∗ owns (c : Thread nD τ) arg11 fullShare l
        ∗ owns (c : Thread nD τ) arg12 fullShare acc
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (d)
            ∗ owns (c : Thread nD τ) arg9 fullShare (attnQs x0 x1 x2)
            ∗ owns (c : Thread nD τ) arg10 fullShare (attnM (attnQs x0 x1 x2) x3 attnM0)
            ∗ owns (c : Thread nD τ) arg11 fullShare (attnL (attnQs x0 x1 x2) x3 attnM0 attnL0)
            ∗ owns (c : Thread nD τ) arg12 fullShare (attnAcc (attnQs x0 x1 x2) x3 x4 attnM0 attnAcc0)) -∗ K ⟨⟩))
      ⊢ wp frame (wpE (defs₀ (F := F)) Variants.none c none) E (cc2__fused_attn_kernel i arg3 harg3 arg4 harg4 arg5 harg5 arg6 harg6 arg7 harg7 arg8 harg8 arg9 harg9 arg10 harg10 arg11 harg11 arg12 harg12) K := by
  have hc0 : cond2_0 i := (cond2_0_iff i).mpr h0
  have hc1 : ¬cond2_1 i := fun h => by have := (cond2_1_iff i).mp h; omega
  simp only [cc2__fused_attn_kernel_eq_skeleton]; unfold cc2__fused_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  obtain rfl := harg12.eq_unread hf9
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr
    swap; · iexact H6
    ipureintro
    delta attn_body_A.sl.H6_1
    rw [read_store_whole _ _ zeros2]
    simp only [View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
    rfl
  isplitl [H7]
  · iexists _; isplitr
    swap; · iexact H7
    ipureintro
    rw [read_store_whole _ _ zeros2]
    delta attn_body_A.sl.r_1 attn_body_A.sl.v3 attn_body_A.sl.v10 attn_body_A.sl.H6_1 attn_body_A.sl.H7_1
    simp only [readCov_store_whole (S := S1024x1024) _ zeros2 inb_S1024x1024_S1024x1024_0_0,
      readCov_store_whole (S := S1024x1) _ zeros2 inb_S1024x1_S1024x1_0_0,
      View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
    rfl
  isplitl [H8]
  · iexists _; isplitr
    swap; · iexact H8
    ipureintro
    rw [read_store_whole _ _ zeros2]
    delta attn_body_A.sl.v3 attn_body_A.sl.v10 attn_body_A.sl.v20 attn_body_A.sl.H6_1 attn_body_A.sl.H7_1 attn_body_A.sl.H8_1
    simp only [readCov_store_whole (S := S1024x1024) _ zeros2 inb_S1024x1024_S1024x1024_0_0,
      readCov_store_whole (S := S1024x1) _ zeros2 inb_S1024x1_S1024x1_0_0,
      View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
    rfl
  iexists _; isplitr
  swap; · iexact H9
  ipureintro
  rw [read_store_whole _ _ zeros2]
  delta attn_body_A.sl.r attn_body_A.sl.r_2 attn_body_A.sl.r_3 attn_body_A.sl.v3 attn_body_A.sl.v10 attn_body_A.sl.v28 attn_body_A.sl.H6_1 attn_body_A.sl.H7_1 attn_body_A.sl.H9_1
  simp only [readCov_store_whole (S := S1024x1024) _ zeros2 inb_S1024x1024_S1024x1024_0_0,
      readCov_store_whole (S := S1024x1) _ zeros2 inb_S1024x1_S1024x1_0_0,
    View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
  rfl

end Cert.Kernel.Gen

end
-- ==== Proof.WordAttnBodyC.lean ====
/- The fused attention body at the last key tile (key tile 3): the first conditional region is not
   entered, the last is; the step advances the running maximum, sum and weighted sum and writes the
   normalised output tile. -/
import proofs.«158720_j6236292514541_2_alg».proof.Proof.WordAttnBodyA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last key tile, on whole buffers — the five inputs at `x0 … x4`, the output tile at `d`, the
    carried buffers at `qs`, `m`, `l`, `acc` — the body runs to the continuation with the inputs and the
    query projection as they were, the running maximum, sum and weighted sum advanced by one step, and
    the output tile at the new weighted sum divided row by row by the new sum. -/
theorem attn_body_C (c : Dev nD) (E : Set ℕ) (i : grid2.Coords) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x1024x1024 .f32) (harg8 : arg8.IsWhole) (arg9 : Memref sig .tc .vmem S1024x1024 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole)
    (h3 : (i 2).val = 3)
    (x0 : Vec F S1x1024x1024 .f32) (x1 : Vec F S1024x1024 .bf16) (x2 : Vec F S1024 .f32) (x3 x4 : Vec F S1x512x1024 .bf16)
    (d : Vec F S1x1024x1024 .f32) (qs : Vec F S1024x1024 .bf16) (m l : Vec F S1024x1 .f32) (acc : Vec F S1024x1024 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare d
        ∗ owns (c : Thread nD τ) arg9 fullShare qs ∗ owns (c : Thread nD τ) arg10 fullShare m ∗ owns (c : Thread nD τ) arg11 fullShare l
        ∗ owns (c : Thread nD τ) arg12 fullShare acc
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (attnOut (attnAcc qs x3 x4 m acc) (attnL qs x3 m l))
            ∗ owns (c : Thread nD τ) arg9 fullShare (qs)
            ∗ owns (c : Thread nD τ) arg10 fullShare (attnM qs x3 m)
            ∗ owns (c : Thread nD τ) arg11 fullShare (attnL qs x3 m l)
            ∗ owns (c : Thread nD τ) arg12 fullShare (attnAcc qs x3 x4 m acc)) -∗ K ⟨⟩))
      ⊢ wp frame (wpE (defs₀ (F := F)) Variants.none c none) E (cc2__fused_attn_kernel i arg3 harg3 arg4 harg4 arg5 harg5 arg6 harg6 arg7 harg7 arg8 harg8 arg9 harg9 arg10 harg10 arg11 harg11 arg12 harg12) K := by
  have hc0 : ¬cond2_0 i := fun h => by have := (cond2_0_iff i).mp h; omega
  have hc1 : cond2_1 i := (cond2_1_iff i).mpr h3
  simp only [cc2__fused_attn_kernel_eq_skeleton]; unfold cc2__fused_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  obtain rfl := harg12.eq_unread hf9
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    rw [read_store_whole _ _ zeros3]
    delta attn_body_C.sl.v43 attn_body_C.sl.v44 attn_body_C.sl.H9_1 attn_body_C.sl.H8_1 attn_body_C.sl.r attn_body_C.sl.r_2 attn_body_C.sl.r_3
    simp only [readCov_store_whole (S := S1024x1024) _ zeros2 inb_S1024x1024_S1024x1024_0_0,
      readCov_store_whole (S := S1024x1) _ zeros2 inb_S1024x1_S1024x1_0_0,
      View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
    rfl
  isplitl [H6]
  · iexists _; isplitr; · ipureintro; exact harg9.read_unread _
    iexact H6
  isplitl [H7]
  · iexists _; isplitr
    swap; · iexact H7
    ipureintro
    rw [read_store_whole _ _ zeros2]
    delta attn_body_C.sl.r_1
    simp only [View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
    rfl
  isplitl [H8]
  · iexists _; isplitr
    swap; · iexact H8
    ipureintro
    delta attn_body_C.sl.H8_1
    rw [read_store_whole _ _ zeros2]
    simp only [View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
    rfl
  iexists _; isplitr
  swap; · iexact H9
  ipureintro
  delta attn_body_C.sl.H9_1
  rw [read_store_whole _ _ zeros2]
  delta attn_body_C.sl.r attn_body_C.sl.r_2 attn_body_C.sl.r_3
  simp only [View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
  rfl

end Cert.Kernel.Gen

end
-- ==== Proof.WordAttnObl.lean ====
/-
  The attention region's body obligation: at every grid point the body, called on the windows' current buffers and the
  four carried buffers, leaves what the proof data states. The point's key tile (the grid point modulo 4) selects the
  case: tile 0 sets the carried buffers, tiles 1 and 2 advance them, tile 3 advances them and stores the output tile; at
  the other tiles the output buffer is handed back as it was found.
-/
import proofs.«158720_j6236292514541_2_alg».proof.Proof.WordAttn
import proofs.«158720_j6236292514541_2_alg».proof.Proof.WordAttnBodyA
import proofs.«158720_j6236292514541_2_alg».proof.Proof.WordAttnBodyB
import proofs.«158720_j6236292514541_2_alg».proof.Proof.WordAttnBodyC

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The key tile of a grid point -/

/-- The key-tile coordinate of grid point `t` is `t mod 4` (decided over the 64 points). -/
theorem coord2_val : ∀ t : Fin cfg2.N, ((cfg2.grid.coords t) 2).val = t.val % 4 :=
  (by decide +kernel : ∀ t : Fin grid2.N, ((grid2.coords t) 2).val = t.val % 4)

/-- The output window is idle exactly off key tile 3, -/
theorem idle5_of_ne (t : Fin cfg2.N) (h : t.val % 4 ≠ 3) : idle2 5 (grid2.coords t) = true := by
  have hc : ¬ (k2_cond2 (cfg2.grid.coords t) = 1#1) := fun hc => h ((coord2_val t) ▸ (cond2_1_iff _).mp hc)
  show (!(k2_cond2 (cfg2.grid.coords t) == 1#1)) = true
  rw [beq_eq_false_iff_ne.mpr hc]; rfl
theorem idle5_of_eq (t : Fin cfg2.N) (h : t.val % 4 = 3) : idle2 5 (grid2.coords t) = false := by
  have hc : k2_cond2 (cfg2.grid.coords t) = 1#1 := (cond2_1_iff _).mpr ((coord2_val t).trans h)
  show (!(k2_cond2 (cfg2.grid.coords t) == 1#1)) = false
  rw [hc]; rfl
/-- and is written back exactly at key tile 3. -/
theorem flush5_of_ne (t : Fin cfg2.N) (h : t.val % 4 ≠ 3) : (win2 5).flush t = false := by
  cases hf : (win2 5).flush t with
  | false => rfl
  | true => exact absurd ((flush2_5 t).mp hf) h

/-! ## The body obligation at a point -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns: each input's buffer at its block; the output's at the stated tile where the point stores it,
    and as found where it does not. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ (match cfg2.idle 5 (cfg2.grid.coords t) with
        | true =>
          match (cfg2.win 5).flush t with
          | false => iprop(∃ d, owns (c : Thread nD τ) (st2_5 t) fullShare ((dat V c).before 5 t d))
          | true => owns (c : Thread nD τ) (st2_5 t) fullShare ((dat V c).after 5 t)
        | false => owns (c : Thread nD τ) (st2_5 t) fullShare ((dat V c).after 5 t)))

set_option maxHeartbeats 1000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.castSucc = Phi V c t.val from rfl, show (dat V c).Φ t.succ = Phi V c (t.val + 1) from rfl,
    show (dat V c).owesAt () t.succ = (dat V c).owesAt () t.castSucc from rfl,
    after_0, after_1, after_2, after_3, after_4, after_5]
  unfold Phi scratchAt
  iintro ⟨⟨Hos, Hp, ⟨%s, %hs, S0, S1, S2, S3⟩⟩, Ho, ⟨%d0, H0⟩, ⟨%d1, H1⟩, ⟨%d2, H2⟩, ⟨%d3, H3⟩, ⟨%d4, H4⟩, ⟨%d5, H5⟩⟩
  by_cases hA : t.val % 4 = 0
  · -- key tile 0: the carried buffers are set
    have h3 : t.val % 4 ≠ 3 := by omega
    rw [idle5_of_ne t h3, flush5_of_ne t h3]
    dsimp only
    iapply (attn_body_A c Set.univ (grid2.coords t) _ _ _ _ _ _ _ _ _ _ _ _ _ _ _ _ _ _ _ _ ((coord2_val t).trans hA)
      (iblk V c 0 t) (iblk V c 1 t) (iblk V c 2 t) (iblk V c 3 t) (iblk V c 4 t) ((dat V c).before 5 t d5) s.qs s.m s.l s.acc _)
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    iintro ⟨H0, H1, H2, H3, H4, H5, S0, S1, S2, S3⟩
    isplitl [Hos Hp S0 S1 S2 S3]
    · isplitl [Hos]; · iexact Hos
      isplitl [Hp]; · iexact Hp
      iexists (scr V c (t.val + 1))
      isplitr; · ipureintro; exact fun _ => rfl
      rw [scr_first V c t hA]; unfold stepFirst; dsimp only
      isplitl [S0]; · iexact S0
      isplitl [S1]; · iexact S1
      isplitl [S2]; · iexact S2
      iexact S3
    isplitl [Ho]; · iexact Ho
    isplitl [H0]; · iexact H0
    isplitl [H1]; · iexact H1
    isplitl [H2]; · iexact H2
    isplitl [H3]; · iexact H3
    isplitl [H4]; · iexact H4
    iexists d5; iexact H5
  · obtain rfl : s = scr V c t.val := hs hA
    by_cases hC : t.val % 4 = 3
    · -- key tile 3: one more step, and the output tile is stored
      rw [idle5_of_eq t hC]
      dsimp only
      iapply (attn_body_C c Set.univ (grid2.coords t) _ _ _ _ _ _ _ _ _ _ _ _ _ _ _ _ _ _ _ _ ((coord2_val t).trans hC)
        (iblk V c 0 t) (iblk V c 1 t) (iblk V c 2 t) (iblk V c 3 t) (iblk V c 4 t) ((dat V c).before 5 t d5)
        (scr V c t.val).qs (scr V c t.val).m (scr V c t.val).l (scr V c t.val).acc _)
      isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      isplitl [S3]; · iexact S3
      iintro ⟨H0, H1, H2, H3, H4, H5, S0, S1, S2, S3⟩
      rw [scr_next V c t hA]; unfold stepNext; dsimp only
      isplitl [Hos Hp S0 S1 S2 S3]
      · isplitl [Hos]; · iexact Hos
        isplitl [Hp]; · iexact Hp
        iexists (stepNext (iblk V c 3 t) (iblk V c 4 t) (scr V c t.val))
        isplitr; · ipureintro; exact fun _ => rfl
        unfold stepNext; dsimp only
        isplitl [S0]; · iexact S0
        isplitl [S1]; · iexact S1
        isplitl [S2]; · iexact S2
        iexact S3
      isplitl [Ho]; · iexact Ho
      isplitl [H0]; · iexact H0
      isplitl [H1]; · iexact H1
      isplitl [H2]; · iexact H2
      isplitl [H3]; · iexact H3
      isplitl [H4]; · iexact H4
      iexact H5
    · -- key tiles 1 and 2: one more step
      rw [idle5_of_ne t hC, flush5_of_ne t hC]
      dsimp only
      iapply (attn_body_B c Set.univ (grid2.coords t) _ _ _ _ _ _ _ _ _ _ _ _ _ _ _ _ _ _ _ _
        (fun h => hA ((coord2_val t).symm.trans h)) (fun h => hC ((coord2_val t).symm.trans h))
        (iblk V c 0 t) (iblk V c 1 t) (iblk V c 2 t) (iblk V c 3 t) (iblk V c 4 t) ((dat V c).before 5 t d5)
        (scr V c t.val).qs (scr V c t.val).m (scr V c t.val).l (scr V c t.val).acc _)
      isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      isplitl [S3]; · iexact S3
      iintro ⟨H0, H1, H2, H3, H4, H5, S0, S1, S2, S3⟩
      isplitl [Hos Hp S0 S1 S2 S3]
      · isplitl [Hos]; · iexact Hos
        isplitl [Hp]; · iexact Hp
        iexists (scr V c (t.val + 1))
        isplitr; · ipureintro; exact fun _ => rfl
        rw [scr_next V c t hA]; unfold stepNext; dsimp only
        isplitl [S0]; · iexact S0
        isplitl [S1]; · iexact S1
        isplitl [S2]; · iexact S2
        iexact S3
      isplitl [Ho]; · iexact Ho
      isplitl [H0]; · iexact H0
      isplitl [H1]; · iexact H1
      isplitl [H2]; · iexact H2
      isplitl [H3]; · iexact H3
      isplitl [H4]; · iexact H4
      iexists d5; iexact H5

/-- The pipeline library's body obligation, at every point. -/
theorem body_obligation (c : Dev nD) : BodyObligation (dat (F := F) V c) (defs₀ (F := F)) Variants.none () Set.univ := fun t => by
  rw [bigSep_W2, bigSep_W2]
  exact sound_body V c t

end Cert.Kernel.Attn

end
-- ==== Proof.WordRun.lean ====
/-
  The whole program as a chain of segments: three stretches of host operations and three kernel regions. Between
  two segments every unscoped buffer of the core is held whole at named contents: the launch contents, then each host
  stretch's operations applied, then, after a region, the region's output array replaced by what the region's
  write-backs leave. Over those contents this module gives the three regions as segments and proves the run of the
  program: every weakly fair execution terminates, the argument arrays end as launched, and the result array ends at what
  the attention region's write-backs leave.
-/
import proofs.«158720_j6236292514541_2_alg».proof.Proof.WordContents
import proofs.«158720_j6236292514541_2_alg».proof.Proof.WordAttnObl

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The proof data of the three pipelines, and what rides beside the buffers -/

def pdats : (p : Fin 3) → (c : Dev nD) → Dat τ (Elt F) Unit ℕ (UR sig nD τ) ℕ (Pipeline.pin (pcfgs (F := F)) adm p) c
  | ⟨0, _⟩ => fun c => Proj0.dat (C1 m) c
  | ⟨1, _⟩ => fun c => Proj1.dat (C3 m) c
  | ⟨2, _⟩ => fun c => Attn.dat (C5 m) c

abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)

/-! ## The three regions as segments -/

theorem hF0 (c : Dev nD) (w : Fin cfg0.W) : (pdats m 0 c).arrAt w cfg0.N = V2 m (outs m) c (Pipeline.arrRef spec0 w) := by
  match w with
  | ⟨0, _⟩ => exact ((Proj0.dat (C1 m) c).arrAt_in 0 rfl _).trans ((Proj0.A_eq (C1 m) c 0).trans (V2_of m (outs m) c _ (by decide)).symm)
  | ⟨1, _⟩ => exact ((Proj0.dat (C1 m) c).arrAt_in 1 rfl _).trans ((Proj0.A_eq (C1 m) c 1).trans (V2_of m (outs m) c _ (by decide)).symm)
  | ⟨2, _⟩ => exact ((Proj0.dat (C1 m) c).arrAt_in 2 rfl _).trans ((Proj0.A_eq (C1 m) c 2).trans (V2_of m (outs m) c _ (by decide)).symm)
  | ⟨3, _⟩ =>
    refine Eq.symm ?_
    show Function.update (V1 m c) main_v8 (outs m 2 main_v8 c) main_v8 = _
    rw [Function.update_self]
    show o2 m main_v8 c = _
    unfold o2
    exact Pipeline.withArrays_arr spec0 launch0.win.arr_inj c _ _ 3

theorem hrest0 (c : Dev nD) : ∀ b, b ∉ Finset.univ.image (Pipeline.arrRef spec0) → V2 m (outs m) c b = C1 m c b :=
  fun b hb => V2_of m (outs m) c b (fun h => hb (by
    rw [List.mem_singleton] at h; subst h
    exact Finset.mem_image.mpr ⟨3, Finset.mem_univ _, rfl⟩))

set_option backward.isDefEq.respectTransparency.types false in
/-- The key projection: entered from every unscoped buffer at the contents after the first host stretch, left with its output array replaced. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Proj0.body_obligation (C1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (C1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (C1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (C1 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF1 (c : Dev nD) (w : Fin cfg1.W) : (pdats m 1 c).arrAt w cfg1.N = V4 m (outs m) c (Pipeline.arrRef spec1 w) := by
  match w with
  | ⟨0, _⟩ => exact ((Proj1.dat (C3 m) c).arrAt_in 0 rfl _).trans ((Proj1.A_eq (C3 m) c 0).trans (V4_of m (outs m) c _ (by decide)).symm)
  | ⟨1, _⟩ => exact ((Proj1.dat (C3 m) c).arrAt_in 1 rfl _).trans ((Proj1.A_eq (C3 m) c 1).trans (V4_of m (outs m) c _ (by decide)).symm)
  | ⟨2, _⟩ => exact ((Proj1.dat (C3 m) c).arrAt_in 2 rfl _).trans ((Proj1.A_eq (C3 m) c 2).trans (V4_of m (outs m) c _ (by decide)).symm)
  | ⟨3, _⟩ =>
    refine Eq.symm ?_
    show Function.update (V3 m (outs m) c) main_v11 (outs m 4 main_v11 c) main_v11 = _
    rw [Function.update_self]
    show o4 m main_v11 c = _
    unfold o4
    exact Pipeline.withArrays_arr spec1 launch1.win.arr_inj c _ _ 3

theorem hrest1 (c : Dev nD) : ∀ b, b ∉ Finset.univ.image (Pipeline.arrRef spec1) → V4 m (outs m) c b = C3 m c b :=
  fun b hb => V4_of m (outs m) c b (fun h => hb (by
    rw [List.mem_singleton] at h; subst h
    exact Finset.mem_image.mpr ⟨3, Finset.mem_univ _, rfl⟩))

set_option backward.isDefEq.respectTransparency.types false in
/-- The value projection, entered after the second host stretch. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Proj1.body_obligation (C3 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (C3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (C3 m c) fun _ => rfl
    rw [Pipeline.unscopedBufs_held] at hsplit
    rw [show V3 m (outsA m) c = V3 m (outs m) c from rfl] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (C3 m c) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF2 (c : Dev nD) (w : Fin cfg2.W) : (pdats m 2 c).arrAt w cfg2.N = V6 m (outs m) c (Pipeline.arrRef spec2 w) := by
  match w with
  | ⟨0, _⟩ => exact ((Attn.dat (C5 m) c).arrAt_in 0 rfl _).trans ((Attn.A_eq (C5 m) c 0).trans (V6_of m (outs m) c _ (by decide)).symm)
  | ⟨1, _⟩ => exact ((Attn.dat (C5 m) c).arrAt_in 1 rfl _).trans ((Attn.A_eq (C5 m) c 1).trans (V6_of m (outs m) c _ (by decide)).symm)
  | ⟨2, _⟩ => exact ((Attn.dat (C5 m) c).arrAt_in 2 rfl _).trans ((Attn.A_eq (C5 m) c 2).trans (V6_of m (outs m) c _ (by decide)).symm)
  | ⟨3, _⟩ => exact ((Attn.dat (C5 m) c).arrAt_in 3 rfl _).trans ((Attn.A_eq (C5 m) c 3).trans (V6_of m (outs m) c _ (by decide)).symm)
  | ⟨4, _⟩ => exact ((Attn.dat (C5 m) c).arrAt_in 4 rfl _).trans ((Attn.A_eq (C5 m) c 4).trans (V6_of m (outs m) c _ (by decide)).symm)
  | ⟨5, _⟩ =>
    refine Eq.symm ?_
    show Function.update (V5 m (outs m) c) main_v13 (outs m 6 main_v13 c) main_v13 = _
    rw [Function.update_self]
    show o6 m main_v13 c = _
    unfold o6
    exact Pipeline.withArrays_arr spec2 launch2.win.arr_inj c _ _ 5

theorem hrest2 (c : Dev nD) : ∀ b, b ∉ Finset.univ.image (Pipeline.arrRef spec2) → V6 m (outs m) c b = C5 m c b :=
  fun b hb => V6_of m (outs m) c b (fun h => hb (by
    rw [List.mem_singleton] at h; subst h
    exact Finset.mem_image.mpr ⟨5, Finset.mem_univ _, rfl⟩))

set_option backward.isDefEq.respectTransparency.types false in
/-- The attention region, entered after the third host stretch; its invariant carries the four scratch buffers. -/
def reg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (Attn.body_obligation (C5 m) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (C5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (C5 m c) fun _ => rfl
    rw [Pipeline.unscopedBufs_held] at hsplit
    rw [show V5 m (outsB m) c = V5 m (outs m) c from rfl] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Attn.Phi (C5 m) c 0 from rfl]
    iintro ⟨Hp, -, Hr⟩
    iapply (Attn.phi_in (C5 m) c)
    isplitl [Hp]; · iexact Hp
    iexact Hr
  hout c := by
    rw [Pipeline.ownSems0_none, show (pdats m 2 c).Φ (Fin.last _) = Attn.Phi (C5 m) c (Fin.last cfg2.N).val from rfl]
    iintro H
    ihave H' := (Attn.phi_out (C5 m) c _) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (C5 m c) (fun b => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

theorem V6_main_v13 (c : Dev nD) : V6 m (outs m) c main_v13 = o6 m main_v13 c := by
  show Function.update (V5 m (outs m) c) main_v13 (outs m 6 main_v13 c) main_v13 = _
  rw [Function.update_self]; rfl

/-- What the launch deals each core, less the buffers, makes the generator register at some state and the core owing nothing. -/
theorem rest_init (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- From any memory with zero counters, every weakly fair execution of the program terminates, nothing faulting; at the
    end the result array holds what the attention region's write-backs leave, and every argument array is as launched. -/
theorem run_main (ρ : Dev nD → PrngReg) :
    θ_run defs (onTc (τ := τ) (main (F := F))) ⟨m, fun _ => 0, ρ⟩ (fun r => ∀ c : Dev nD,
      r.2.mem ((c.tc : Thread nD τ).loc main_v13) = o6 m main_v13 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm (pdats m) () cellOf_inj emb₁ defs₀ Variants.none L lv m ρ main
    (segs m (outs m) Variants.none L lv (fun _ c => R c) () (pdats m) (reg0 m) (reg1 m) (reg2 m))
    (fun c Q => by
      rewrite [main_chain c, Seg.run_eq_chain,
        show (segs m (outs m) Variants.none L lv (fun _ c => R c) () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) (0 : Dev nD → CellTallies nD τ sig Unit) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V6 m (outs m) c))
    (hch := fun c => ⟨.rfl, .rfl, .rfl, .rfl, .rfl, .rfl, sep_mono .rfl (by iintro ⟨-, HO⟩; iexact HO)⟩)
    (hinit := ?_) (QY := fun c s => s.mem ((c.tc : Thread nD τ).loc main_v13) = o6 m main_v13 c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    (hfin := fun c s' => ?_) (hQ := fun _ h => h)
  · -- the launch: the unscoped buffers are held at the launch contents; the rest makes `R` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (rest_init ρ) $$ [Hr Hla] with HE
    · isplitl [Hr]; · iexact Hr
      iexact Hla
    imodintro
    iapply (show (iprop((bigSep Finset.univ fun c : Dev nD => StableHlo.held (c : Thread nD τ) (Pipeline.ucRefs τ sig) (V0 m c))
          ∗ bigSep Finset.univ fun c : Dev nD => R c) : sProp 𝕄)
        ⊢ (bigSep Finset.univ fun c : Dev nD => iprop(StableHlo.held (c : Thread nD τ) (Pipeline.ucRefs τ sig) (V0 m c) ∗ R c) : sProp 𝕄)
        from by rw [← bigSep_sep'])
    isplitl [Hh]; · iexact Hh
    iexact HE
  · -- the end: the result's buffer and each argument's read off the last contents
    unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      exact ⟨(h (Proc.devRef .tc main_v13) (Finset.mem_filter.mpr ⟨StableHlo.devRef_mem_tcRefs main_v13, by decide⟩)).trans (V6_main_v13 m c),
        (h (Proc.devRef .tc main_arg0) (Finset.mem_filter.mpr ⟨StableHlo.devRef_mem_tcRefs main_arg0, by decide⟩)).trans (V6_main_arg0 m (outs m) c),
        (h (Proc.devRef .tc main_arg1) (Finset.mem_filter.mpr ⟨StableHlo.devRef_mem_tcRefs main_arg1, by decide⟩)).trans (V6_main_arg1 m (outs m) c),
        (h (Proc.devRef .tc main_arg2) (Finset.mem_filter.mpr ⟨StableHlo.devRef_mem_tcRefs main_arg2, by decide⟩)).trans (V6_main_arg2 m (outs m) c),
        (h (Proc.devRef .tc main_arg3) (Finset.mem_filter.mpr ⟨StableHlo.devRef_mem_tcRefs main_arg3, by decide⟩)).trans (V6_main_arg3 m (outs m) c),
        (h (Proc.devRef .tc main_arg4) (Finset.mem_filter.mpr ⟨StableHlo.devRef_mem_tcRefs main_arg4, by decide⟩)).trans (V6_main_arg4 m (outs m) c),
        (h (Proc.devRef .tc main_arg5) (Finset.mem_filter.mpr ⟨StableHlo.devRef_mem_tcRefs main_arg5, by decide⟩)).trans (V6_main_arg5 m (outs m) c),
        (h (Proc.devRef .tc main_arg6) (Finset.mem_filter.mpr ⟨StableHlo.devRef_mem_tcRefs main_arg6, by decide⟩)).trans (V6_main_arg6 m (outs m) c),
        (h (Proc.devRef .tc main_arg7) (Finset.mem_filter.mpr ⟨StableHlo.devRef_mem_tcRefs main_arg7, by decide⟩)).trans (V6_main_arg7 m (outs m) c),
        (h (Proc.devRef .tc main_arg8) (Finset.mem_filter.mpr ⟨StableHlo.devRef_mem_tcRefs main_arg8, by decide⟩)).trans (V6_main_arg8 m (outs m) c)⟩
    · iexact HSI

end Cert.Kernel.Run

end
-- ==== Proof.IdealProj0.lean ====
/-
  Projection region 0 (a row tile of 512 rows of the [16384,1024] operand times the whole [1024,1024] weight, plus the bias row):
  what one grid point leaves in the output tile's buffer as a function of the three input blocks, the body's
  Hoare triple, the pipeline's proof data at given region-entry contents, and the body obligation at every point.
  Everything is stated for any float instance.
-/
import proofs.«158720_j6236292514541_2_alg».proof.Proof.Gen.KernelIdeal.Launch
import proofs.«158720_j6236292514541_2_alg».proof.Proof.Gen.KernelIdeal.Skeleton
import proofs.«158720_j6236292514541_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, whether the point fetched it or an earlier one did
    (the block index has not moved since). -/
theorem before_in0_of {c : Dev nD} (dat : Dat τ (Elt F) Unit ℕ (UR sig nD τ) ℕ cfg0 c)
    (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, whether the point fetched it or an earlier one did
    (the block index has not moved since). -/
theorem before_in1_of {c : Dev nD} (dat : Dat τ (Elt F) Unit ℕ (UR sig nD τ) ℕ cfg0 c)
    (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, whether the point fetched it or an earlier one did
    (the block index has not moved since). -/
theorem before_in2_of {c : Dev nD} (dat : Dat τ (Elt F) Unit ℕ (UR sig nD τ) ℕ cfg0 c)
    (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body loads and stores through. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1024 := Rect.unit (s := S1024) ![0] S1024.size inb_S1024_S1024_0

/-- The output tile after the body: its one store, of the payload (tile·weight + bias, cast) of the three input blocks. -/
def outTile (x0 : Vec F S512x1024 .f32) (x1 : Vec F S1024x1024 .bf16) (x2 : Vec F S1024 .f32) : Vec F S512x1024 .bf16 :=
  View.canon [⟨rX, k0_pay1 (View.ld x0 rX) (View.ld x1 rW) (View.ld x2 rB)⟩]

/-- The store covers the tile. -/
theorem cover (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 1000000 in
/-- The body on whole buffers: the inputs at `x0 x1 x2` and the output at anything run to the inputs unchanged and the
    output at `outTile x0 x1 x2`. -/
theorem sound_kernel (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S512x1024 .bf16) (harg4 : arg4.IsWhole)
    (x0 : Vec F S512x1024 .f32) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outTile x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-- The proof data at entry contents `V`: each input's buffer keeps its block, the output's holds `outTile` of the point's blocks;
    the invariant is the scoped rest and the generator register; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outTile (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = outTile (iblk V c 0 t) (iblk V c 1 t) (iblk V c 2 t) := by dsimp only [dat]

theorem before_0 (c : Dev nD) (t : Fin cfg0.N) (d) : (dat V c).before 0 t d = iblk V c 0 t :=
  before_in0_of V (dat V c) (A_eq V c 0) (after_0 V c) t d
theorem before_1 (c : Dev nD) (t : Fin cfg0.N) (d) : (dat V c).before 1 t d = iblk V c 1 t :=
  before_in1_of V (dat V c) (A_eq V c 1) (after_1 V c) t d
theorem before_2 (c : Dev nD) (t : Fin cfg0.N) (d) : (dat V c).before 2 t d = iblk V c 2 t :=
  before_in2_of V (dat V c) (A_eq V c 2) (after_2 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the triple applies; the invariant passes through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Proj0

end
-- ==== Proof.IdealProj1.lean ====
/-
  Projection region 1 (a row tile of 512 rows of the [16384,1024] operand times the whole [1024,1024] weight, plus the bias row):
  what one grid point leaves in the output tile's buffer as a function of the three input blocks, the body's
  Hoare triple, the pipeline's proof data at given region-entry contents, and the body obligation at every point.
  Everything is stated for any float instance.
-/
import proofs.«158720_j6236292514541_2_alg».proof.Proof.Gen.KernelIdeal.Launch
import proofs.«158720_j6236292514541_2_alg».proof.Proof.Gen.KernelIdeal.Skeleton
import proofs.«158720_j6236292514541_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, whether the point fetched it or an earlier one did
    (the block index has not moved since). -/
theorem before_in0_of {c : Dev nD} (dat : Dat τ (Elt F) Unit ℕ (UR sig nD τ) ℕ cfg1 c)
    (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, whether the point fetched it or an earlier one did
    (the block index has not moved since). -/
theorem before_in1_of {c : Dev nD} (dat : Dat τ (Elt F) Unit ℕ (UR sig nD τ) ℕ cfg1 c)
    (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, whether the point fetched it or an earlier one did
    (the block index has not moved since). -/
theorem before_in2_of {c : Dev nD} (dat : Dat τ (Elt F) Unit ℕ (UR sig nD τ) ℕ cfg1 c)
    (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body loads and stores through. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1024 := Rect.unit (s := S1024) ![0] S1024.size inb_S1024_S1024_0

/-- The output tile after the body: its one store, of the payload (tile·weight + bias, cast) of the three input blocks. -/
def outTile (x0 : Vec F S512x1024 .f32) (x1 : Vec F S1024x1024 .bf16) (x2 : Vec F S1024 .f32) : Vec F S512x1024 .bf16 :=
  View.canon [⟨rX, k1_pay1 (View.ld x0 rX) (View.ld x1 rW) (View.ld x2 rB)⟩]

/-- The store covers the tile. -/
theorem cover (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 1000000 in
/-- The body on whole buffers: the inputs at `x0 x1 x2` and the output at anything run to the inputs unchanged and the
    output at `outTile x0 x1 x2`. -/
theorem sound_kernel (c : Dev nD) (E : Set ℕ) (i : grid1.Coords)
    (arg1 : Memref sig .tc .vmem S512x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S512x1024 .bf16) (harg4 : arg4.IsWhole)
    (x0 : Vec F S512x1024 .f32) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outTile x0 x1 x2)) -∗ K ⟨⟩))
      ⊢ wp frame (wpE (defs₀ (F := F)) Variants.none c none) E (cc1__proj_kernel i arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-- The proof data at entry contents `V`: each input's buffer keeps its block, the output's holds `outTile` of the point's blocks;
    the invariant is the scoped rest and the generator register; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outTile (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) :
    (dat V c).after 3 t = outTile (iblk V c 0 t) (iblk V c 1 t) (iblk V c 2 t) := by dsimp only [dat]

theorem before_0 (c : Dev nD) (t : Fin cfg1.N) (d) : (dat V c).before 0 t d = iblk V c 0 t :=
  before_in0_of V (dat V c) (A_eq V c 0) (after_0 V c) t d
theorem before_1 (c : Dev nD) (t : Fin cfg1.N) (d) : (dat V c).before 1 t d = iblk V c 1 t :=
  before_in1_of V (dat V c) (A_eq V c 1) (after_1 V c) t d
theorem before_2 (c : Dev nD) (t : Fin cfg1.N) (d) : (dat V c).before 2 t d = iblk V c 2 t :=
  before_in2_of V (dat V c) (A_eq V c 2) (after_2 V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so the triple applies; the invariant passes through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Proj1

end
-- ==== Proof.AttnBodyDefs.lean ====
/- The fused attention body, one key tile at a time: the names of what one step of the streaming
   softmax leaves in its four carried buffers (scaled query projection, running row maximum, running
   row sum, running weighted sum of values), the normalised output of the last step, and the two
   conditions on the key-tile coordinate that select the first and the last step. -/
import proofs.«158720_j6236292514541_2_alg».proof.Proof.Gen.KernelIdeal.Launch
import proofs.«158720_j6236292514541_2_alg».proof.Proof.Gen.KernelIdeal.Skeleton
import proofs.«158720_j6236292514541_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the key-tile coordinate -/

/-- The condition of the first conditional region: the key-tile coordinate is zero. -/
abbrev cond2_0 (i : grid2.Coords) : Prop :=
  (Scalar.cmpi .ne (Scalar.extui (Scalar.cmpi .eq (BitVec.ofNat 32 (i 2).val) 0#32)) 0#32) = 1#1
/-- The condition of the last conditional region: the key-tile coordinate is three. -/
abbrev cond2_1 (i : grid2.Coords) : Prop := k2_cond2 i = 1#1

/-- The first condition holds exactly at key tile 0 (decided over the four key tiles). -/
theorem cond2_0_iff (i : grid2.Coords) : cond2_0 i ↔ (i 2).val = 0 :=
  (by decide : ∀ j : Fin 4,
    (Scalar.cmpi .ne (Scalar.extui (Scalar.cmpi .eq (BitVec.ofNat 32 j.val) 0#32)) 0#32 = 1#1) ↔ j.val = 0) (i 2)
/-- The last condition holds exactly at key tile 3 (decided over the four key tiles). -/
theorem cond2_1_iff (i : grid2.Coords) : cond2_1 i ↔ (i 2).val = 3 :=
  (by decide : ∀ j : Fin 4,
    (Scalar.cmpi .ne (Scalar.extui (Scalar.cmpi .eq (BitVec.ofNat 32 j.val) 3#32)) 0#32 = 1#1) ↔ j.val = 3) (i 2)

/-! ## What one step leaves, as functions of what it finds

`qs` is the scaled query projection (rows of the query tile), `kt` and `vt` the key and value
tiles, `m`, `l`, `acc` the running row maximum, row sum and weighted sum of values. -/

/-- The scaled query projection of a query tile `x`: `x · W + b` with the scale folded into the
    weight `W` and the bias `b`, rounded to the narrow format. -/
def attnQs (x : Vec F S1x1024x1024 .f32) (W : Vec F S1024x1024 .bf16) (b : Vec F S1024 .f32) :
    Vec F S1024x1024 .bf16 := k2_pay4 x W b
/-- The running maximum at the start: minus infinity in every row. -/
def attnM0 : Vec F S1024x1 .f32 := k2_pay5 (F := F)
/-- The running sum at the start: zero in every row. -/
def attnL0 : Vec F S1024x1 .f32 := k2_pay6 (F := F)
/-- The running weighted sum at the start: zero everywhere. -/
def attnAcc0 : Vec F S1024x1024 .f32 := k2_pay7 (F := F)

/-- The new running maximum: `max m (rowmax (qs · ktᵀ))`. -/
def attnM (qs : Vec F S1024x1024 .bf16) (kt : Vec F S1x512x1024 .bf16) (m : Vec F S1024x1 .f32) :
    Vec F S1024x1 .f32 := k2_pay2 (k2_pay10 qs kt m)
/-- The new running sum: `exp (m − m') · l + rowsum (exp (qs · ktᵀ − m'))` with `m'` the new maximum. -/
def attnL (qs : Vec F S1024x1024 .bf16) (kt : Vec F S1x512x1024 .bf16) (m l : Vec F S1024x1 .f32) :
    Vec F S1024x1 .f32 := k2_pay13 qs kt m m l
/-- The new running weighted sum: `exp (m − m') · acc + exp (qs · ktᵀ − m') · vt`. -/
def attnAcc (qs : Vec F S1024x1024 .bf16) (kt vt : Vec F S1x512x1024 .bf16) (m : Vec F S1024x1 .f32)
    (acc : Vec F S1024x1024 .f32) : Vec F S1024x1024 .f32 :=
  k2_pay1 (k2_pay8 vt) (k2_pay14 qs kt m m acc) (k2_pay15 qs kt m)
/-- The output tile of the last step: the weighted sum divided row by row by the sum. -/
def attnOut (acc : Vec F S1024x1024 .f32) (l : Vec F S1024x1 .f32) : Vec F S1x1024x1024 .f32 :=
  k2_pay3 acc l

/-! ## Whole-buffer rectangles

Every load and store of the body goes through the rectangle of the buffer's own sizes at zero offsets:
a load through it reads the contents and one store through it leaves its payload. -/

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- What a whole buffer reads after a store through its whole-buffer rectangle, whatever was stored
    before: the payload of that store. -/
theorem read_store_whole {Val : EltTy → Type} [∀ e, Nonempty (Val e)] {sig : RefSig} {κ : Kind} {sp : Space}
    {S : Shape} {e : EltTy} (v : View sig κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _
      (fun y => ⟨_, List.mem_cons.mpr (Or.inl rfl), View.mem_set_unit_zero h inb y⟩),
    View.canon_cons_unit_zero h inb]

/-- What a load through the whole-buffer rectangle reads after a store through it, whatever was
    stored before: the payload of that store. -/
theorem readCov_store_whole {Val : EltTy → Type} [∀ e, Nonempty (Val e)] {sig : RefSig} {κ : Kind} {sp : Space}
    {S : Shape} {e : EltTy} (v : View sig κ sp S e) {off : Fin S.rank → Nat}
    (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  rw [View.readCov_eq_canon_ld v _ _
      (fun y => ⟨_, List.mem_cons.mpr (Or.inl rfl), View.mem_set_unit_zero h inb y⟩),
    View.canon_cons_unit_zero h inb, View.ld_unit_zero h inb]

end Cert.KernelIdeal.Gen

end
-- ==== Proof.IdealAttn.lean ====
/-
  The fused attention region: grid (8 batches, 2 query tiles, 4 key tiles), the key tile innermost. Along the four key
  tiles of one (batch, query tile) the body carries four buffers — the scaled query projection, the running row maximum,
  the running row sum and the running weighted sum of values —, sets them at key tile 0 and stores the output tile at key
  tile 3. This module names what the carried buffers hold after each grid point (by recursion on the point), the
  invariant between points, and the pipeline's proof data at given region-entry contents.
-/
import proofs.«158720_j6236292514541_2_alg».proof.Proof.AttnBodyDefs
import Idealize.ShloMosaic.Lib.Pipeline.RegionsLoop
import Idealize.ShloMosaic.Lib.Pipeline.FrameSuffix
import Idealize.ShloMosaic.Lib.Ring

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at grid point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, whether the point fetched it or an earlier one did. -/
theorem before_in0_of {c : Dev nD} (dat : Dat τ (Elt F) Unit ℕ (UR sig nD τ) ℕ cfg2 c)
    (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, whether the point fetched it or an earlier one did. -/
theorem before_in1_of {c : Dev nD} (dat : Dat τ (Elt F) Unit ℕ (UR sig nD τ) ℕ cfg2 c)
    (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, whether the point fetched it or an earlier one did. -/
theorem before_in2_of {c : Dev nD} (dat : Dat τ (Elt F) Unit ℕ (UR sig nD τ) ℕ cfg2 c)
    (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, whether the point fetched it or an earlier one did. -/
theorem before_in3_of {c : Dev nD} (dat : Dat τ (Elt F) Unit ℕ (UR sig nD τ) ℕ cfg2 c)
    (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every point, whether the point fetched it or an earlier one did. -/
theorem before_in4_of {c : Dev nD} (dat : Dat τ (Elt F) Unit ℕ (UR sig nD τ) ℕ cfg2 c)
    (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The carried buffers -/

/-- What the four carried buffers hold. -/
structure Scr (F : FTy → Type) [FloatOps F] where
  qs : Vec F S1024x1024 .bf16
  m : Vec F S1024x1 .f32
  l : Vec F S1024x1 .f32
  acc : Vec F S1024x1024 .f32

/-- After a point at key tile 0: the projection of the query tile, and one step from the initial running values. -/
def stepFirst (x0 : Vec F S1x1024x1024 .f32) (x1 : Vec F S1024x1024 .bf16) (x2 : Vec F S1024 .f32)
    (x3 x4 : Vec F S1x512x1024 .bf16) : Scr F :=
  ⟨attnQs x0 x1 x2, attnM (attnQs x0 x1 x2) x3 attnM0, attnL (attnQs x0 x1 x2) x3 attnM0 attnL0,
    attnAcc (attnQs x0 x1 x2) x3 x4 attnM0 attnAcc0⟩

/-- After a point at a later key tile: one step from what the point before left. -/
def stepNext (x3 x4 : Vec F S1x512x1024 .bf16) (s : Scr F) : Scr F :=
  ⟨s.qs, attnM s.qs x3 s.m, attnL s.qs x3 s.m s.l, attnAcc s.qs x3 x4 s.m s.acc⟩

/-- What the carried buffers hold after the first `n` grid points (at `n = 0` a value nothing reads). -/
def scr (c : Dev nD) : ℕ → Scr F
  | 0 => ⟨attnQs (iblk V c 0 ⟨0, by decide⟩) (iblk V c 1 ⟨0, by decide⟩) (iblk V c 2 ⟨0, by decide⟩), attnM0, attnL0, attnAcc0⟩
  | n + 1 =>
    if h : n < cfg2.N then
      if n % 4 = 0 then stepFirst (iblk V c 0 ⟨n, h⟩) (iblk V c 1 ⟨n, h⟩) (iblk V c 2 ⟨n, h⟩) (iblk V c 3 ⟨n, h⟩) (iblk V c 4 ⟨n, h⟩)
      else stepNext (iblk V c 3 ⟨n, h⟩) (iblk V c 4 ⟨n, h⟩) (scr c n)
    else scr c n

theorem scr_first (c : Dev nD) (t : Fin cfg2.N) (h : t.val % 4 = 0) :
    scr V c (t.val + 1) = stepFirst (iblk V c 0 t) (iblk V c 1 t) (iblk V c 2 t) (iblk V c 3 t) (iblk V c 4 t) := by
  rw [scr, dif_pos t.isLt, if_pos h]
theorem scr_next (c : Dev nD) (t : Fin cfg2.N) (h : t.val % 4 ≠ 0) :
    scr V c (t.val + 1) = stepNext (iblk V c 3 t) (iblk V c 4 t) (scr V c t.val) := by
  rw [scr, dif_pos t.isLt, if_neg h]

/-! ## The invariant between points -/

/-- The four carried buffers at contents `s`. -/
def scratchAt (c : Dev nD) (s : Scr F) : sProp 𝕄 :=
  iprop(owns (c : Thread nD τ) (Memref.whole cc2_scratch0 : Memref sig .tc .vmem S1024x1024 .bf16) fullShare s.qs
    ∗ owns (c : Thread nD τ) (Memref.whole cc2_scratch1 : Memref sig .tc .vmem S1024x1 .f32) fullShare s.m
    ∗ owns (c : Thread nD τ) (Memref.whole cc2_scratch2 : Memref sig .tc .vmem S1024x1 .f32) fullShare s.l
    ∗ owns (c : Thread nD τ) (Memref.whole cc2_scratch3 : Memref sig .tc .vmem S1024x1024 .f32) fullShare s.acc)

/-- The scoped buffers of the other two regions, each whole at some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- Before grid point `n` (and after point `n − 1`): the other regions' scoped buffers, the generator register, and the
    carried buffers — at what the points so far leave when the next point is not the first of its four (else at anything:
    that point overwrites them). -/
def Phi (c : Dev nD) (n : ℕ) : sProp 𝕄 :=
  iprop(otherScoped c ∗ (∃ r, prngReg c r) ∗ ∃ s : Scr F, ⌜n % 4 ≠ 0 → s = scr V c n⌝ ∗ scratchAt c s)

/-! ## The proof data -/

/-- At entry contents `V`: each input's buffer keeps its block; the output's holds, after a point, the normalised
    weighted sum of what the carried buffers then hold (read only at the points that write it back: key tile 3). -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => attnOut (scr V c (t.val + 1)).acc (scr V c (t.val + 1)).l
  Φ t := Phi V c t.val
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) :
    (dat V c).after 5 t = attnOut (scr V c (t.val + 1)).acc (scr V c (t.val + 1)).l := by dsimp only [dat]

theorem before_0 (c : Dev nD) (t : Fin cfg2.N) (d) : (dat V c).before 0 t d = iblk V c 0 t :=
  before_in0_of V (dat V c) (A_eq V c 0) (after_0 V c) t d
theorem before_1 (c : Dev nD) (t : Fin cfg2.N) (d) : (dat V c).before 1 t d = iblk V c 1 t :=
  before_in1_of V (dat V c) (A_eq V c 1) (after_1 V c) t d
theorem before_2 (c : Dev nD) (t : Fin cfg2.N) (d) : (dat V c).before 2 t d = iblk V c 2 t :=
  before_in2_of V (dat V c) (A_eq V c 2) (after_2 V c) t d
theorem before_3 (c : Dev nD) (t : Fin cfg2.N) (d) : (dat V c).before 3 t d = iblk V c 3 t :=
  before_in3_of V (dat V c) (A_eq V c 3) (after_3 V c) t d
theorem before_4 (c : Dev nD) (t : Fin cfg2.N) (d) : (dat V c).before 4 t d = iblk V c 4 t :=
  before_in4_of V (dat V c) (A_eq V c 4) (after_4 V c) t d

/-! ## The invariant at the region's two ends -/

/-- At entry the carried buffers hold anything: the first point overwrites them. -/
theorem phi_in (c : Dev nD) :
    iprop((∃ r, prngReg c r) ∗ Pipeline.scopedRest (Ix := Unit) (Name := ℕ) (U := UR sig nD τ) (Lvl := ℕ) (Val := Elt F) spec2 c) ⊢ (Phi V c 0 : sProp 𝕄) := by
  rw [scopedRest2_eq]; unfold Phi otherScoped scratchAt
  simp only [owns_whole_eq]
  iintro ⟨Hp, H1, H2, H3, H4, H5, H6, H7, H8, H9, H10, H11, H12, ⟨%f0, S0⟩, ⟨%f1, S1⟩, ⟨%f2, S2⟩, ⟨%f3, S3⟩⟩
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [Hp]; · iexact Hp
  iexists (⟨f0, f1, f2, f3⟩ : Scr F)
  isplitr; · ipureintro; intro h; exact absurd rfl h
  isplitl [S0]; · iexists f0; isplitr; · ipureintro; rfl
                  iexact S0
  isplitl [S1]; · iexists f1; isplitr; · ipureintro; rfl
                  iexact S1
  isplitl [S2]; · iexists f2; isplitr; · ipureintro; rfl
                  iexact S2
  iexists f3; isplitr; · ipureintro; rfl
  iexact S3

/-- At exit the carried buffers are given back at whatever they hold. -/
theorem phi_out (c : Dev nD) (n : ℕ) :
    (Phi V c n : sProp 𝕄) ⊢ iprop((∃ r, prngReg c r) ∗ Pipeline.scopedRest (Ix := Unit) (Name := ℕ) (U := UR sig nD τ) (Lvl := ℕ) (Val := Elt F) spec2 c) := by
  rw [scopedRest2_eq]; unfold Phi otherScoped scratchAt
  simp only [owns_whole_eq]
  iintro ⟨⟨H1, H2, H3, H4, H5, H6, H7, H8, H9, H10, H11, H12⟩, Hp, ⟨%s, -, ⟨%f0, -, S0⟩, ⟨%f1, -, S1⟩, ⟨%f2, -, S2⟩, ⟨%f3, -, S3⟩⟩⟩
  isplitl [Hp]; · iexact Hp
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexists f0; iexact S0
  isplitl [S1]; · iexists f1; iexact S1
  isplitl [S2]; · iexists f2; iexact S2
  iexists f3; iexact S3

end Cert.KernelIdeal.Attn

end
-- ==== Proof.IdealContents.lean ====
/-
  What every unscoped buffer of a core holds between two segments of the program: the launch contents, then each
  host stretch's operations applied, then, after a region, the region's output array replaced by what the region's
  write-backs leave (the array read off the region's proof data after its last grid point).
-/
import proofs.«158720_j6236292514541_2_alg».proof.Proof.IdealProj0
import proofs.«158720_j6236292514541_2_alg».proof.Proof.IdealProj1
import proofs.«158720_j6236292514541_2_alg».proof.Proof.IdealAttn
import proofs.«158720_j6236292514541_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

/-- A core's buffer contents, one buffer per reference. -/
abbrev Contents (F : FTy → Type) [FloatOps F] : Type := (c : Dev nD) → (b : Ref sig .tc) → Buf (Elt F) ((c : Thread nD τ).loc b)

variable (m : (ℓ : Loc nD τ sig) → Buf (Elt F) ℓ)

/-- Contents nothing reads: the launch memory. -/
abbrev junk : Outs (F := F) := fun _ r c => m ((c : Thread nD τ).loc r)

/-- What the key projection is entered with: the launch contents after the first host stretch. -/
abbrev C1 : Contents F := fun c b => V1 m c b
/-- After the key projection: its output array at what the write-backs leave. -/
def o2 (r : Ref sig .tc) (c : Dev nD) : Buf (Elt F) ((c : Thread nD τ).loc r) :=
  Pipeline.withArrays spec0 c (V1 m c) (fun w => (Proj0.dat (C1 m) c).arrAt w cfg0.N) (Proc.devRef .tc r)
def outsA : Outs (F := F) := fun J r c => if J = 2 then o2 m r c else junk m J r c
/-- What the value projection is entered with. -/
abbrev C3 : Contents F := fun c b => V3 m (outsA m) c b
def o4 (r : Ref sig .tc) (c : Dev nD) : Buf (Elt F) ((c : Thread nD τ).loc r) :=
  Pipeline.withArrays spec1 c (V3 m (outsA m) c) (fun w => (Proj1.dat (C3 m) c).arrAt w cfg1.N) (Proc.devRef .tc r)
def outsB : Outs (F := F) := fun J r c => if J = 2 then o2 m r c else if J = 4 then o4 m r c else junk m J r c
/-- What the attention region is entered with. -/
abbrev C5 : Contents F := fun c b => V5 m (outsB m) c b
def o6 (r : Ref sig .tc) (c : Dev nD) : Buf (Elt F) ((c : Thread nD τ).loc r) :=
  Pipeline.withArrays spec2 c (V5 m (outsB m) c) (fun w => (Attn.dat (C5 m) c).arrAt w cfg2.N) (Proc.devRef .tc r)
/-- What each region leaves in its output array. -/
def outs : Outs (F := F) := fun J r c =>
  if J = 2 then o2 m r c else if J = 4 then o4 m r c else if J = 6 then o6 m r c else junk m J r c

/-- Each region's output array, after the region, is the array of its proof data after the last grid point. -/
theorem o2_out (c : Dev nD) : o2 m main_v8 c = (Proj0.dat (C1 m) c).arrAt 3 cfg0.N := by
  unfold o2; exact Pipeline.withArrays_arr spec0 launch0.win.arr_inj c _ _ 3
theorem o4_out (c : Dev nD) : o4 m main_v11 c = (Proj1.dat (C3 m) c).arrAt 3 cfg1.N := by
  unfold o4; exact Pipeline.withArrays_arr spec1 launch1.win.arr_inj c _ _ 3
theorem o6_out (c : Dev nD) : o6 m main_v13 c = (Attn.dat (C5 m) c).arrAt 5 cfg2.N := by
  unfold o6; exact Pipeline.withArrays_arr spec2 launch2.win.arr_inj c _ _ 5

end Cert.KernelIdeal.Run

end
-- ==== Proof.AttnBodyB.lean ====
/- The fused attention body at a middle key tile (key tiles 1 and 2): neither conditional region is
   entered; the step reads the carried buffers and leaves the new running maximum, sum and weighted
   sum in them, the scaled query projection and the output tile untouched. -/
import proofs.«158720_j6236292514541_2_alg».proof.Proof.AttnBodyDefs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a key tile that is neither the first nor the last, on whole buffers — the five inputs at
    `x0 … x4`, the output tile at `d`, the carried buffers at `qs`, `m`, `l`, `acc` — the body runs to
    the continuation with the inputs, the output tile and the query projection as they were and the
    running maximum, sum and weighted sum advanced by one step. -/
theorem attn_body_B (c : Dev nD) (E : Set ℕ) (i : grid2.Coords) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x1024x1024 .f32) (harg8 : arg8.IsWhole) (arg9 : Memref sig .tc .vmem S1024x1024 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole)
    (h0 : (i 2).val ≠ 0) (h3 : (i 2).val ≠ 3)
    (x0 : Vec F S1x1024x1024 .f32) (x1 : Vec F S1024x1024 .bf16) (x2 : Vec F S1024 .f32) (x3 x4 : Vec F S1x512x1024 .bf16)
    (d : Vec F S1x1024x1024 .f32) (qs : Vec F S1024x1024 .bf16) (m l : Vec F S1024x1 .f32) (acc : Vec F S1024x1024 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare d
        ∗ owns (c : Thread nD τ) arg9 fullShare qs ∗ owns (c : Thread nD τ) arg10 fullShare m ∗ owns (c : Thread nD τ) arg11 fullShare l
        ∗ owns (c : Thread nD τ) arg12 fullShare acc
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (d)
            ∗ owns (c : Thread nD τ) arg9 fullShare (qs)
            ∗ owns (c : Thread nD τ) arg10 fullShare (attnM qs x3 m)
            ∗ owns (c : Thread nD τ) arg11 fullShare (attnL qs x3 m l)
            ∗ owns (c : Thread nD τ) arg12 fullShare (attnAcc qs x3 x4 m acc)) -∗ K ⟨⟩))
      ⊢ wp frame (wpE (defs₀ (F := F)) Variants.none c none) E (cc2__fused_attn_kernel i arg3 harg3 arg4 harg4 arg5 harg5 arg6 harg6 arg7 harg7 arg8 harg8 arg9 harg9 arg10 harg10 arg11 harg11 arg12 harg12) K := by
  have hc0 : ¬cond2_0 i := fun h => h0 ((cond2_0_iff i).mp h)
  have hc1 : ¬cond2_1 i := fun h => h3 ((cond2_1_iff i).mp h)
  simp only [cc2__fused_attn_kernel_eq_skeleton]; unfold cc2__fused_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  obtain rfl := harg12.eq_unread hf9
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr
    swap; · iexact H7
    ipureintro
    rw [read_store_whole _ _ zeros2]
    delta attn_body_B.sl.r_1
    simp only [View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
    rfl
  isplitl [H8]
  · iexists _; isplitr
    swap; · iexact H8
    ipureintro
    rw [read_store_whole _ _ zeros2]
    simp only [View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
    rfl
  iexists _; isplitr
  swap; · iexact H9
  ipureintro
  rw [read_store_whole _ _ zeros2]
  delta attn_body_B.sl.r attn_body_B.sl.r_2 attn_body_B.sl.r_3
  simp only [View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
  rfl

end Cert.KernelIdeal.Gen

end
-- ==== Proof.AttnBodyA.lean ====
/- The fused attention body at the first key tile (key tile 0): the first conditional region is
   entered, the last is not; the step computes the scaled query projection, resets the running
   maximum, sum and weighted sum, and advances them by one step. -/
import proofs.«158720_j6236292514541_2_alg».proof.Proof.AttnBodyB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first key tile, on whole buffers — the five inputs at `x0 … x4`, the output tile at `d`,
    the four carried buffers at any contents `qs`, `m`, `l`, `acc` (never read before they are
    overwritten) — the body runs to the continuation with the inputs and the output tile as they were,
    the query projection computed from the query tile, and the running maximum, sum and weighted sum
    one step on from minus infinity, zero and zero. -/
theorem attn_body_A (c : Dev nD) (E : Set ℕ) (i : grid2.Coords) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x1024x1024 .f32) (harg8 : arg8.IsWhole) (arg9 : Memref sig .tc .vmem S1024x1024 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole)
    (h0 : (i 2).val = 0)
    (x0 : Vec F S1x1024x1024 .f32) (x1 : Vec F S1024x1024 .bf16) (x2 : Vec F S1024 .f32) (x3 x4 : Vec F S1x512x1024 .bf16)
    (d : Vec F S1x1024x1024 .f32) (qs : Vec F S1024x1024 .bf16) (m l : Vec F S1024x1 .f32) (acc : Vec F S1024x1024 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare d
        ∗ owns (c : Thread nD τ) arg9 fullShare qs ∗ owns (c : Thread nD τ) arg10 fullShare m ∗ owns (c : Thread nD τ) arg11 fullShare l
        ∗ owns (c : Thread nD τ) arg12 fullShare acc
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (d)
            ∗ owns (c : Thread nD τ) arg9 fullShare (attnQs x0 x1 x2)
            ∗ owns (c : Thread nD τ) arg10 fullShare (attnM (attnQs x0 x1 x2) x3 attnM0)
            ∗ owns (c : Thread nD τ) arg11 fullShare (attnL (attnQs x0 x1 x2) x3 attnM0 attnL0)
            ∗ owns (c : Thread nD τ) arg12 fullShare (attnAcc (attnQs x0 x1 x2) x3 x4 attnM0 attnAcc0)) -∗ K ⟨⟩))
      ⊢ wp frame (wpE (defs₀ (F := F)) Variants.none c none) E (cc2__fused_attn_kernel i arg3 harg3 arg4 harg4 arg5 harg5 arg6 harg6 arg7 harg7 arg8 harg8 arg9 harg9 arg10 harg10 arg11 harg11 arg12 harg12) K := by
  have hc0 : cond2_0 i := (cond2_0_iff i).mpr h0
  have hc1 : ¬cond2_1 i := fun h => by have := (cond2_1_iff i).mp h; omega
  simp only [cc2__fused_attn_kernel_eq_skeleton]; unfold cc2__fused_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  obtain rfl := harg12.eq_unread hf9
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr
    swap; · iexact H6
    ipureintro
    delta attn_body_A.sl.H6_1
    rw [read_store_whole _ _ zeros2]
    simp only [View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
    rfl
  isplitl [H7]
  · iexists _; isplitr
    swap; · iexact H7
    ipureintro
    rw [read_store_whole _ _ zeros2]
    delta attn_body_A.sl.r_1 attn_body_A.sl.v3 attn_body_A.sl.v10 attn_body_A.sl.H6_1 attn_body_A.sl.H7_1
    simp only [readCov_store_whole (S := S1024x1024) _ zeros2 inb_S1024x1024_S1024x1024_0_0,
      readCov_store_whole (S := S1024x1) _ zeros2 inb_S1024x1_S1024x1_0_0,
      View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
    rfl
  isplitl [H8]
  · iexists _; isplitr
    swap; · iexact H8
    ipureintro
    rw [read_store_whole _ _ zeros2]
    delta attn_body_A.sl.v3 attn_body_A.sl.v10 attn_body_A.sl.v20 attn_body_A.sl.H6_1 attn_body_A.sl.H7_1 attn_body_A.sl.H8_1
    simp only [readCov_store_whole (S := S1024x1024) _ zeros2 inb_S1024x1024_S1024x1024_0_0,
      readCov_store_whole (S := S1024x1) _ zeros2 inb_S1024x1_S1024x1_0_0,
      View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
    rfl
  iexists _; isplitr
  swap; · iexact H9
  ipureintro
  rw [read_store_whole _ _ zeros2]
  delta attn_body_A.sl.r attn_body_A.sl.r_2 attn_body_A.sl.r_3 attn_body_A.sl.v3 attn_body_A.sl.v10 attn_body_A.sl.v28 attn_body_A.sl.H6_1 attn_body_A.sl.H7_1 attn_body_A.sl.H9_1
  simp only [readCov_store_whole (S := S1024x1024) _ zeros2 inb_S1024x1024_S1024x1024_0_0,
      readCov_store_whole (S := S1024x1) _ zeros2 inb_S1024x1_S1024x1_0_0,
    View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
  rfl

end Cert.KernelIdeal.Gen

end
-- ==== Proof.AttnBodyC.lean ====
/- The fused attention body at the last key tile (key tile 3): the first conditional region is not
   entered, the last is; the step advances the running maximum, sum and weighted sum and writes the
   normalised output tile. -/
import proofs.«158720_j6236292514541_2_alg».proof.Proof.AttnBodyA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last key tile, on whole buffers — the five inputs at `x0 … x4`, the output tile at `d`, the
    carried buffers at `qs`, `m`, `l`, `acc` — the body runs to the continuation with the inputs and the
    query projection as they were, the running maximum, sum and weighted sum advanced by one step, and
    the output tile at the new weighted sum divided row by row by the new sum. -/
theorem attn_body_C (c : Dev nD) (E : Set ℕ) (i : grid2.Coords) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x1024x1024 .f32) (harg8 : arg8.IsWhole) (arg9 : Memref sig .tc .vmem S1024x1024 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole)
    (h3 : (i 2).val = 3)
    (x0 : Vec F S1x1024x1024 .f32) (x1 : Vec F S1024x1024 .bf16) (x2 : Vec F S1024 .f32) (x3 x4 : Vec F S1x512x1024 .bf16)
    (d : Vec F S1x1024x1024 .f32) (qs : Vec F S1024x1024 .bf16) (m l : Vec F S1024x1 .f32) (acc : Vec F S1024x1024 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare d
        ∗ owns (c : Thread nD τ) arg9 fullShare qs ∗ owns (c : Thread nD τ) arg10 fullShare m ∗ owns (c : Thread nD τ) arg11 fullShare l
        ∗ owns (c : Thread nD τ) arg12 fullShare acc
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (attnOut (attnAcc qs x3 x4 m acc) (attnL qs x3 m l))
            ∗ owns (c : Thread nD τ) arg9 fullShare (qs)
            ∗ owns (c : Thread nD τ) arg10 fullShare (attnM qs x3 m)
            ∗ owns (c : Thread nD τ) arg11 fullShare (attnL qs x3 m l)
            ∗ owns (c : Thread nD τ) arg12 fullShare (attnAcc qs x3 x4 m acc)) -∗ K ⟨⟩))
      ⊢ wp frame (wpE (defs₀ (F := F)) Variants.none c none) E (cc2__fused_attn_kernel i arg3 harg3 arg4 harg4 arg5 harg5 arg6 harg6 arg7 harg7 arg8 harg8 arg9 harg9 arg10 harg10 arg11 harg11 arg12 harg12) K := by
  have hc0 : ¬cond2_0 i := fun h => by have := (cond2_0_iff i).mp h; omega
  have hc1 : cond2_1 i := (cond2_1_iff i).mpr h3
  simp only [cc2__fused_attn_kernel_eq_skeleton]; unfold cc2__fused_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  obtain rfl := harg12.eq_unread hf9
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    rw [read_store_whole _ _ zeros3]
    delta attn_body_C.sl.v43 attn_body_C.sl.v44 attn_body_C.sl.H9_1 attn_body_C.sl.H8_1 attn_body_C.sl.r attn_body_C.sl.r_2 attn_body_C.sl.r_3
    simp only [readCov_store_whole (S := S1024x1024) _ zeros2 inb_S1024x1024_S1024x1024_0_0,
      readCov_store_whole (S := S1024x1) _ zeros2 inb_S1024x1_S1024x1_0_0,
      View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
    rfl
  isplitl [H6]
  · iexists _; isplitr; · ipureintro; exact harg9.read_unread _
    iexact H6
  isplitl [H7]
  · iexists _; isplitr
    swap; · iexact H7
    ipureintro
    rw [read_store_whole _ _ zeros2]
    delta attn_body_C.sl.r_1
    simp only [View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
    rfl
  isplitl [H8]
  · iexists _; isplitr
    swap; · iexact H8
    ipureintro
    delta attn_body_C.sl.H8_1
    rw [read_store_whole _ _ zeros2]
    simp only [View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
    rfl
  iexists _; isplitr
  swap; · iexact H9
  ipureintro
  delta attn_body_C.sl.H9_1
  rw [read_store_whole _ _ zeros2]
  delta attn_body_C.sl.r attn_body_C.sl.r_2 attn_body_C.sl.r_3
  simp only [View.readAt_eq_ld, Memref.IsWhole.read_unread,
      View.ld_unit_zero (S := S1024x1024) zeros2 inb_S1024x1024_S1024x1024_0_0,
      View.ld_unit_zero (S := S1024x1) zeros2 inb_S1024x1_S1024x1_0_0,
      View.ld_unit_zero (S := S1x512x1024) zeros3 inb_S1x512x1024_S1x512x1024_0_0_0,
      View.ld_unit_zero (S := S1x1024x1024) zeros3 inb_S1x1024x1024_S1x1024x1024_0_0_0,
      View.ld_unit_zero (S := S1024) zeros1 inb_S1024_S1024_0]
  rfl

end Cert.KernelIdeal.Gen

end
-- ==== Proof.IdealAttnObl.lean ====
/-
  The attention region's body obligation: at every grid point the body, called on the windows' current buffers and the
  four carried buffers, leaves what the proof data states. The point's key tile (the grid point modulo 4) selects the
  case: tile 0 sets the carried buffers, tiles 1 and 2 advance them, tile 3 advances them and stores the output tile; at
  the other tiles the output buffer is handed back as it was found.
-/
import proofs.«158720_j6236292514541_2_alg».proof.Proof.IdealAttn
import proofs.«158720_j6236292514541_2_alg».proof.Proof.AttnBodyA
import proofs.«158720_j6236292514541_2_alg».proof.Proof.AttnBodyB
import proofs.«158720_j6236292514541_2_alg».proof.Proof.AttnBodyC

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The key tile of a grid point -/

/-- The key-tile coordinate of grid point `t` is `t mod 4` (decided over the 64 points). -/
theorem coord2_val : ∀ t : Fin cfg2.N, ((cfg2.grid.coords t) 2).val = t.val % 4 :=
  (by decide +kernel : ∀ t : Fin grid2.N, ((grid2.coords t) 2).val = t.val % 4)

/-- The output window is idle exactly off key tile 3, -/
theorem idle5_of_ne (t : Fin cfg2.N) (h : t.val % 4 ≠ 3) : idle2 5 (grid2.coords t) = true := by
  have hc : ¬ (k2_cond2 (cfg2.grid.coords t) = 1#1) := fun hc => h ((coord2_val t) ▸ (cond2_1_iff _).mp hc)
  show (!(k2_cond2 (cfg2.grid.coords t) == 1#1)) = true
  rw [beq_eq_false_iff_ne.mpr hc]; rfl
theorem idle5_of_eq (t : Fin cfg2.N) (h : t.val % 4 = 3) : idle2 5 (grid2.coords t) = false := by
  have hc : k2_cond2 (cfg2.grid.coords t) = 1#1 := (cond2_1_iff _).mpr ((coord2_val t).trans h)
  show (!(k2_cond2 (cfg2.grid.coords t) == 1#1)) = false
  rw [hc]; rfl
/-- and is written back exactly at key tile 3. -/
theorem flush5_of_ne (t : Fin cfg2.N) (h : t.val % 4 ≠ 3) : (win2 5).flush t = false := by
  cases hf : (win2 5).flush t with
  | false => rfl
  | true => exact absurd ((flush2_5 t).mp hf) h

/-! ## The body obligation at a point -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns: each input's buffer at its block; the output's at the stated tile where the point stores it,
    and as found where it does not. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ (match cfg2.idle 5 (cfg2.grid.coords t) with
        | true =>
          match (cfg2.win 5).flush t with
          | false => iprop(∃ d, owns (c : Thread nD τ) (st2_5 t) fullShare ((dat V c).before 5 t d))
          | true => owns (c : Thread nD τ) (st2_5 t) fullShare ((dat V c).after 5 t)
        | false => owns (c : Thread nD τ) (st2_5 t) fullShare ((dat V c).after 5 t)))

set_option maxHeartbeats 1000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.castSucc = Phi V c t.val from rfl, show (dat V c).Φ t.succ = Phi V c (t.val + 1) from rfl,
    show (dat V c).owesAt () t.succ = (dat V c).owesAt () t.castSucc from rfl,
    after_0, after_1, after_2, after_3, after_4, after_5]
  unfold Phi scratchAt
  iintro ⟨⟨Hos, Hp, ⟨%s, %hs, S0, S1, S2, S3⟩⟩, Ho, ⟨%d0, H0⟩, ⟨%d1, H1⟩, ⟨%d2, H2⟩, ⟨%d3, H3⟩, ⟨%d4, H4⟩, ⟨%d5, H5⟩⟩
  by_cases hA : t.val % 4 = 0
  · -- key tile 0: the carried buffers are set
    have h3 : t.val % 4 ≠ 3 := by omega
    rw [idle5_of_ne t h3, flush5_of_ne t h3]
    dsimp only
    iapply (attn_body_A c Set.univ (grid2.coords t) _ _ _ _ _ _ _ _ _ _ _ _ _ _ _ _ _ _ _ _ ((coord2_val t).trans hA)
      (iblk V c 0 t) (iblk V c 1 t) (iblk V c 2 t) (iblk V c 3 t) (iblk V c 4 t) ((dat V c).before 5 t d5) s.qs s.m s.l s.acc _)
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    iintro ⟨H0, H1, H2, H3, H4, H5, S0, S1, S2, S3⟩
    isplitl [Hos Hp S0 S1 S2 S3]
    · isplitl [Hos]; · iexact Hos
      isplitl [Hp]; · iexact Hp
      iexists (scr V c (t.val + 1))
      isplitr; · ipureintro; exact fun _ => rfl
      rw [scr_first V c t hA]; unfold stepFirst; dsimp only
      isplitl [S0]; · iexact S0
      isplitl [S1]; · iexact S1
      isplitl [S2]; · iexact S2
      iexact S3
    isplitl [Ho]; · iexact Ho
    isplitl [H0]; · iexact H0
    isplitl [H1]; · iexact H1
    isplitl [H2]; · iexact H2
    isplitl [H3]; · iexact H3
    isplitl [H4]; · iexact H4
    iexists d5; iexact H5
  · obtain rfl : s = scr V c t.val := hs hA
    by_cases hC : t.val % 4 = 3
    · -- key tile 3: one more step, and the output tile is stored
      rw [idle5_of_eq t hC]
      dsimp only
      iapply (attn_body_C c Set.univ (grid2.coords t) _ _ _ _ _ _ _ _ _ _ _ _ _ _ _ _ _ _ _ _ ((coord2_val t).trans hC)
        (iblk V c 0 t) (iblk V c 1 t) (iblk V c 2 t) (iblk V c 3 t) (iblk V c 4 t) ((dat V c).before 5 t d5)
        (scr V c t.val).qs (scr V c t.val).m (scr V c t.val).l (scr V c t.val).acc _)
      isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      isplitl [S3]; · iexact S3
      iintro ⟨H0, H1, H2, H3, H4, H5, S0, S1, S2, S3⟩
      rw [scr_next V c t hA]; unfold stepNext; dsimp only
      isplitl [Hos Hp S0 S1 S2 S3]
      · isplitl [Hos]; · iexact Hos
        isplitl [Hp]; · iexact Hp
        iexists (stepNext (iblk V c 3 t) (iblk V c 4 t) (scr V c t.val))
        isplitr; · ipureintro; exact fun _ => rfl
        unfold stepNext; dsimp only
        isplitl [S0]; · iexact S0
        isplitl [S1]; · iexact S1
        isplitl [S2]; · iexact S2
        iexact S3
      isplitl [Ho]; · iexact Ho
      isplitl [H0]; · iexact H0
      isplitl [H1]; · iexact H1
      isplitl [H2]; · iexact H2
      isplitl [H3]; · iexact H3
      isplitl [H4]; · iexact H4
      iexact H5
    · -- key tiles 1 and 2: one more step
      rw [idle5_of_ne t hC, flush5_of_ne t hC]
      dsimp only
      iapply (attn_body_B c Set.univ (grid2.coords t) _ _ _ _ _ _ _ _ _ _ _ _ _ _ _ _ _ _ _ _
        (fun h => hA ((coord2_val t).symm.trans h)) (fun h => hC ((coord2_val t).symm.trans h))
        (iblk V c 0 t) (iblk V c 1 t) (iblk V c 2 t) (iblk V c 3 t) (iblk V c 4 t) ((dat V c).before 5 t d5)
        (scr V c t.val).qs (scr V c t.val).m (scr V c t.val).l (scr V c t.val).acc _)
      isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      isplitl [S3]; · iexact S3
      iintro ⟨H0, H1, H2, H3, H4, H5, S0, S1, S2, S3⟩
      isplitl [Hos Hp S0 S1 S2 S3]
      · isplitl [Hos]; · iexact Hos
        isplitl [Hp]; · iexact Hp
        iexists (scr V c (t.val + 1))
        isplitr; · ipureintro; exact fun _ => rfl
        rw [scr_next V c t hA]; unfold stepNext; dsimp only
        isplitl [S0]; · iexact S0
        isplitl [S1]; · iexact S1
        isplitl [S2]; · iexact S2
        iexact S3
      isplitl [Ho]; · iexact Ho
      isplitl [H0]; · iexact H0
      isplitl [H1]; · iexact H1
      isplitl [H2]; · iexact H2
      isplitl [H3]; · iexact H3
      isplitl [H4]; · iexact H4
      iexists d5; iexact H5

/-- The pipeline library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Attn

end
-- ==== Proof.IdealRun.lean ====
/-
  The whole program as a chain of segments: three stretches of host operations and three kernel regions. Between
  two segments every unscoped buffer of the core is held whole at named contents: the launch contents, then each host
  stretch's operations applied, then, after a region, the region's output array replaced by what the region's
  write-backs leave. Over those contents this module gives the three regions as segments and proves the run of the
  program: every weakly fair execution terminates, the argument arrays end as launched, and the result array ends at what
  the attention region's write-backs leave.
-/
import proofs.«158720_j6236292514541_2_alg».proof.Proof.IdealContents
import proofs.«158720_j6236292514541_2_alg».proof.Proof.IdealAttnObl

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The proof data of the three pipelines, and what rides beside the buffers -/

def pdats : (p : Fin 3) → (c : Dev nD) → Dat τ (Elt F) Unit ℕ (UR sig nD τ) ℕ (Pipeline.pin (pcfgs (F := F)) adm p) c
  | ⟨0, _⟩ => fun c => Proj0.dat (C1 m) c
  | ⟨1, _⟩ => fun c => Proj1.dat (C3 m) c
  | ⟨2, _⟩ => fun c => Attn.dat (C5 m) c

abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)

/-! ## The three regions as segments -/

theorem hF0 (c : Dev nD) (w : Fin cfg0.W) : (pdats m 0 c).arrAt w cfg0.N = V2 m (outs m) c (Pipeline.arrRef spec0 w) := by
  match w with
  | ⟨0, _⟩ => exact ((Proj0.dat (C1 m) c).arrAt_in 0 rfl _).trans ((Proj0.A_eq (C1 m) c 0).trans (V2_of m (outs m) c _ (by decide)).symm)
  | ⟨1, _⟩ => exact ((Proj0.dat (C1 m) c).arrAt_in 1 rfl _).trans ((Proj0.A_eq (C1 m) c 1).trans (V2_of m (outs m) c _ (by decide)).symm)
  | ⟨2, _⟩ => exact ((Proj0.dat (C1 m) c).arrAt_in 2 rfl _).trans ((Proj0.A_eq (C1 m) c 2).trans (V2_of m (outs m) c _ (by decide)).symm)
  | ⟨3, _⟩ =>
    refine Eq.symm ?_
    show Function.update (V1 m c) main_v8 (outs m 2 main_v8 c) main_v8 = _
    rw [Function.update_self]
    show o2 m main_v8 c = _
    unfold o2
    exact Pipeline.withArrays_arr spec0 launch0.win.arr_inj c _ _ 3

theorem hrest0 (c : Dev nD) : ∀ b, b ∉ Finset.univ.image (Pipeline.arrRef spec0) → V2 m (outs m) c b = C1 m c b :=
  fun b hb => V2_of m (outs m) c b (fun h => hb (by
    rw [List.mem_singleton] at h; subst h
    exact Finset.mem_image.mpr ⟨3, Finset.mem_univ _, rfl⟩))

set_option backward.isDefEq.respectTransparency.types false in
/-- The key projection: entered from every unscoped buffer at the contents after the first host stretch, left with its output array replaced. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Proj0.body_obligation (C1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (C1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (C1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (C1 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF1 (c : Dev nD) (w : Fin cfg1.W) : (pdats m 1 c).arrAt w cfg1.N = V4 m (outs m) c (Pipeline.arrRef spec1 w) := by
  match w with
  | ⟨0, _⟩ => exact ((Proj1.dat (C3 m) c).arrAt_in 0 rfl _).trans ((Proj1.A_eq (C3 m) c 0).trans (V4_of m (outs m) c _ (by decide)).symm)
  | ⟨1, _⟩ => exact ((Proj1.dat (C3 m) c).arrAt_in 1 rfl _).trans ((Proj1.A_eq (C3 m) c 1).trans (V4_of m (outs m) c _ (by decide)).symm)
  | ⟨2, _⟩ => exact ((Proj1.dat (C3 m) c).arrAt_in 2 rfl _).trans ((Proj1.A_eq (C3 m) c 2).trans (V4_of m (outs m) c _ (by decide)).symm)
  | ⟨3, _⟩ =>
    refine Eq.symm ?_
    show Function.update (V3 m (outs m) c) main_v11 (outs m 4 main_v11 c) main_v11 = _
    rw [Function.update_self]
    show o4 m main_v11 c = _
    unfold o4
    exact Pipeline.withArrays_arr spec1 launch1.win.arr_inj c _ _ 3

theorem hrest1 (c : Dev nD) : ∀ b, b ∉ Finset.univ.image (Pipeline.arrRef spec1) → V4 m (outs m) c b = C3 m c b :=
  fun b hb => V4_of m (outs m) c b (fun h => hb (by
    rw [List.mem_singleton] at h; subst h
    exact Finset.mem_image.mpr ⟨3, Finset.mem_univ _, rfl⟩))

set_option backward.isDefEq.respectTransparency.types false in
/-- The value projection, entered after the second host stretch. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Proj1.body_obligation (C3 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (C3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (C3 m c) fun _ => rfl
    rw [Pipeline.unscopedBufs_held] at hsplit
    rw [show V3 m (outsA m) c = V3 m (outs m) c from rfl] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (C3 m c) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF2 (c : Dev nD) (w : Fin cfg2.W) : (pdats m 2 c).arrAt w cfg2.N = V6 m (outs m) c (Pipeline.arrRef spec2 w) := by
  match w with
  | ⟨0, _⟩ => exact ((Attn.dat (C5 m) c).arrAt_in 0 rfl _).trans ((Attn.A_eq (C5 m) c 0).trans (V6_of m (outs m) c _ (by decide)).symm)
  | ⟨1, _⟩ => exact ((Attn.dat (C5 m) c).arrAt_in 1 rfl _).trans ((Attn.A_eq (C5 m) c 1).trans (V6_of m (outs m) c _ (by decide)).symm)
  | ⟨2, _⟩ => exact ((Attn.dat (C5 m) c).arrAt_in 2 rfl _).trans ((Attn.A_eq (C5 m) c 2).trans (V6_of m (outs m) c _ (by decide)).symm)
  | ⟨3, _⟩ => exact ((Attn.dat (C5 m) c).arrAt_in 3 rfl _).trans ((Attn.A_eq (C5 m) c 3).trans (V6_of m (outs m) c _ (by decide)).symm)
  | ⟨4, _⟩ => exact ((Attn.dat (C5 m) c).arrAt_in 4 rfl _).trans ((Attn.A_eq (C5 m) c 4).trans (V6_of m (outs m) c _ (by decide)).symm)
  | ⟨5, _⟩ =>
    refine Eq.symm ?_
    show Function.update (V5 m (outs m) c) main_v13 (outs m 6 main_v13 c) main_v13 = _
    rw [Function.update_self]
    show o6 m main_v13 c = _
    unfold o6
    exact Pipeline.withArrays_arr spec2 launch2.win.arr_inj c _ _ 5

theorem hrest2 (c : Dev nD) : ∀ b, b ∉ Finset.univ.image (Pipeline.arrRef spec2) → V6 m (outs m) c b = C5 m c b :=
  fun b hb => V6_of m (outs m) c b (fun h => hb (by
    rw [List.mem_singleton] at h; subst h
    exact Finset.mem_image.mpr ⟨5, Finset.mem_univ _, rfl⟩))

set_option backward.isDefEq.respectTransparency.types false in
/-- The attention region, entered after the third host stretch; its invariant carries the four scratch buffers. -/
def reg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (Attn.body_obligation (C5 m) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (C5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (C5 m c) fun _ => rfl
    rw [Pipeline.unscopedBufs_held] at hsplit
    rw [show V5 m (outsB m) c = V5 m (outs m) c from rfl] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Attn.Phi (C5 m) c 0 from rfl]
    iintro ⟨Hp, -, Hr⟩
    iapply (Attn.phi_in (C5 m) c)
    isplitl [Hp]; · iexact Hp
    iexact Hr
  hout c := by
    rw [Pipeline.ownSems0_none, show (pdats m 2 c).Φ (Fin.last _) = Attn.Phi (C5 m) c (Fin.last cfg2.N).val from rfl]
    iintro H
    ihave H' := (Attn.phi_out (C5 m) c _) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (C5 m c) (fun b => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

theorem V6_main_v13 (c : Dev nD) : V6 m (outs m) c main_v13 = o6 m main_v13 c := by
  show Function.update (V5 m (outs m) c) main_v13 (outs m 6 main_v13 c) main_v13 = _
  rw [Function.update_self]; rfl

/-- What the launch deals each core, less the buffers, makes the generator register at some state and the core owing nothing. -/
theorem rest_init (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- From any memory with zero counters, every weakly fair execution of the program terminates, nothing faulting; at the
    end the result array holds what the attention region's write-backs leave, and every argument array is as launched. -/
theorem run_main (ρ : Dev nD → PrngReg) :
    θ_run defs (onTc (τ := τ) (main (F := F))) ⟨m, fun _ => 0, ρ⟩ (fun r => ∀ c : Dev nD,
      r.2.mem ((c.tc : Thread nD τ).loc main_v13) = o6 m main_v13 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm (pdats m) () cellOf_inj emb₁ defs₀ Variants.none L lv m ρ main
    (segs m (outs m) Variants.none L lv (fun _ c => R c) () (pdats m) (reg0 m) (reg1 m) (reg2 m))
    (fun c Q => by
      rewrite [main_chain c, Seg.run_eq_chain,
        show (segs m (outs m) Variants.none L lv (fun _ c => R c) () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) (0 : Dev nD → CellTallies nD τ sig Unit) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V6 m (outs m) c))
    (hch := fun c => ⟨.rfl, .rfl, .rfl, .rfl, .rfl, .rfl, sep_mono .rfl (by iintro ⟨-, HO⟩; iexact HO)⟩)
    (hinit := ?_) (QY := fun c s => s.mem ((c.tc : Thread nD τ).loc main_v13) = o6 m main_v13 c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    (hfin := fun c s' => ?_) (hQ := fun _ h => h)
  · -- the launch: the unscoped buffers are held at the launch contents; the rest makes `R` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (rest_init ρ) $$ [Hr Hla] with HE
    · isplitl [Hr]; · iexact Hr
      iexact Hla
    imodintro
    iapply (show (iprop((bigSep Finset.univ fun c : Dev nD => StableHlo.held (c : Thread nD τ) (Pipeline.ucRefs τ sig) (V0 m c))
          ∗ bigSep Finset.univ fun c : Dev nD => R c) : sProp 𝕄)
        ⊢ (bigSep Finset.univ fun c : Dev nD => iprop(StableHlo.held (c : Thread nD τ) (Pipeline.ucRefs τ sig) (V0 m c) ∗ R c) : sProp 𝕄)
        from by rw [← bigSep_sep'])
    isplitl [Hh]; · iexact Hh
    iexact HE
  · -- the end: the result's buffer and each argument's read off the last contents
    unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      exact ⟨(h (Proc.devRef .tc main_v13) (Finset.mem_filter.mpr ⟨StableHlo.devRef_mem_tcRefs main_v13, by decide⟩)).trans (V6_main_v13 m c),
        (h (Proc.devRef .tc main_arg0) (Finset.mem_filter.mpr ⟨StableHlo.devRef_mem_tcRefs main_arg0, by decide⟩)).trans (V6_main_arg0 m (outs m) c),
        (h (Proc.devRef .tc main_arg1) (Finset.mem_filter.mpr ⟨StableHlo.devRef_mem_tcRefs main_arg1, by decide⟩)).trans (V6_main_arg1 m (outs m) c),
        (h (Proc.devRef .tc main_arg2) (Finset.mem_filter.mpr ⟨StableHlo.devRef_mem_tcRefs main_arg2, by decide⟩)).trans (V6_main_arg2 m (outs m) c),
        (h (Proc.devRef .tc main_arg3) (Finset.mem_filter.mpr ⟨StableHlo.devRef_mem_tcRefs main_arg3, by decide⟩)).trans (V6_main_arg3 m (outs m) c),
        (h (Proc.devRef .tc main_arg4) (Finset.mem_filter.mpr ⟨StableHlo.devRef_mem_tcRefs main_arg4, by decide⟩)).trans (V6_main_arg4 m (outs m) c),
        (h (Proc.devRef .tc main_arg5) (Finset.mem_filter.mpr ⟨StableHlo.devRef_mem_tcRefs main_arg5, by decide⟩)).trans (V6_main_arg5 m (outs m) c),
        (h (Proc.devRef .tc main_arg6) (Finset.mem_filter.mpr ⟨StableHlo.devRef_mem_tcRefs main_arg6, by decide⟩)).trans (V6_main_arg6 m (outs m) c),
        (h (Proc.devRef .tc main_arg7) (Finset.mem_filter.mpr ⟨StableHlo.devRef_mem_tcRefs main_arg7, by decide⟩)).trans (V6_main_arg7 m (outs m) c),
        (h (Proc.devRef .tc main_arg8) (Finset.mem_filter.mpr ⟨StableHlo.devRef_mem_tcRefs main_arg8, by decide⟩)).trans (V6_main_arg8 m (outs m) c)⟩
    · iexact HSI

end Cert.KernelIdeal.Run

end
-- ==== Proof.Spec.lean ====
/-
  Scaled dot-product attention with learned projections, stated index by index on the extended reals.

  Arguments: three activation arrays query, key, value of shape [8, 2048, 1024] (batch, position, feature), and for each
  a weight matrix [1024, 1024] and a bias vector [1024]. With
      Q = query · Wq + bq,   K = key · Wk + bk,   V = value · Wv + bv        (contraction over the input feature),
      s(b, q, k) = (Σ_e Q(b, q, e) · K(b, k, e)) · (1 / sqrt 1024),
      M(b, q) = max(−∞, max_k s(b, q, k)),   E(b, q, k) = exp(s(b, q, k) − M(b, q)),   L(b, q) = 0 + Σ_k E(b, q, k),
  the result is out(b, q, v) = Σ_k (E(b, q, k) / L(b, q)) · V(b, k, v).
  Every float is an extended real; the quotient, the square root and the exponential are the extended reals' total
  versions (Ideal.div, Ideal.sqrt, Ideal.exp), and the four numeric literals (1024, 1, −∞, 0) are kept as the f32 bit
  patterns they are written with. No program is mentioned here: this file is the common meeting point of the two sides.
-/
import Idealize.ShloMosaic.PureOps.Ideal
import Idealize.ShloMosaic.Lib.ValueIdx

noncomputable section

open scoped BigOperators

namespace Cert.Attn

open Idealize.ShloMosaic Idealize.ShloMosaic.ValueIdx

/-- The activations' shape: 8 batches, 2048 positions, 1024 features. -/
abbrev SAct : Shape := ⟨3, ![8, 2048, 1024]⟩
/-- A weight matrix's shape: input feature by output feature. -/
abbrev SMat : Shape := ⟨2, ![1024, 1024]⟩
/-- A bias vector's shape. -/
abbrev SVec : Shape := ⟨1, ![1024]⟩

/-- An activation array, a weight matrix, a bias vector: functions from indices to extended reals. -/
abbrev Act : Type := FVec Ideal SAct .f32
abbrev Mat : Type := FVec Ideal SMat .f32
abbrev Vec : Type := FVec Ideal SVec .f32

/-- The literal 1024 (f32 pattern 0x44800000). -/
def c1024 : EReal := Ideal.ofBits .f32 0x44800000#32
/-- The literal 1 (f32 pattern 0x3F800000). -/
def cOne : EReal := Ideal.ofBits .f32 0x3F800000#32
/-- The literal −∞ (f32 pattern 0xFF800000). -/
def cNegInf : EReal := Ideal.ofBits .f32 0xFF800000#32
/-- The literal 0 (f32 pattern 0x00000000). -/
def cZero : EReal := Ideal.ofBits .f32 0x00000000#32

/-- The scale 1 / sqrt 1024. -/
def scale : EReal := Ideal.div cOne (Ideal.sqrt c1024)

/-- A projection at (batch b, position s, output feature e): Σ_d x(b, s, d) · W(d, e), plus the bias at e. -/
def proj (x : Act) (W : Mat) (bias : Vec) (b : Fin 8) (s : Fin 2048) (e : Fin 1024) : EReal :=
  (∑ d : Fin 1024, x (ix3 b s d) * W (ix2 d e)) + bias (ix1 e)

/-- The projected queries, keys and values. -/
def Qr (query : Act) (Wq : Mat) (bq : Vec) (b : Fin 8) (s : Fin 2048) (e : Fin 1024) : EReal := proj query Wq bq b s e
def Kr (key : Act) (Wk : Mat) (bk : Vec) (b : Fin 8) (s : Fin 2048) (e : Fin 1024) : EReal := proj key Wk bk b s e
def Vr (value : Act) (Wv : Mat) (bv : Vec) (b : Fin 8) (s : Fin 2048) (e : Fin 1024) : EReal := proj value Wv bv b s e

/-- The scaled score of query position q against key position k in batch b: (Σ_e Q(b, q, e) · K(b, k, e)) · scale. -/
def sc (query key : Act) (Wq : Mat) (bq : Vec) (Wk : Mat) (bk : Vec) (b : Fin 8) (q k : Fin 2048) : EReal :=
  (∑ e : Fin 1024, Qr query Wq bq b q e * Kr key Wk bk b k e) * scale

/-- The maximum of a row of scores, folded from −∞ over the key positions. -/
def rowmax (query key : Act) (Wq : Mat) (bq : Vec) (Wk : Mat) (bk : Vec) (b : Fin 8) (q : Fin 2048) : EReal :=
  (Finset.univ : Finset (Fin 2048)).fold max cNegInf (fun k => sc query key Wq bq Wk bk b q k)

/-- The row's stabiliser M(b, q) = max(−∞, rowmax). -/
def M (query key : Act) (Wq : Mat) (bq : Vec) (Wk : Mat) (bk : Vec) (b : Fin 8) (q : Fin 2048) : EReal :=
  max cNegInf (rowmax query key Wq bq Wk bk b q)

/-- The shifted exponentials E(b, q, k) = exp(s(b, q, k) − M(b, q)). -/
def E (query key : Act) (Wq : Mat) (bq : Vec) (Wk : Mat) (bk : Vec) (b : Fin 8) (q k : Fin 2048) : EReal :=
  Ideal.exp (sc query key Wq bq Wk bk b q k - M query key Wq bq Wk bk b q)

/-- The row's normaliser L(b, q) = 0 + Σ_k E(b, q, k). -/
def L (query key : Act) (Wq : Mat) (bq : Vec) (Wk : Mat) (bk : Vec) (b : Fin 8) (q : Fin 2048) : EReal :=
  cZero + ∑ k : Fin 2048, E query key Wq bq Wk bk b q k

/-- The attention weights P(b, q, k) = E(b, q, k) / L(b, q). -/
def P (query key : Act) (Wq : Mat) (bq : Vec) (Wk : Mat) (bk : Vec) (b : Fin 8) (q k : Fin 2048) : EReal :=
  Ideal.div (E query key Wq bq Wk bk b q k) (L query key Wq bq Wk bk b q)

/-- The result at (b, q, v): Σ_k P(b, q, k) · V(b, k, v). -/
def out (query key value : Act) (Wq : Mat) (bq : Vec) (Wk : Mat) (bk : Vec) (Wv : Mat) (bv : Vec)
    (b : Fin 8) (q : Fin 2048) (v : Fin 1024) : EReal :=
  ∑ k : Fin 2048, P query key Wq bq Wk bk b q k * Vr value Wv bv b k v

/-- The result array: at an index i, out at i's three coordinates. -/
def G (query key value : Act) (Wq : Mat) (bq : Vec) (Wk : Mat) (bk : Vec) (Wv : Mat) (bv : Vec) : Act :=
  fun i => out query key value Wq bq Wk bk Wv bv (i 0) (i 1) (i 2)

/-- G at an index given by its coordinates. -/
theorem G_ix3 (query key value : Act) (Wq : Mat) (bq : Vec) (Wk : Mat) (bk : Vec) (Wv : Mat) (bv : Vec)
    (b : Fin 8) (q : Fin 2048) (v : Fin 1024) :
    G query key value Wq bq Wk bk Wv bv (ix3 b q v) = out query key value Wq bq Wk bk Wv bv b q v := rfl

end Cert.Attn

end
-- ==== Proof.LibPlainMatmul.lean ====
import Idealize.ShloMosaic.PureOps.Ideal.Laws
import Idealize.ShloMosaic.Lib.ValueIdx
import Idealize.ShloMosaic.Lib.Pipeline.Value

noncomputable section

namespace Idealize.ShloMosaic.PlainMatmul

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals a plain matrix product into a zero accumulator is, at row `p` and column `q`, the sum over
    the contracted coordinate `k` of the left operand at `(p, k)` times the right operand at `(k, q)`. -/
theorem matmul_zero_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainMatmul

end
-- ==== Proof.LibRowReduce.lean ====
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.RowReduce

open Idealize.ShloMosaic Idealize.ShloMosaic.ValueIdx

variable {α : Type} {a b : Nat}

/-! ## A column kept as a unit axis -/

/-- A vector of length `a` cast to an `[a, 1]` column reads, at `(i, u)`, the vector at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast along the rows to `[a, b]` reads, at `(p, c)`, the column at row `p`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a per-row value kept as a column and broadcast back over the row is, at `(p, c)`, the value of row `p`. -/
theorem keepdims_apply (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-! ## A reduction along the rows of a matrix -/

/-- The index of row `p` with the column `k` put back. -/
theorem lift_ix1 (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- Over the extended reals the sum along each row, at row `p`, is the sum of the row's entries. -/
theorem rowSum_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_ix1 h p k))

/-- Over the extended reals the maximum along each row, at row `p`, is the fold of `max` over the row's entries from the
    value the reduction starts at. -/
theorem rowMax_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (Finset.fold max (FloatOps.ofBits φ acc) · (Finset.univ : Finset (Fin b)))
      (funext fun k => congrArg src (lift_ix1 h p k)))

end Idealize.ShloMosaic.RowReduce

end
-- ==== Proof.LibLayoutIx.lean ====
/-
  Layout operations of small literal ranks read at an index whose coordinates are named (ValueIdx's ix1, ix2, ix3):
  a scalar broadcast anywhere, a vector as a column or a row, a column or a row repeated, a transposition of two or
  three axes, a one-column array flattened, one column sliced out, two columns set side by side, three equal bands of
  columns set side by side.  Each is the library's read-at-an-index lemma with the operand's index chosen.
-/
import Idealize.ShloMosaic.Lib.Pipeline.Value
import Idealize.ShloMosaic.Lib.ValueIdx

noncomputable section

namespace Idealize.ShloMosaic.LayoutIx

open Idealize.ShloMosaic Idealize.ShloMosaic.ValueIdx

variable {α : Type}

/-- A scalar broadcast to any shape reads the scalar everywhere. -/
theorem bcast_scalar (t : Shape) (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: entry (n, k) is entry n. -/
theorem bcast_col {N : Nat} (dims : Fin 1 → Fin 2) (hd : dims 0 = 0)
    (h : (⟨1, ![N]⟩ : Shape).BroadcastsInDim ⟨2, ![N, 1]⟩ dims) (x : (⟨1, ![N]⟩ : Shape).Idx → α) (n : Fin N) (k : Fin 1) :
    broadcastInDim ⟨2, ![N, 1]⟩ dims h x (ix2 n k) = x (ix1 n) := by
  refine broadcastInDim_apply (s := ⟨1, ![N]⟩) (t := ⟨2, ![N, 1]⟩) dims h x (ix2 n k) (ix1 n) (fun a => ?_)
  obtain rfl : a = 0 := Subsingleton.elim _ _
  rw [hd]
  show n.val = if N = 1 then 0 else n.val
  split
  · have := n.isLt; omega
  · rfl

/-- A vector made a row: entry (k, n) is entry n. -/
theorem bcast_row {N : Nat} (dims : Fin 1 → Fin 2) (hd : dims 0 = 1)
    (h : (⟨1, ![N]⟩ : Shape).BroadcastsInDim ⟨2, ![1, N]⟩ dims) (x : (⟨1, ![N]⟩ : Shape).Idx → α) (n : Fin N) (k : Fin 1) :
    broadcastInDim ⟨2, ![1, N]⟩ dims h x (ix2 k n) = x (ix1 n) := by
  refine broadcastInDim_apply (s := ⟨1, ![N]⟩) (t := ⟨2, ![1, N]⟩) dims h x (ix2 k n) (ix1 n) (fun a => ?_)
  obtain rfl : a = 0 := Subsingleton.elim _ _
  rw [hd]
  show n.val = if N = 1 then 0 else n.val
  split
  · have := n.isLt; omega
  · rfl

/-- A row repeated down C rows: entry (c, n) is entry (0, n). -/
theorem bcast_rows {C N : Nat} (dims : Fin 2 → Fin 2) (hd0 : dims 0 = 0) (hd1 : dims 1 = 1)
    (h : (⟨2, ![1, N]⟩ : Shape).BroadcastsInDim ⟨2, ![C, N]⟩ dims) (x : (⟨2, ![1, N]⟩ : Shape).Idx → α) (c : Fin C) (n : Fin N) :
    broadcastInDim ⟨2, ![C, N]⟩ dims h x (ix2 c n) = x (ix2 (0 : Fin 1) n) := by
  refine broadcastInDim_apply (s := ⟨2, ![1, N]⟩) (t := ⟨2, ![C, N]⟩) dims h x (ix2 c n) (ix2 (0 : Fin 1) n) (fun a => ?_)
  match a with
  | ⟨0, _⟩ =>
    show (0 : Nat) = if (1 : Nat) = 1 then 0 else _
    rw [if_pos rfl]
  | ⟨1, _⟩ =>
    show n.val = if N = 1 then 0 else ((ix2 c n) (dims 1)).val
    rw [hd1]
    split
    · have := n.isLt; omega
    · rfl

/-- A column repeated across C columns: entry (n, c) is entry (n, 0). -/
theorem bcast_cols {N C : Nat} (dims : Fin 2 → Fin 2) (hd0 : dims 0 = 0) (hd1 : dims 1 = 1)
    (h : (⟨2, ![N, 1]⟩ : Shape).BroadcastsInDim ⟨2, ![N, C]⟩ dims) (x : (⟨2, ![N, 1]⟩ : Shape).Idx → α) (n : Fin N) (c : Fin C) :
    broadcastInDim ⟨2, ![N, C]⟩ dims h x (ix2 n c) = x (ix2 n (0 : Fin 1)) := by
  refine broadcastInDim_apply (s := ⟨2, ![N, 1]⟩) (t := ⟨2, ![N, C]⟩) dims h x (ix2 n c) (ix2 n (0 : Fin 1)) (fun a => ?_)
  match a with
  | ⟨0, _⟩ =>
    show n.val = if N = 1 then 0 else ((ix2 n c) (dims 0)).val
    rw [hd0]
    split
    · have := n.isLt; omega
    · rfl
  | ⟨1, _⟩ =>
    show (0 : Nat) = if (1 : Nat) = 1 then 0 else _
    rw [if_pos rfl]

/-- Two axes exchanged: entry (n, c) of the result is entry (c, n). -/
theorem transpose_two {C N : Nat} (h : (⟨2, ![C, N]⟩ : Shape).Transposes [1, 0] ⟨2, ![N, C]⟩)
    (x : (⟨2, ![C, N]⟩ : Shape).Idx → α) (n : Fin N) (c : Fin C) :
    transpose ⟨2, ![N, C]⟩ [1, 0] x h (ix2 n c) = x (ix2 c n) := by
  refine transpose_apply [1, 0] x h _ (ix2 c n) (fun b => ?_)
  match b with
  | ⟨0, _⟩ => rfl
  | ⟨1, _⟩ => rfl

/-- The first axis moved last: entry (h, w, c) of the result is entry (c, h, w). -/
theorem transpose_first_last {C H W : Nat} (h : (⟨3, ![C, H, W]⟩ : Shape).Transposes [1, 2, 0] ⟨3, ![H, W, C]⟩)
    (x : (⟨3, ![C, H, W]⟩ : Shape).Idx → α) (a : Fin H) (b : Fin W) (c : Fin C) :
    transpose ⟨3, ![H, W, C]⟩ [1, 2, 0] x h (ix3 a b c) = x (ix3 c a b) := by
  refine transpose_apply [1, 2, 0] x h _ (ix3 c a b) (fun d => ?_)
  match d with
  | ⟨0, _⟩ => rfl
  | ⟨1, _⟩ => rfl
  | ⟨2, _⟩ => rfl

/-- The same with the permutation a variable known to be the exchange (the form a rewriting pass can use). -/
theorem transpose_two' {C N : Nat} (perm : List (Fin 2)) (hp : perm = [1, 0])
    (h : (⟨2, ![C, N]⟩ : Shape).Transposes perm ⟨2, ![N, C]⟩)
    (x : (⟨2, ![C, N]⟩ : Shape).Idx → α) (n : Fin N) (c : Fin C) :
    transpose ⟨2, ![N, C]⟩ perm x h (ix2 n c) = x (ix2 c n) := by
  subst hp; exact transpose_two h x n c

/-- The same with the permutation a variable known to be the rotation. -/
theorem transpose_first_last' {C H W : Nat} (perm : List (Fin 3)) (hp : perm = [1, 2, 0])
    (h : (⟨3, ![C, H, W]⟩ : Shape).Transposes perm ⟨3, ![H, W, C]⟩)
    (x : (⟨3, ![C, H, W]⟩ : Shape).Idx → α) (a : Fin H) (b : Fin W) (c : Fin C) :
    transpose ⟨3, ![H, W, C]⟩ perm x h (ix3 a b c) = x (ix3 c a b) := by
  subst hp; exact transpose_first_last h x a b c

/-- A one-column array flattened: entry n is entry (n, 0). -/
theorem flatten_col {N : Nat} (h : (⟨2, ![N, 1]⟩ : Shape).ShapeCasts ⟨1, ![N]⟩)
    (x : (⟨2, ![N, 1]⟩ : Shape).Idx → α) (n : Fin N) :
    shapeCast ⟨1, ![N]⟩ x h (ix1 n) = x (ix2 n (0 : Fin 1)) := by
  refine shapeCast_apply x h _ (ix2 n (0 : Fin 1)) ?_
  rw [Shape.rowMajor_val_two, Shape.rowMajor_val_one]
  show n.val * 1 + 0 = n.val
  omega

/-- One column sliced out of K: entry (n, 0) of the slice at column offset o is entry (n, o). -/
theorem slice_col {N K : Nat} (off : Fin 2 → Nat) (o : Fin K) (h0 : off 0 = 0) (h1 : off 1 = o.val)
    (h : (⟨2, ![N, K]⟩ : Shape).Slices off ⟨2, ![N, 1]⟩) (x : (⟨2, ![N, K]⟩ : Shape).Idx → α) (n : Fin N) (k : Fin 1) :
    extractStridedSlice ⟨2, ![N, 1]⟩ off x h (ix2 n k) = x (ix2 n o) := by
  refine extractStridedSlice_apply off x h _ (ix2 n o) (fun a => ?_)
  match a with
  | ⟨0, _⟩ => show n.val = off 0 + n.val; omega
  | ⟨1, _⟩ => show o.val = off 1 + k.val; have := k.isLt; omega

/-- Two one-column arrays set side by side: column 0 is the first ... -/
theorem concat_cols_left {N : Nat}
    (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (0 : Fin 2)) = a (ix2 n (0 : Fin 1)) := by
  refine concatenate_pair_apply_left (t := ⟨2, ![N, 2]⟩) (s₁ := ⟨2, ![N, 1]⟩) (s₂ := ⟨2, ![N, 1]⟩) 1 a b h (ix2 n (0 : Fin 2)) rfl
    (ix2 n (0 : Fin 1)) (fun d => ?_)
  match d with
  | ⟨0, _⟩ => rfl
  | ⟨1, _⟩ => rfl

/-- ... and column 1 is the second. -/
theorem concat_cols_right {N : Nat}
    (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (1 : Fin 2)) = b (ix2 n (0 : Fin 1)) := by
  refine concatenate_pair_apply_right (t := ⟨2, ![N, 2]⟩) (s₁ := ⟨2, ![N, 1]⟩) (s₂ := ⟨2, ![N, 1]⟩) 1 a b h (ix2 n (1 : Fin 2)) rfl rfl
    (ix2 n (0 : Fin 1)) (fun d hd => ?_) rfl
  match d with
  | ⟨0, _⟩ => rfl
  | ⟨1, _⟩ => exact absurd rfl hd

/-- Three arrays of K columns set side by side: column K q + k of the result is column k of the q-th. -/
theorem concat3_apply {N K M : Nat}
    (h : Shape.Concatenates [(⟨2, ![N, K]⟩ : Shape), ⟨2, ![N, K]⟩, ⟨2, ![N, K]⟩] ⟨2, ![N, M]⟩ 1)
    (a b c : (⟨2, ![N, K]⟩ : Shape).Idx → α) (n : Fin N) (j : Fin M) (q : Fin 3) (k : Fin K)
    (hj : j.val = K * q.val + k.val) :
    concatenate ⟨2, ![N, M]⟩ 1 [⟨⟨2, ![N, K]⟩, a⟩, ⟨⟨2, ![N, K]⟩, b⟩, ⟨⟨2, ![N, K]⟩, c⟩] h (ix2 n j)
      = (match q with | 0 => a | 1 => b | 2 => c) (ix2 n k) := by
  have hi : ∀ d : Fin 2, d.cast (rfl : (2 : Nat) = 2) ≠ (1 : Fin 2) → ((ix2 n k) d).val = ((ix2 n j) (d.cast rfl)).val := by
    intro d hd
    match d with
    | ⟨0, _⟩ => rfl
    | ⟨1, _⟩ => exact absurd rfl hd
  match q with
  | 0 =>
    refine concatenate_apply_piece (t := ⟨2, ![N, M]⟩) 1 [⟨⟨2, ![N, K]⟩, a⟩, ⟨⟨2, ![N, K]⟩, b⟩, ⟨⟨2, ![N, K]⟩, c⟩] h (ix2 n j) 0 (by show (0 : Nat) < 3; omega) ⟨2, ![N, K]⟩ a rfl rfl 0 rfl (ix2 n k) hi ?_
    show 0 + k.val = j.val
    simp at hj; omega
  | 1 =>
    refine concatenate_apply_piece (t := ⟨2, ![N, M]⟩) 1 [⟨⟨2, ![N, K]⟩, a⟩, ⟨⟨2, ![N, K]⟩, b⟩, ⟨⟨2, ![N, K]⟩, c⟩] h (ix2 n j) 1 (by show (1 : Nat) < 3; omega) ⟨2, ![N, K]⟩ b rfl rfl K (by simp) (ix2 n k) hi ?_
    show K + k.val = j.val
    simp at hj; omega
  | 2 =>
    refine concatenate_apply_piece (t := ⟨2, ![N, M]⟩) 1 [⟨⟨2, ![N, K]⟩, a⟩, ⟨⟨2, ![N, K]⟩, b⟩, ⟨⟨2, ![N, K]⟩, c⟩] h (ix2 n j) 2 (by show (2 : Nat) < 3; omega) ⟨2, ![N, K]⟩ c rfl rfl (K + K) (by simp) (ix2 n k) hi ?_
    show K + K + k.val = j.val
    simp at hj; omega

/-! ## The elementwise operations on words and the host's rounding, at an index (all by definition) -/

section Pointwise
variable {F : FTy → Type} [FloatOps F] {s : Shape} {φ : FTy} {w : Nat}

theorem cmpi_apply (p : CmpIPredicate) (a b : IVec s w) (i : s.Idx) : cmpi p a b i = IntOp.cmpi p (a i) (b i) := rfl
theorem addi_apply (a b : IVec s w) (i : s.Idx) : addi a b i = IntOp.addi (a i) (b i) := rfl
theorem minsi_apply (a b : IVec s w) (i : s.Idx) : minsi a b i = IntOp.minsi (a i) (b i) := rfl
theorem fptosi_apply (v : Nat) (a : FVec F s φ) (i : s.Idx) : fptosi v a i = FloatOps.fptosi v (a i) := rfl
theorem hostFloor_apply (a : FVec F s φ) (i : s.Idx) : Host.floor a i = FloatOps.hostUnary .floor (a i) := rfl
theorem constantI_apply (b : BitVec w) (i : s.Idx) : constantI s w b i = b := rfl

end Pointwise

end Idealize.ShloMosaic.LayoutIx

end
-- ==== Proof.LibScale.lean ====
/-
  The scale `1 / √1024 = 1 / 32` of a dot-product attention, and the fact that
  scaling the projection weights and bias by a constant scales the scores by it.

  (a) The binary32 words for `1024`, `1` and `1/32` denote those reals; the
      square root of the first is `32` and the quotient `1 / 32`.
  (b) For reals `x d`, `W d e`, `b e`, `K e` and a constant `c`:
      `Σ_e ((Σ_d x d · (W d e · c)) + b e · c) · K e = (Σ_e ((Σ_d x d · W d e) + b e) · K e) · c`,
      stated on the coercions to the extended reals.
-/
import Mathlib.Data.EReal.Inv
import Mathlib.Analysis.SpecialFunctions.Pow.Real
import Mathlib.Algebra.BigOperators.Group.Finset.Basic
import Idealize.ShloMosaic.PureOps.Ideal

noncomputable section

open scoped BigOperators
open Idealize.ShloMosaic

namespace Cert.Lib.Scale

/-! ### (a) The constants -/

/-- The binary32 word `0x44800000` denotes `1024`. -/
theorem ofBits_1024 : Ideal.ofBits .f32 0x44800000#32 = ((1024 : ℝ) : EReal) := by
  simp [Ideal.ofBits, Ideal.ieee, -EReal.coe_mul]; norm_num

/-- The binary32 word `0x3F800000` denotes `1`. -/
theorem ofBits_one : Ideal.ofBits .f32 0x3F800000#32 = ((1 : ℝ) : EReal) := by
  simp [Ideal.ofBits, Ideal.ieee, -EReal.coe_mul]; norm_num

/-- The binary32 word `0x3D000000` denotes `1/32 = 2⁻⁵`. -/
theorem ofBits_inv32 : Ideal.ofBits .f32 0x3D000000#32 = ((1 / 32 : ℝ) : EReal) := by
  simp [Ideal.ofBits, Ideal.ieee, -EReal.coe_mul]; norm_num

/-- The binary32 word `0xFF800000` denotes `-∞`. -/
theorem ofBits_neg_inf : Ideal.ofBits .f32 0xFF800000#32 = ⊥ := by
  simp [Ideal.ofBits, Ideal.ieee]

/-- `√1024 = 32`. -/
theorem real_sqrt_1024 : Real.sqrt 1024 = 32 := by
  rw [show (1024 : ℝ) = 32 ^ 2 by norm_num]
  exact Real.sqrt_sq (by norm_num)

/-- The square root of the word for `1024` is `32`. -/
theorem sqrt_1024 : Ideal.sqrt (Ideal.ofBits .f32 0x44800000#32) = ((32 : ℝ) : EReal) := by
  rw [ofBits_1024, Ideal.sqrt_coe, if_neg (by norm_num), real_sqrt_1024]

/-- `1 / √1024 = 1/32`, with the extended-real quotient. -/
theorem one_div_sqrt_1024 :
    Ideal.div (Ideal.ofBits .f32 0x3F800000#32) (Ideal.sqrt (Ideal.ofBits .f32 0x44800000#32))
      = ((1 / 32 : ℝ) : EReal) := by
  rw [sqrt_1024, ofBits_one, Ideal.div_coe (by norm_num), ← EReal.coe_mul, one_mul]

/-- The scale computed as `1 / √1024` is the constant spelled `0x3D000000`. -/
theorem one_div_sqrt_1024_eq_word :
    Ideal.div (Ideal.ofBits .f32 0x3F800000#32) (Ideal.sqrt (Ideal.ofBits .f32 0x44800000#32))
      = Ideal.ofBits .f32 0x3D000000#32 := by
  rw [one_div_sqrt_1024, ofBits_inv32]

/-! ### (b) Scaling the projection scales the score -/

/-- The coercion of a finite sum of reals is the sum of the coercions. -/
theorem coe_sum {ι : Type*} (S : Finset ι) (f : ι → ℝ) :
    ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

variable {D E : Type*} [Fintype D] [Fintype E]

/-- The identity over the reals. -/
theorem real_scale_dot (x : D → ℝ) (W : D → E → ℝ) (b K : E → ℝ) (c : ℝ) :
    ∑ e, ((∑ d, x d * (W d e * c)) + b e * c) * K e
      = (∑ e, ((∑ d, x d * W d e) + b e) * K e) * c := by
  rw [Finset.sum_mul]
  refine Finset.sum_congr rfl (fun e _ => ?_)
  have h : ∑ d, x d * (W d e * c) = (∑ d, x d * W d e) * c := by
    rw [Finset.sum_mul]; exact Finset.sum_congr rfl (fun d _ => by ring)
  rw [h]; ring

/-- The projected and scaled row `(Σ_d x d · (W d e · c)) + b e · c` is a real. -/
theorem proj_scaled_coe (x : D → ℝ) (W : D → E → ℝ) (b : E → ℝ) (c : ℝ) (e : E) :
    (∑ d, (x d : EReal) * ((W d e : EReal) * (c : EReal))) + (b e : EReal) * (c : EReal)
      = (((∑ d, x d * (W d e * c)) + b e * c : ℝ) : EReal) := by
  simp only [EReal.coe_add, EReal.coe_mul, coe_sum]

/-- The projected row `(Σ_d x d · W d e) + b e` is a real. -/
theorem proj_coe (x : D → ℝ) (W : D → E → ℝ) (b : E → ℝ) (e : E) :
    (∑ d, (x d : EReal) * (W d e : EReal)) + (b e : EReal)
      = (((∑ d, x d * W d e) + b e : ℝ) : EReal) := by
  simp only [EReal.coe_add, EReal.coe_mul, coe_sum]

/-- (b) Scaling weights and bias by `c` scales the score by `c`. -/
theorem scale_dot (x : D → ℝ) (W : D → E → ℝ) (b K : E → ℝ) (c : ℝ) :
    ∑ e, ((∑ d, (x d : EReal) * ((W d e : EReal) * (c : EReal))) + (b e : EReal) * (c : EReal))
        * (K e : EReal)
      = (∑ e, ((∑ d, (x d : EReal) * (W d e : EReal)) + (b e : EReal)) * (K e : EReal))
        * (c : EReal) := by
  simp only [← EReal.coe_mul, ← coe_sum, ← EReal.coe_add]
  rw [real_scale_dot]

/-- (b) with every sum started from zero. -/
theorem scale_dot_zero_add (x : D → ℝ) (W : D → E → ℝ) (b K : E → ℝ) (c : ℝ) :
    0 + ∑ e, ((0 + ∑ d, (x d : EReal) * ((W d e : EReal) * (c : EReal))) + (b e : EReal) * (c : EReal))
        * (K e : EReal)
      = (0 + ∑ e, ((0 + ∑ d, (x d : EReal) * (W d e : EReal)) + (b e : EReal)) * (K e : EReal))
        * (c : EReal) := by
  simp only [zero_add]; exact scale_dot x W b K c

/-- The score `Σ_e ((Σ_d x d · W d e) + b e) · K e` is a real. -/
theorem score_coe (x : D → ℝ) (W : D → E → ℝ) (b K : E → ℝ) :
    ∑ e, ((∑ d, (x d : EReal) * (W d e : EReal)) + (b e : EReal)) * (K e : EReal)
      = ((∑ e, ((∑ d, x d * W d e) + b e) * K e : ℝ) : EReal) := by
  simp only [← EReal.coe_mul, ← coe_sum, ← EReal.coe_add]

end Cert.Lib.Scale
-- ==== Proof.IdealPayloads.lean ====
/-
  The kernels' stored values read at an index, over the extended reals (part 1): the two
  projection kernels' tile, and in the fused attention kernel the scaled query projection, the
  three initial values of the running state, the value tile, the carried maximum and the final
  quotient.

  Row `r`, column `e` of a projection tile is the dot product of row `r` of the input tile with
  column `e` of the weights, plus the bias at `e`. Changes of float format are the identity.
-/
import proofs.«158720_j6236292514541_2_alg».proof.Proof.Gen.KernelIdeal.Skeleton
import proofs.«158720_j6236292514541_2_alg».proof.Proof.LibPlainMatmul
import proofs.«158720_j6236292514541_2_alg».proof.Proof.LibRowReduce
import proofs.«158720_j6236292514541_2_alg».proof.Proof.LibLayoutIx
import proofs.«158720_j6236292514541_2_alg».proof.Proof.LibScale

noncomputable section

namespace Cert.KernelIdeal.PayIx

open Idealize.ShloMosaic Idealize.ShloMosaic.ValueIdx Cert.KernelIdeal.Gen
open scoped BigOperators

/-- A `[K]` bias made a `[1, K]` row and repeated down `R` rows reads, at `(r, e)`, the bias at `e`. -/
theorem biasRows_apply {α : Type} {R K : Nat} (b : (⟨1, ![K]⟩ : Shape).Idx → α)
    (hc : (⟨1, ![K]⟩ : Shape).ShapeCasts ⟨2, ![1, K]⟩) (hb : (⟨2, ![1, K]⟩ : Shape).Broadcasts ⟨2, ![R, K]⟩)
    (r : Fin R) (e : Fin K) :
    broadcastTo ⟨2, ![R, K]⟩ (shapeCast ⟨2, ![1, K]⟩ b hc) hb (ix2 r e) = b (ix1 e) :=
  (broadcastTo_1b_ab_apply _ hb r e).trans (shapeCast_a_1a_apply b hc 0 e)

/-- The first projection's tile at `(r, e)`: `Σ_d x[r,d] · W[d,e] + b[e]`. -/
theorem k0_pay1_apply (x : Vec Ideal S512x1024 .f32) (W : Vec Ideal S1024x1024 .bf16) (b : Vec Ideal S1024 .f32)
    (r : Fin 512) (e : Fin 1024) :
    k0_pay1 (F := Ideal) x W b (ix2 r e) = (∑ d : Fin 1024, x (ix2 r d) * W (ix2 d e)) + b (ix1 e) := by
  unfold k0_pay1
  rw [truncf_apply, addf_apply, shapeCast_self, shapeCast_self, biasRows_apply]
  exact congrArg (· + b (ix1 e))
    (PlainMatmul.matmul_zero_apply (M := 512) (K := 1024) (N := 1024)
      dot_S512x1024_S1024x1024_S512x1024_1_0_0_1_n_n_wf none (truncf .bf16 x bitsLt_bf16_f32) W r e)

/-- The second projection's tile at `(r, e)`: `Σ_d x[r,d] · W[d,e] + b[e]`. -/
theorem k1_pay1_apply (x : Vec Ideal S512x1024 .f32) (W : Vec Ideal S1024x1024 .bf16) (b : Vec Ideal S1024 .f32)
    (r : Fin 512) (e : Fin 1024) :
    k1_pay1 (F := Ideal) x W b (ix2 r e) = (∑ d : Fin 1024, x (ix2 r d) * W (ix2 d e)) + b (ix1 e) := by
  unfold k1_pay1
  rw [truncf_apply, addf_apply, shapeCast_self, shapeCast_self, biasRows_apply]
  exact congrArg (· + b (ix1 e))
    (PlainMatmul.matmul_zero_apply (M := 512) (K := 1024) (N := 1024)
      dot_S512x1024_S1024x1024_S512x1024_1_0_0_1_n_n_wf none (truncf .bf16 x bitsLt_bf16_f32) W r e)

/-- The query projection of the fused kernel at `(q, e)`: `Σ_d x[0,q,d] · W[d,e] + b[e]`. -/
theorem k2_pay4_apply (x : Vec Ideal S1x1024x1024 .f32) (W : Vec Ideal S1024x1024 .bf16) (b : Vec Ideal S1024 .f32)
    (q : Fin 1024) (e : Fin 1024) :
    k2_pay4 (F := Ideal) x W b (ix2 q e)
      = (∑ d : Fin 1024, x (ix3 (0 : Fin 1) q d) * W (ix2 d e)) + b (ix1 e) := by
  unfold k2_pay4
  rw [shapeCast_self, truncf_apply, addf_apply, shapeCast_self, shapeCast_self, biasRows_apply]
  refine congrArg (· + b (ix1 e)) ?_
  refine (PlainMatmul.matmul_zero_apply (M := 1024) (K := 1024) (N := 1024)
      dot_S1024x1024_S1024x1024_S1024x1024_1_0_0_1_n_n_wf none
      (truncf .bf16 (shapeCast S1024x1024 x shapeCasts_S1x1024x1024_S1024x1024) bitsLt_bf16_f32) W q e).trans ?_
  exact Finset.sum_congr rfl fun d _ =>
    congrArg (· * W (ix2 d e)) (shapeCast_1ab_ab_apply x shapeCasts_S1x1024x1024_S1024x1024 q d)

/-- The running maximum starts at `-∞`. -/
theorem k2_pay5_apply (i : S1024x1.Idx) : k2_pay5 (F := Ideal) i = ⊥ := by
  unfold k2_pay5
  rw [shapeCast_self, broadcast_apply]
  exact Cert.Lib.Scale.ofBits_neg_inf

/-- The running normaliser starts at `0`. -/
theorem k2_pay6_apply (i : S1024x1.Idx) : k2_pay6 (F := Ideal) i = 0 := by
  unfold k2_pay6
  rw [shapeCast_self, broadcast_apply]
  exact Ideal.ofBits_zero_f32

/-- The running weighted sum starts at `0`. -/
theorem k2_pay7_apply (i : S1024x1024.Idx) : k2_pay7 (F := Ideal) i = 0 := by
  unfold k2_pay7
  rw [shapeCast_self, broadcast_apply]
  exact Ideal.ofBits_zero_f32

/-- The value tile with its unit batch axis dropped. -/
theorem k2_pay8_apply (v : Vec Ideal S1x512x1024 .bf16) (k : Fin 512) (e : Fin 1024) :
    k2_pay8 (F := Ideal) v (ix2 k e) = v (ix3 (0 : Fin 1) k e) := by
  unfold k2_pay8
  exact shapeCast_1ab_ab_apply v shapeCasts_S1x512x1024_S512x1024 k e

/-- The new maximum is stored as it is. -/
theorem k2_pay2_eq (m : FVec Ideal S1024x1 .f32) : k2_pay2 (F := Ideal) m = m := by
  unfold k2_pay2
  exact shapeCast_self m _

/-- The output block at `(u, q, e)`: the weighted sum at `(q, e)` divided by the normaliser of row `q`. -/
theorem k2_pay3_apply (acc : Vec Ideal S1024x1024 .f32) (l : Vec Ideal S1024x1 .f32)
    (u : Fin 1) (q : Fin 1024) (e : Fin 1024) :
    k2_pay3 (F := Ideal) acc l (ix3 u q e) = Ideal.div (acc (ix2 q e)) (l (ix2 q (0 : Fin 1))) := by
  unfold k2_pay3
  rw [shapeCast_ab_1ab_apply, divf_apply, RowReduce.broadcastTo_a1_ab_apply]

end Cert.KernelIdeal.PayIx
-- ==== Proof.IdealPayloads2.lean ====
/-
  The kernels' stored values read at an index, over the extended reals (part 2): one step of
  the streaming softmax in the fused attention kernel.

  With `s[q,k] = Σ_e Qs[q,e] · K[0,k,e]` the scores of the key tile: the new maximum
  `m'[q] = max (m[q]) (max_k s[q,k])`, the rescaling factor `exp (m[q] − m'[q])`, the weights
  `exp (s[q,k] − m'[q])`, the new normaliser `exp (m − m') · l + Σ_k exp (s − m')`, the rescaled
  weighted sum `exp (m − m') · acc`, and the accumulation `acc + Σ_k p[q,k] · V[k,e]`.
-/
import proofs.«158720_j6236292514541_2_alg».proof.Proof.Gen.KernelIdeal.Skeleton
import proofs.«158720_j6236292514541_2_alg».proof.Proof.LibPlainMatmul
import proofs.«158720_j6236292514541_2_alg».proof.Proof.LibRowReduce
import proofs.«158720_j6236292514541_2_alg».proof.Proof.LibLayoutIx
import proofs.«158720_j6236292514541_2_alg».proof.Proof.LibScale

noncomputable section

namespace Cert.KernelIdeal.PayIx

open Idealize.ShloMosaic Idealize.ShloMosaic.ValueIdx Cert.KernelIdeal.Gen
open scoped BigOperators

/-- The scores of the key tile at `(q, k)`: `Σ_e Qs[q,e] · K[0,k,e]`. -/
theorem k2_pay9_apply (qs : Vec Ideal S1024x1024 .bf16) (kt : Vec Ideal S1x512x1024 .bf16)
    (q : Fin 1024) (k : Fin 512) :
    k2_pay9 (F := Ideal) qs kt (ix2 q k) = ∑ e : Fin 1024, qs (ix2 q e) * kt (ix3 (0 : Fin 1) k e) := by
  unfold k2_pay9
  refine (PlainMatmul.matmul_zero_apply (M := 1024) (K := 1024) (N := 512)
      dot_S1024x1024_S1024x512_S1024x512_1_0_0_1_n_n_wf none qs
      (transpose S1024x512 [1, 0] (shapeCast S512x1024 kt shapeCasts_S1x512x1024_S512x1024)
        transposes_S512x1024_p1_0_S1024x512) q k).trans ?_
  refine Finset.sum_congr rfl fun e _ => congrArg (qs (ix2 q e) * ·) ?_
  exact (transpose_ix2_apply (a := 512) (b := 1024) _ transposes_S512x1024_p1_0_S1024x512 e k).trans
    (shapeCast_1ab_ab_apply kt shapeCasts_S1x512x1024_S512x1024 k e)

/-- The new running maximum of row `q`: the old one against the largest score of the key tile. -/
theorem k2_pay10_apply (qs : Vec Ideal S1024x1024 .bf16) (kt : Vec Ideal S1x512x1024 .bf16)
    (m : Vec Ideal S1024x1 .f32) (q : Fin 1024) (u : Fin 1) :
    k2_pay10 (F := Ideal) qs kt m (ix2 q u)
      = max (m (ix2 q u))
          ((Finset.univ : Finset (Fin 512)).fold max ⊥ (fun k => k2_pay9 (F := Ideal) qs kt (ix2 q k))) := by
  unfold k2_pay10
  rw [maximumf_apply, RowReduce.shapeCast_a_a1_apply]
  refine congrArg (max (m (ix2 q u))) ?_
  refine (RowReduce.rowMax_apply (a := 1024) (b := 512) (k2_pay9 (F := Ideal) qs kt) 0xFF800000#32
    reduces_S1024x512_S1024 (.inl rfl) rfl q).trans ?_
  rw [Ideal.ofBits_def, Cert.Lib.Scale.ofBits_neg_inf]

/-- The rescaling factor of row `q`: `exp (m'[q] − new maximum)`, `m'` the maximum read back. -/
theorem k2_pay11_apply (qs : Vec Ideal S1024x1024 .bf16) (kt : Vec Ideal S1x512x1024 .bf16)
    (m m' : Vec Ideal S1024x1 .f32) (q : Fin 1024) (u : Fin 1) :
    k2_pay11 (F := Ideal) qs kt m m' (ix2 q u)
      = Ideal.exp (m' (ix2 q u) - k2_pay10 (F := Ideal) qs kt m (ix2 q u)) := by
  unfold k2_pay11
  rfl

/-- The weights of the key tile at `(q, k)`: `exp (s[q,k] − new maximum of row q)`. -/
theorem k2_pay12_apply (qs : Vec Ideal S1024x1024 .bf16) (kt : Vec Ideal S1x512x1024 .bf16)
    (m : Vec Ideal S1024x1 .f32) (q : Fin 1024) (k : Fin 512) :
    k2_pay12 (F := Ideal) qs kt m (ix2 q k)
      = Ideal.exp (k2_pay9 (F := Ideal) qs kt (ix2 q k) - k2_pay10 (F := Ideal) qs kt m (ix2 q (0 : Fin 1))) := by
  unfold k2_pay12
  show Ideal.exp (k2_pay9 (F := Ideal) qs kt (ix2 q k)
    - broadcastTo S1024x512 (k2_pay10 (F := Ideal) qs kt m) broadcasts_S1024x1_S1024x512 (ix2 q k)) = _
  rw [RowReduce.broadcastTo_a1_ab_apply]

/-- The new normaliser of row `q`: the old one rescaled, plus the sum of the tile's weights. -/
theorem k2_pay13_apply (qs : Vec Ideal S1024x1024 .bf16) (kt : Vec Ideal S1x512x1024 .bf16)
    (m m' l : Vec Ideal S1024x1 .f32) (q : Fin 1024) (u : Fin 1) :
    k2_pay13 (F := Ideal) qs kt m m' l (ix2 q u)
      = k2_pay11 (F := Ideal) qs kt m m' (ix2 q u) * l (ix2 q u)
        + ∑ k : Fin 512, k2_pay12 (F := Ideal) qs kt m (ix2 q k) := by
  unfold k2_pay13
  rw [shapeCast_self, addf_apply, mulf_apply, RowReduce.shapeCast_a_a1_apply]
  exact congrArg (k2_pay11 (F := Ideal) qs kt m m' (ix2 q u) * l (ix2 q u) + ·)
    (RowReduce.rowSum_apply (a := 1024) (b := 512) (k2_pay12 (F := Ideal) qs kt m) 0x00000000#32
      reduces_S1024x512_S1024 (.inl rfl) rfl q)

/-- The rescaled weighted sum at `(q, e)`. -/
theorem k2_pay14_apply (qs : Vec Ideal S1024x1024 .bf16) (kt : Vec Ideal S1x512x1024 .bf16)
    (m m' : Vec Ideal S1024x1 .f32) (acc : Vec Ideal S1024x1024 .f32) (q : Fin 1024) (e : Fin 1024) :
    k2_pay14 (F := Ideal) qs kt m m' acc (ix2 q e)
      = k2_pay11 (F := Ideal) qs kt m m' (ix2 q (0 : Fin 1)) * acc (ix2 q e) := by
  unfold k2_pay14
  rw [mulf_apply, RowReduce.broadcastTo_a1_ab_apply]

/-- The weights handed to the matrix product are the weights: a change of format is the identity. -/
theorem k2_pay15_eq (qs : Vec Ideal S1024x1024 .bf16) (kt : Vec Ideal S1x512x1024 .bf16)
    (m : Vec Ideal S1024x1 .f32) :
    k2_pay15 (F := Ideal) qs kt m = k2_pay12 (F := Ideal) qs kt m := by
  unfold k2_pay15
  rfl

/-- The accumulation at `(q, e)`: `a[q,e] + Σ_k p[q,k] · V[k,e]`. -/
theorem k2_pay1_apply (vt : FVec Ideal S512x1024 .bf16) (a : FVec Ideal S1024x1024 .f32)
    (p : FVec Ideal S1024x512 .bf16) (q : Fin 1024) (e : Fin 1024) :
    k2_pay1 (F := Ideal) vt a p (ix2 q e) = a (ix2 q e) + ∑ k : Fin 512, p (ix2 q k) * vt (ix2 k e) := by
  unfold k2_pay1
  rw [shapeCast_self, addf_apply]
  exact congrArg (a (ix2 q e) + ·)
    (PlainMatmul.matmul_zero_apply (M := 1024) (K := 512) (N := 1024)
      dot_S1024x512_S512x1024_S1024x1024_1_0_0_1_n_n_wf none p vt q e)

end Cert.KernelIdeal.PayIx
-- ==== Proof.IdealTileStep.lean ====
/-
  One step of the fused attention kernel's streaming softmax, row by row, over the extended
  reals, and the kernel's scores as the specification's scaled scores.

  The kernel folds the scale `1/32` into the query projection's weights and bias; by linearity
  the resulting score `Σ_e Qs[q,e] · K[k,e]` is the specification's `(Σ_e Q[q,e] · K[k,e]) · (1/√1024)`.
  Every quantity is the coercion of a real because the argument arrays are real-valued.
-/
import proofs.«158720_j6236292514541_2_alg».proof.Proof.Spec
import proofs.«158720_j6236292514541_2_alg».proof.Proof.IdealAttn
import proofs.«158720_j6236292514541_2_alg».proof.Proof.IdealPayloads
import proofs.«158720_j6236292514541_2_alg».proof.Proof.IdealPayloads2
import proofs.«158720_j6236292514541_2_alg».proof.Proof.LibScale

noncomputable section

namespace Cert.KernelIdeal.TileMath

open Idealize.ShloMosaic Idealize.ShloMosaic.ValueIdx Cert.KernelIdeal.Gen Cert.KernelIdeal.Attn
  Cert.KernelIdeal.PayIx
open scoped BigOperators

/-! ## The specification's quantities as reals -/

/-- A projection over the reals: `Σ_d x(b, s, d) · W(d, e) + bias(e)`. -/
def projR (fx : Cert.Attn.SAct.Idx → ℝ) (fW : Cert.Attn.SMat.Idx → ℝ) (fb : Cert.Attn.SVec.Idx → ℝ)
    (b : Fin 8) (s : Fin 2048) (e : Fin 1024) : ℝ :=
  (∑ d : Fin 1024, fx (ix3 b s d) * fW (ix2 d e)) + fb (ix1 e)

/-- The scaled score over the reals. -/
def scR (fq fk : Cert.Attn.SAct.Idx → ℝ) (fWq : Cert.Attn.SMat.Idx → ℝ) (fbq : Cert.Attn.SVec.Idx → ℝ)
    (fWk : Cert.Attn.SMat.Idx → ℝ) (fbk : Cert.Attn.SVec.Idx → ℝ) (b : Fin 8) (q k : Fin 2048) : ℝ :=
  (∑ e : Fin 1024, projR fq fWq fbq b q e * projR fk fWk fbk b k e) * (1 / 32)

/-- A projection of real-valued arrays is the coercion of the real projection. -/
theorem proj_coe {x : Cert.Attn.Act} {W : Cert.Attn.Mat} {bias : Cert.Attn.Vec}
    {fx : Cert.Attn.SAct.Idx → ℝ} {fW : Cert.Attn.SMat.Idx → ℝ} {fb : Cert.Attn.SVec.Idx → ℝ}
    (hx : ∀ i, x i = ((fx i : ℝ) : EReal)) (hW : ∀ i, W i = ((fW i : ℝ) : EReal))
    (hb : ∀ i, bias i = ((fb i : ℝ) : EReal)) (b : Fin 8) (s : Fin 2048) (e : Fin 1024) :
    Cert.Attn.proj x W bias b s e = ((projR fx fW fb b s e : ℝ) : EReal) := by
  unfold Cert.Attn.proj projR
  simp only [hx, hW, hb, EReal.coe_add, EReal.coe_mul, Cert.Lib.Scale.coe_sum]

/-- The scale `1 / √1024` is `1/32`. -/
theorem scale_eq : Cert.Attn.scale = (((1 : ℝ) / 32 : ℝ) : EReal) := by
  unfold Cert.Attn.scale Cert.Attn.cOne Cert.Attn.c1024
  exact Cert.Lib.Scale.one_div_sqrt_1024

/-- The specification's scaled score of real-valued arrays is the coercion of the real one. -/
theorem sc_coe {query key : Cert.Attn.Act} {Wq : Cert.Attn.Mat} {bq : Cert.Attn.Vec} {Wk : Cert.Attn.Mat}
    {bk : Cert.Attn.Vec} {fq fk : Cert.Attn.SAct.Idx → ℝ} {fWq : Cert.Attn.SMat.Idx → ℝ}
    {fbq : Cert.Attn.SVec.Idx → ℝ} {fWk : Cert.Attn.SMat.Idx → ℝ} {fbk : Cert.Attn.SVec.Idx → ℝ}
    (hq : ∀ i, query i = ((fq i : ℝ) : EReal)) (hk : ∀ i, key i = ((fk i : ℝ) : EReal))
    (hWq : ∀ i, Wq i = ((fWq i : ℝ) : EReal)) (hbq : ∀ i, bq i = ((fbq i : ℝ) : EReal))
    (hWk : ∀ i, Wk i = ((fWk i : ℝ) : EReal)) (hbk : ∀ i, bk i = ((fbk i : ℝ) : EReal))
    (b : Fin 8) (q k : Fin 2048) :
    Cert.Attn.sc query key Wq bq Wk bk b q k = ((scR fq fk fWq fbq fWk fbk b q k : ℝ) : EReal) := by
  unfold Cert.Attn.sc Cert.Attn.Qr Cert.Attn.Kr scR
  simp only [proj_coe hq hWq hbq, proj_coe hk hWk hbk, scale_eq, EReal.coe_mul, Cert.Lib.Scale.coe_sum]

/-! ## The kernel's score is the specification's -/

/-- Row `q` of the scaled query projection against key row `i` of a key tile: the real scaled score. -/
theorem kscore {query key : Cert.Attn.Act} {Wq : Cert.Attn.Mat} {bq : Cert.Attn.Vec} {Wk : Cert.Attn.Mat}
    {bk : Cert.Attn.Vec} {fq fk : Cert.Attn.SAct.Idx → ℝ} {fWq : Cert.Attn.SMat.Idx → ℝ}
    {fbq : Cert.Attn.SVec.Idx → ℝ} {fWk : Cert.Attn.SMat.Idx → ℝ} {fbk : Cert.Attn.SVec.Idx → ℝ}
    (hq : ∀ i, query i = ((fq i : ℝ) : EReal)) (hk : ∀ i, key i = ((fk i : ℝ) : EReal))
    (hWq : ∀ i, Wq i = ((fWq i : ℝ) : EReal)) (hbq : ∀ i, bq i = ((fbq i : ℝ) : EReal))
    (hWk : ∀ i, Wk i = ((fWk i : ℝ) : EReal)) (hbk : ∀ i, bk i = ((fbk i : ℝ) : EReal))
    (b : Fin 8) (Q K : Fin 2048)
    (x0 : Vec Ideal S1x1024x1024 .f32) (x1 : Vec Ideal S1024x1024 .bf16) (x2 : Vec Ideal S1024 .f32)
    (ktj : Vec Ideal S1x512x1024 .bf16) (q : Fin 1024) (i : Fin 512)
    (hx0 : ∀ d : Fin 1024, x0 (ix3 (0 : Fin 1) q d) = query (ix3 b Q d))
    (hx1 : ∀ d e : Fin 1024, x1 (ix2 d e) = Wq (ix2 d e) * Ideal.ofBits .f32 0x3D000000#32)
    (hx2 : ∀ e : Fin 1024, x2 (ix1 e) = bq (ix1 e) * Ideal.ofBits .f32 0x3D000000#32)
    (hkt : ∀ e : Fin 1024, ktj (ix3 (0 : Fin 1) i e) = Cert.Attn.Kr key Wk bk b K e) :
    k2_pay9 (F := Ideal) (attnQs x0 x1 x2) ktj (ix2 q i)
      = ((scR fq fk fWq fbq fWk fbk b Q K : ℝ) : EReal) := by
  rw [k2_pay9_apply]
  unfold attnQs
  simp only [k2_pay4_apply, hx0, hx1, hx2, hkt, Cert.Attn.Kr, proj_coe hk hWk hbk, hq, hWq, hbq,
    Cert.Lib.Scale.ofBits_inv32]
  refine (Cert.Lib.Scale.scale_dot (fun d => fq (ix3 b Q d)) (fun d e => fWq (ix2 d e))
    (fun e => fbq (ix1 e)) (fun e => projR fk fWk fbk b K e) (1 / 32)).trans ?_
  unfold scR projR
  simp only [EReal.coe_mul, EReal.coe_add, Cert.Lib.Scale.coe_sum]

/-! ## One step, row by row -/

/-- The first step is a later step from the initial running values. -/
theorem stepFirst_eq (x0 : Vec Ideal S1x1024x1024 .f32) (x1 : Vec Ideal S1024x1024 .bf16)
    (x2 : Vec Ideal S1024 .f32) (kt vt : Vec Ideal S1x512x1024 .bf16) :
    stepFirst (F := Ideal) x0 x1 x2 kt vt
      = stepNext kt vt ⟨attnQs x0 x1 x2, attnM0, attnL0, attnAcc0⟩ := rfl

theorem stepNext_qs (kt vt : Vec Ideal S1x512x1024 .bf16) (s : Scr Ideal) :
    (stepNext kt vt s).qs = s.qs := rfl

/-- The new maximum of row `q`. -/
theorem stepNext_m (kt vt : Vec Ideal S1x512x1024 .bf16) (s : Scr Ideal) (q : Fin 1024) (u : Fin 1) :
    (stepNext kt vt s).m (ix2 q u)
      = max (s.m (ix2 q u))
          ((Finset.univ : Finset (Fin 512)).fold max ⊥ (fun i => k2_pay9 (F := Ideal) s.qs kt (ix2 q i))) := by
  show attnM s.qs kt s.m (ix2 q u) = _
  unfold attnM
  rw [k2_pay2_eq]
  exact k2_pay10_apply _ _ _ q u

/-- The new normaliser of row `q`. -/
theorem stepNext_l (kt vt : Vec Ideal S1x512x1024 .bf16) (s : Scr Ideal) (q : Fin 1024) (u : Fin 1) :
    (stepNext kt vt s).l (ix2 q u)
      = Ideal.exp (s.m (ix2 q u) - (stepNext kt vt s).m (ix2 q u)) * s.l (ix2 q u)
        + ∑ i : Fin 512, Ideal.exp (k2_pay9 (F := Ideal) s.qs kt (ix2 q i)
            - (stepNext kt vt s).m (ix2 q (0 : Fin 1))) := by
  show attnL s.qs kt s.m s.l (ix2 q u)
    = Ideal.exp (s.m (ix2 q u) - attnM s.qs kt s.m (ix2 q u)) * s.l (ix2 q u)
      + ∑ i : Fin 512, Ideal.exp (k2_pay9 (F := Ideal) s.qs kt (ix2 q i) - attnM s.qs kt s.m (ix2 q (0 : Fin 1)))
  unfold attnL attnM
  rw [k2_pay2_eq, k2_pay13_apply, k2_pay11_apply]
  exact congrArg (_ + ·) (Finset.sum_congr rfl fun i _ => k2_pay12_apply _ _ _ q i)

/-- The new weighted sum at `(q, e)`. -/
theorem stepNext_acc (kt vt : Vec Ideal S1x512x1024 .bf16) (s : Scr Ideal) (q e : Fin 1024) :
    (stepNext kt vt s).acc (ix2 q e)
      = Ideal.exp (s.m (ix2 q (0 : Fin 1)) - (stepNext kt vt s).m (ix2 q (0 : Fin 1))) * s.acc (ix2 q e)
        + ∑ i : Fin 512, Ideal.exp (k2_pay9 (F := Ideal) s.qs kt (ix2 q i)
            - (stepNext kt vt s).m (ix2 q (0 : Fin 1))) * vt (ix3 (0 : Fin 1) i e) := by
  show attnAcc s.qs kt vt s.m s.acc (ix2 q e)
    = Ideal.exp (s.m (ix2 q (0 : Fin 1)) - attnM s.qs kt s.m (ix2 q (0 : Fin 1))) * s.acc (ix2 q e)
      + ∑ i : Fin 512, Ideal.exp (k2_pay9 (F := Ideal) s.qs kt (ix2 q i) - attnM s.qs kt s.m (ix2 q (0 : Fin 1)))
          * vt (ix3 (0 : Fin 1) i e)
  unfold attnAcc attnM
  rw [k2_pay2_eq, k2_pay1_apply, k2_pay14_apply, k2_pay11_apply, k2_pay15_eq]
  refine congrArg (_ + ·) (Finset.sum_congr rfl fun i _ => ?_)
  rw [k2_pay12_apply, k2_pay8_apply]

end Cert.KernelIdeal.TileMath
-- ==== Proof.LibOnlineSoftmax.lean ====
/-
  The streaming ("online") evaluation of a softmax-weighted sum, as pure
  mathematics on the extended reals.

  For real scores `s k` and real values `v k` indexed by `k`, a state
  `(m, l, a)` summarises a finite set `S` of keys already processed:
  `m` is the largest score seen (`⊥` if none), `l = Σ_{k∈S} exp (s k − m)`
  and `a = Σ_{k∈S} exp (s k − m) · v k`. Absorbing a further block `B` of keys
  rescales the two sums by `exp (m − m')` where `m'` is the new largest score,
  and at the end `a / l` is the softmax-weighted mean of the values.

  All operations are the extended-real ones (`Ideal.exp`, `Ideal.div`,
  EReal's `+ − ·` and `max`), applied to coerced reals, so the statements
  can be rewritten into terms that use those operations.
-/
import Mathlib.Data.EReal.Inv
import Mathlib.Analysis.SpecialFunctions.Exp
import Mathlib.Algebra.BigOperators.Group.Finset.Basic
import Idealize.ShloMosaic.PureOps.Ideal

noncomputable section

open scoped BigOperators
open Idealize.ShloMosaic

namespace Cert.Lib.OnlineSoftmax

/-- The coercion of a finite sum of reals is the sum of the coercions. -/
theorem coe_sum {ι : Type*} (S : Finset ι) (f : ι → ℝ) :
    ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

variable {ι : Type*} [DecidableEq ι] (s v : ι → ℝ)

/-- The largest score over a finite set, as an extended real: `⊥` over the empty set. -/
def smax (S : Finset ι) : EReal := S.sup (fun k => (s k : EReal))

/-- The largest score is the fold of `max` from `⊥`. -/
theorem smax_eq_fold (S : Finset ι) : smax s S = S.fold max ⊥ (fun k => (s k : EReal)) := rfl

theorem sup_eq_fold (S : Finset ι) :
    S.sup (fun k => (s k : EReal)) = S.fold max ⊥ (fun k => (s k : EReal)) := rfl

/-- The state `(m, l, a)` summarises the set `S` of processed keys. -/
def Inv (S : Finset ι) (m l a : EReal) : Prop :=
  m = S.sup (fun k => (s k : EReal)) ∧
  l = ∑ k ∈ S, Ideal.exp ((s k : EReal) - m) ∧
  a = ∑ k ∈ S, Ideal.exp ((s k : EReal) - m) * (v k : EReal)

/-- Over a nonempty set the largest score is one of the scores, hence a real. -/
theorem exists_real_sup {S : Finset ι} (hS : S.Nonempty) :
    ∃ M : ℝ, S.sup (fun k => (s k : EReal)) = (M : EReal) := by
  obtain ⟨i, _, hi⟩ := Finset.exists_mem_eq_sup S hS (fun k => (s k : EReal))
  exact ⟨s i, hi⟩

/-- Against a real shift the sum of exponentials is the coercion of the real sum. -/
theorem sum_exp_coe (S : Finset ι) (M : ℝ) :
    ∑ k ∈ S, Ideal.exp ((s k : EReal) - (M : EReal)) = ((∑ k ∈ S, Real.exp (s k - M) : ℝ) : EReal) := by
  rw [coe_sum]
  refine Finset.sum_congr rfl (fun k _ => ?_)
  rw [← EReal.coe_sub, Ideal.exp_coe]

/-- Against a real shift the exponentially weighted sum is the coercion of the real one. -/
theorem sum_exp_mul_coe (S : Finset ι) (M : ℝ) :
    ∑ k ∈ S, Ideal.exp ((s k : EReal) - (M : EReal)) * (v k : EReal)
      = ((∑ k ∈ S, Real.exp (s k - M) * v k : ℝ) : EReal) := by
  rw [coe_sum]
  refine Finset.sum_congr rfl (fun k _ => ?_)
  rw [← EReal.coe_sub, Ideal.exp_coe, EReal.coe_mul]

/-- (i) The empty state: no key processed, largest score `⊥`, both sums zero. -/
theorem init : Inv s v ∅ ⊥ 0 0 := by
  refine ⟨?_, ?_, ?_⟩ <;> simp

/-- Rescaling a real sum of exponentials from the shift `M` to the shift `M'`. -/
theorem rescale_sum (S : Finset ι) (M M' : ℝ) :
    Real.exp (M - M') * ∑ k ∈ S, Real.exp (s k - M) = ∑ k ∈ S, Real.exp (s k - M') := by
  rw [Finset.mul_sum]
  refine Finset.sum_congr rfl (fun k _ => ?_)
  rw [← Real.exp_add]; congr 1; ring

theorem rescale_sum_mul (S : Finset ι) (M M' : ℝ) :
    Real.exp (M - M') * ∑ k ∈ S, Real.exp (s k - M) * v k = ∑ k ∈ S, Real.exp (s k - M') * v k := by
  rw [Finset.mul_sum]
  refine Finset.sum_congr rfl (fun k _ => ?_)
  rw [← mul_assoc, ← Real.exp_add]; congr 2; ring

/-- (ii) Absorbing a nonempty block `B` of new keys. The new state is given by equations,
    so that any commuted or zero-prefixed form of the update can be supplied. -/
theorem step {S B : Finset ι} {m l a : EReal} (h : Inv s v S m l a) (hB : B.Nonempty)
    (hd : Disjoint S B) {m' α l' a' : EReal}
    (hm' : m' = max m (B.sup (fun k => (s k : EReal))))
    (hα : α = Ideal.exp (m - m'))
    (hl' : l' = α * l + ∑ k ∈ B, Ideal.exp ((s k : EReal) - m'))
    (ha' : a' = α * a + ∑ k ∈ B, Ideal.exp ((s k : EReal) - m') * (v k : EReal)) :
    Inv s v (S ∪ B) m' l' a' := by
  obtain ⟨hm, hl, ha⟩ := h
  have hsup : m' = (S ∪ B).sup (fun k => (s k : EReal)) := by
    rw [hm', hm, Finset.sup_union]
  obtain ⟨M', hM'⟩ := exists_real_sup s (S := S ∪ B) (hB.mono Finset.subset_union_right)
  have hmM' : m' = (M' : EReal) := hsup.trans hM'
  refine ⟨hsup, ?_, ?_⟩
  · rw [hl', hmM', Finset.sum_union hd, sum_exp_coe, sum_exp_coe]
    rcases S.eq_empty_or_nonempty with hS | hS
    · subst hS
      have hm0 : m = ⊥ := by simpa using hm
      have hl0 : l = 0 := by simpa using hl
      rw [hα, hm0, hl0, EReal.bot_sub, Ideal.exp_bot]
      simp
    · obtain ⟨M, hM⟩ := exists_real_sup s hS
      have hmM : m = (M : EReal) := hm.trans hM
      rw [hα, hl, hmM, hmM', sum_exp_coe, ← EReal.coe_sub, Ideal.exp_coe, ← EReal.coe_mul,
        rescale_sum, ← EReal.coe_add]
  · rw [ha', hmM', Finset.sum_union hd, sum_exp_mul_coe, sum_exp_mul_coe]
    rcases S.eq_empty_or_nonempty with hS | hS
    · subst hS
      have hm0 : m = ⊥ := by simpa using hm
      have ha0 : a = 0 := by simpa using ha
      rw [hα, hm0, ha0, EReal.bot_sub, Ideal.exp_bot]
      simp
    · obtain ⟨M, hM⟩ := exists_real_sup s hS
      have hmM : m = (M : EReal) := hm.trans hM
      rw [hα, ha, hmM, hmM', sum_exp_mul_coe, ← EReal.coe_sub, Ideal.exp_coe, ← EReal.coe_mul,
        rescale_sum_mul, ← EReal.coe_add]

/-- (ii), in the literal form: the update `l' = α·l + Σ_B exp (s − m')`, `a' = α·a + Σ_B exp (s − m')·v`. -/
theorem step_lit {S B : Finset ι} {m l a : EReal} (h : Inv s v S m l a) (hB : B.Nonempty)
    (hd : Disjoint S B) :
    Inv s v (S ∪ B) (max m (B.sup (fun k => (s k : EReal))))
      (Ideal.exp (m - max m (B.sup (fun k => (s k : EReal)))) * l
        + ∑ k ∈ B, Ideal.exp ((s k : EReal) - max m (B.sup (fun k => (s k : EReal)))))
      (Ideal.exp (m - max m (B.sup (fun k => (s k : EReal)))) * a
        + ∑ k ∈ B, Ideal.exp ((s k : EReal) - max m (B.sup (fun k => (s k : EReal)))) * (v k : EReal)) :=
  step s v h hB hd rfl rfl rfl rfl

/-- (ii) with the rescaling factor on the right of each product: `l·α`, `a·α`. -/
theorem step_comm {S B : Finset ι} {m l a : EReal} (h : Inv s v S m l a) (hB : B.Nonempty)
    (hd : Disjoint S B) {m' α l' a' : EReal}
    (hm' : m' = max m (B.sup (fun k => (s k : EReal))))
    (hα : α = Ideal.exp (m - m'))
    (hl' : l' = l * α + ∑ k ∈ B, Ideal.exp ((s k : EReal) - m'))
    (ha' : a' = a * α + ∑ k ∈ B, Ideal.exp ((s k : EReal) - m') * (v k : EReal)) :
    Inv s v (S ∪ B) m' l' a' :=
  step s v h hB hd hm' hα (by rw [hl', mul_comm]) (by rw [ha', mul_comm])

/-- (ii) with the block sums started from zero: `0 + Σ_B …`. -/
theorem step_zero_add {S B : Finset ι} {m l a : EReal} (h : Inv s v S m l a) (hB : B.Nonempty)
    (hd : Disjoint S B) {m' α l' a' : EReal}
    (hm' : m' = max m (B.sup (fun k => (s k : EReal))))
    (hα : α = Ideal.exp (m - m'))
    (hl' : l' = α * l + (0 + ∑ k ∈ B, Ideal.exp ((s k : EReal) - m')))
    (ha' : a' = α * a + (0 + ∑ k ∈ B, Ideal.exp ((s k : EReal) - m') * (v k : EReal))) :
    Inv s v (S ∪ B) m' l' a' :=
  step s v h hB hd hm' hα (by rw [hl', zero_add]) (by rw [ha', zero_add])

/-- (ii) with the products inside the weighted block sum commuted: `v k · exp (s k − m')`. -/
theorem step_mul_comm {S B : Finset ι} {m l a : EReal} (h : Inv s v S m l a) (hB : B.Nonempty)
    (hd : Disjoint S B) {m' α l' a' : EReal}
    (hm' : m' = max m (B.sup (fun k => (s k : EReal))))
    (hα : α = Ideal.exp (m - m'))
    (hl' : l' = α * l + ∑ k ∈ B, Ideal.exp ((s k : EReal) - m'))
    (ha' : a' = α * a + ∑ k ∈ B, (v k : EReal) * Ideal.exp ((s k : EReal) - m')) :
    Inv s v (S ∪ B) m' l' a' :=
  step s v h hB hd hm' hα hl'
    (by rw [ha']; congr 1; exact Finset.sum_congr rfl (fun k _ => mul_comm _ _))

/-- A state that summarises a nonempty set consists of reals, and its normaliser is positive. -/
theorem Inv.exists_real {S : Finset ι} {m l a : EReal} (h : Inv s v S m l a) (hS : S.Nonempty) :
    ∃ M : ℝ, m = (M : EReal) ∧ (∀ k ∈ S, s k ≤ M) ∧
      l = ((∑ k ∈ S, Real.exp (s k - M) : ℝ) : EReal) ∧
      a = ((∑ k ∈ S, Real.exp (s k - M) * v k : ℝ) : EReal) ∧
      0 < ∑ k ∈ S, Real.exp (s k - M) := by
  obtain ⟨hm, hl, ha⟩ := h
  obtain ⟨M, hM⟩ := exists_real_sup s hS
  have hmM : m = (M : EReal) := hm.trans hM
  refine ⟨M, hmM, ?_, ?_, ?_, ?_⟩
  · intro k hk
    have : (s k : EReal) ≤ (M : EReal) := by
      rw [← hM]; exact Finset.le_sup (f := fun k => (s k : EReal)) hk
    exact EReal.coe_le_coe_iff.mp this
  · rw [hl, hmM, sum_exp_coe]
  · rw [ha, hmM, sum_exp_mul_coe]
  · exact Finset.sum_pos (fun k _ => Real.exp_pos _) hS

/-- (iii) The quotient of the two sums is the weighted mean: each weight is the
    exponential divided by the normaliser `L'`, any expression equal to `Σ_{j∈S} exp (s j − m)`. -/
theorem final {S : Finset ι} {m l a : EReal} (h : Inv s v S m l a) (hS : S.Nonempty)
    {L' : EReal} (hL' : L' = ∑ j ∈ S, Ideal.exp ((s j : EReal) - m)) :
    Ideal.div a l = ∑ k ∈ S, Ideal.div (Ideal.exp ((s k : EReal) - m)) L' * (v k : EReal) := by
  obtain ⟨M, hmM, _, hl, ha, hpos⟩ := h.exists_real s v hS
  have hne : (∑ k ∈ S, Real.exp (s k - M)) ≠ 0 := ne_of_gt hpos
  have hL : L' = ((∑ k ∈ S, Real.exp (s k - M) : ℝ) : EReal) := by rw [hL', hmM, sum_exp_coe]
  rw [hl, ha, hL, hmM, Ideal.div_coe hne, ← EReal.coe_mul, Finset.sum_mul, coe_sum]
  refine Finset.sum_congr rfl (fun k _ => ?_)
  rw [Ideal.div_coe hne, ← EReal.coe_sub, Ideal.exp_coe, ← EReal.coe_mul, ← EReal.coe_mul]
  congr 1; ring

/-- (iii) in the literal form. -/
theorem final_lit {S : Finset ι} {m l a : EReal} (h : Inv s v S m l a) (hS : S.Nonempty) :
    Ideal.div a l = ∑ k ∈ S, Ideal.div (Ideal.exp ((s k : EReal) - m))
      (∑ j ∈ S, Ideal.exp ((s j : EReal) - m)) * (v k : EReal) :=
  final s v h hS rfl

/-- (iii) with both sums started from zero. -/
theorem final_zero_add {S : Finset ι} {m l a : EReal} (h : Inv s v S m l a) (hS : S.Nonempty) :
    Ideal.div a l = 0 + ∑ k ∈ S, Ideal.div (Ideal.exp ((s k : EReal) - m))
      (0 + ∑ j ∈ S, Ideal.exp ((s j : EReal) - m)) * (v k : EReal) := by
  rw [zero_add]; exact final s v h hS (zero_add _)

/-- (iii) over a whole finite index type. -/
theorem final_univ [Fintype ι] [Nonempty ι] {m l a : EReal} (h : Inv s v Finset.univ m l a)
    {L' : EReal} (hL' : L' = ∑ j, Ideal.exp ((s j : EReal) - m)) :
    Ideal.div a l = ∑ k, Ideal.div (Ideal.exp ((s k : EReal) - m)) L' * (v k : EReal) :=
  final s v h Finset.univ_nonempty hL'

/-- Over a whole finite index type the invariant's largest score is the fold of `max` from `⊥`
    over all keys. -/
theorem Inv.max_univ [Fintype ι] {m l a : EReal} (h : Inv s v Finset.univ m l a) :
    m = Finset.univ.fold max ⊥ (fun k => (s k : EReal)) := h.1

/-- Prefixing `max ⊥` changes nothing: the reduction may start from `-∞` twice. -/
theorem max_bot_sup (S : Finset ι) :
    max ⊥ (S.sup (fun k => (s k : EReal))) = S.sup (fun k => (s k : EReal)) := bot_sup_eq _

end Cert.Lib.OnlineSoftmax
-- ==== Proof.LibOnlineSoftmaxRun.lean ====
/-
  Running the streaming softmax over a sequence of key blocks.

  Blocks `B 0, B 1, …, B (n-1)` of keys, nonempty and pairwise disjoint, are absorbed one
  after the other, starting from the empty state `(⊥, 0, 0)`. After `j` blocks the state
  summarises their union, and if the `n` blocks cover every key the final quotient is the
  softmax-weighted mean over all keys.
-/
import proofs.«158720_j6236292514541_2_alg».proof.Proof.LibOnlineSoftmax

noncomputable section

open scoped BigOperators
open Idealize.ShloMosaic

namespace Cert.Lib.OnlineSoftmax

variable {ι : Type*} [DecidableEq ι] (s v : ι → ℝ)

/-- After `j` steps the state summarises the union of the first `j` blocks. -/
theorem run (B : ℕ → Finset ι) (n : ℕ) (hne : ∀ t, t < n → (B t).Nonempty)
    (hdis : ∀ t, t < n → ∀ u, u < t → Disjoint (B u) (B t))
    (m l a : ℕ → EReal) (hm0 : m 0 = ⊥) (hl0 : l 0 = 0) (ha0 : a 0 = 0)
    (hm : ∀ t, t < n → m (t + 1) = max (m t) ((B t).sup (fun k => (s k : EReal))))
    (hl : ∀ t, t < n → l (t + 1) = Ideal.exp (m t - m (t + 1)) * l t
      + ∑ k ∈ B t, Ideal.exp ((s k : EReal) - m (t + 1)))
    (ha : ∀ t, t < n → a (t + 1) = Ideal.exp (m t - m (t + 1)) * a t
      + ∑ k ∈ B t, Ideal.exp ((s k : EReal) - m (t + 1)) * (v k : EReal)) :
    ∀ j, j ≤ n → Inv s v ((Finset.range j).biUnion B) (m j) (l j) (a j) := by
  intro j
  induction j with
  | zero =>
    intro _
    rw [hm0, hl0, ha0]
    simpa using init s v
  | succ j ih =>
    intro hj
    have hjn : j < n := hj
    have hprev := ih (Nat.le_of_lt hjn)
    have hd : Disjoint ((Finset.range j).biUnion B) (B j) := by
      rw [Finset.disjoint_biUnion_left]
      intro u hu
      exact hdis j hjn u (Finset.mem_range.mp hu)
    have hunion : (Finset.range (j + 1)).biUnion B = (Finset.range j).biUnion B ∪ B j := by
      rw [Finset.range_add_one, Finset.biUnion_insert, Finset.union_comm]
    rw [hunion]
    exact step s v hprev (hne j hjn) hd (hm j hjn) rfl (hl j hjn) (ha j hjn)

/-- If the `n ≥ 1` blocks cover a set `S`, the final quotient is the weighted mean over `S`. -/
theorem run_final (B : ℕ → Finset ι) (n : ℕ) (hn : 0 < n) (hne : ∀ t, t < n → (B t).Nonempty)
    (hdis : ∀ t, t < n → ∀ u, u < t → Disjoint (B u) (B t))
    (S : Finset ι) (hcover : (Finset.range n).biUnion B = S)
    (m l a : ℕ → EReal) (hm0 : m 0 = ⊥) (hl0 : l 0 = 0) (ha0 : a 0 = 0)
    (hm : ∀ t, t < n → m (t + 1) = max (m t) ((B t).sup (fun k => (s k : EReal))))
    (hl : ∀ t, t < n → l (t + 1) = Ideal.exp (m t - m (t + 1)) * l t
      + ∑ k ∈ B t, Ideal.exp ((s k : EReal) - m (t + 1)))
    (ha : ∀ t, t < n → a (t + 1) = Ideal.exp (m t - m (t + 1)) * a t
      + ∑ k ∈ B t, Ideal.exp ((s k : EReal) - m (t + 1)) * (v k : EReal))
    {M L' : EReal} (hM : M = S.sup (fun k => (s k : EReal)))
    (hL' : L' = ∑ j ∈ S, Ideal.exp ((s j : EReal) - M)) :
    Ideal.div (a n) (l n)
      = ∑ k ∈ S, Ideal.div (Ideal.exp ((s k : EReal) - M)) L' * (v k : EReal) := by
  have h := run s v B n hne hdis m l a hm0 hl0 ha0 hm hl ha n le_rfl
  rw [hcover] at h
  have hS : S.Nonempty := by
    rw [← hcover]
    obtain ⟨k, hk⟩ := hne 0 hn
    exact ⟨k, Finset.mem_biUnion.mpr ⟨0, Finset.mem_range.mpr hn, hk⟩⟩
  have hmM : m n = M := by rw [hM]; exact h.1
  rw [← hmM] at hL' ⊢
  exact final s v h hS hL'

end Cert.Lib.OnlineSoftmax
-- ==== Proof.LibOnlineSoftmaxBlocks.lean ====
/-
  The streaming softmax over blocks given by embeddings.

  The keys `ι` are cut into `n` blocks, block `j` being the image of an embedding
  `emb j : κ ↪ ι` of a fixed index type `κ` (a tile of keys). The images are pairwise
  disjoint and cover `ι`. Absorbing the blocks one after the other from the empty state gives,
  at the end, the softmax-weighted mean over all keys. Block sums and block maxima are written
  over `κ`, as a tiled computation has them.
-/
import proofs.«158720_j6236292514541_2_alg».proof.Proof.LibOnlineSoftmaxRun

noncomputable section

open scoped BigOperators
open Idealize.ShloMosaic

namespace Cert.Lib.OnlineSoftmax

variable {ι κ : Type*} [DecidableEq ι] [Fintype ι] [Fintype κ] [Nonempty κ]

theorem blocks_final (s v : ι → ℝ) (n : ℕ) (hn : 0 < n) (emb : Fin n → κ ↪ ι)
    (hinj : ∀ (j j' : Fin n) (i i' : κ), emb j i = emb j' i' → j = j')
    (hcover : ∀ k : ι, ∃ (j : Fin n) (i : κ), emb j i = k)
    (m l a : ℕ → EReal) (hm0 : m 0 = ⊥) (hl0 : l 0 = 0) (ha0 : a 0 = 0)
    (hm : ∀ (t : ℕ) (h : t < n), m (t + 1)
      = max (m t) ((Finset.univ : Finset κ).fold max ⊥ (fun i => (s (emb ⟨t, h⟩ i) : EReal))))
    (hl : ∀ (t : ℕ) (h : t < n), l (t + 1) = Ideal.exp (m t - m (t + 1)) * l t
      + ∑ i : κ, Ideal.exp ((s (emb ⟨t, h⟩ i) : EReal) - m (t + 1)))
    (ha : ∀ (t : ℕ) (h : t < n), a (t + 1) = Ideal.exp (m t - m (t + 1)) * a t
      + ∑ i : κ, Ideal.exp ((s (emb ⟨t, h⟩ i) : EReal) - m (t + 1)) * (v (emb ⟨t, h⟩ i) : EReal))
    {M L' : EReal} (hM : M = (Finset.univ : Finset ι).fold max ⊥ (fun k => (s k : EReal)))
    (hL' : L' = ∑ j : ι, Ideal.exp ((s j : EReal) - M)) :
    Ideal.div (a n) (l n) = ∑ k : ι, Ideal.div (Ideal.exp ((s k : EReal) - M)) L' * (v k : EReal) := by
  classical
  let B : ℕ → Finset ι := fun t => if h : t < n then Finset.univ.map (emb ⟨t, h⟩) else ∅
  have hB : ∀ (t : ℕ) (h : t < n), B t = Finset.univ.map (emb ⟨t, h⟩) := fun t h => dif_pos h
  refine run_final s v B n hn ?_ ?_ Finset.univ ?_ m l a hm0 hl0 ha0 ?_ ?_ ?_ hM hL'
  · intro t ht
    rw [hB t ht]
    exact (Finset.map_nonempty).mpr Finset.univ_nonempty
  · intro t ht u hut
    rw [hB t ht, hB u (lt_trans hut ht), Finset.disjoint_left]
    intro k hk hk'
    obtain ⟨i, _, rfl⟩ := Finset.mem_map.mp hk
    obtain ⟨i', _, hi'⟩ := Finset.mem_map.mp hk'
    have := hinj _ _ _ _ hi'
    have h2 : t = u := congrArg Fin.val this
    omega
  · ext k
    simp only [Finset.mem_biUnion, Finset.mem_range, Finset.mem_univ, iff_true]
    obtain ⟨j, i, rfl⟩ := hcover k
    refine ⟨j.val, j.isLt, ?_⟩
    rw [hB j.val j.isLt]
    exact Finset.mem_map.mpr ⟨i, Finset.mem_univ _, rfl⟩
  · intro t ht
    rw [hm t ht, hB t ht, Finset.sup_map]
    rfl
  · intro t ht
    rw [hl t ht, hB t ht, Finset.sum_map]
  · intro t ht
    rw [ha t ht, hB t ht, Finset.sum_map]

end Cert.Lib.OnlineSoftmax
-- ==== Proof.IdealTileMath.lean ====
/-
  One output tile of the fused attention kernel is the specification's attention output.

  For a batch `b` and a query tile `qi`, the kernel walks the four key tiles: the first step
  starts from the running values `(-∞, 0, 0)`, each step absorbs the 512 keys of its tile, and
  the output is the running weighted sum divided by the running normaliser. Row by row this is
  the streaming softmax over the 2048 keys cut into four blocks of 512, whose end result is the
  softmax-weighted mean of the projected values: the specification's `out`.
-/
import proofs.«158720_j6236292514541_2_alg».proof.Proof.IdealTileStep
import proofs.«158720_j6236292514541_2_alg».proof.Proof.LibOnlineSoftmaxBlocks

noncomputable section

namespace Cert.KernelIdeal.TileMath

open Idealize.ShloMosaic Idealize.ShloMosaic.ValueIdx Cert.KernelIdeal.Gen Cert.KernelIdeal.Attn
  Cert.KernelIdeal.PayIx
open scoped BigOperators

/-! ## Positions -/

/-- The query position of row `q` of query tile `qi`. -/
def qPos (qi : Fin 2) (q : Fin 1024) : Fin 2048 :=
  ⟨1024 * qi.val + q.val, by have := qi.isLt; have := q.isLt; omega⟩

/-- The key position of row `i` of key tile `j`. -/
def keyPos (j : Fin 4) (i : Fin 512) : Fin 2048 :=
  ⟨512 * j.val + i.val, by have := j.isLt; have := i.isLt; omega⟩

/-- Key tile `j` as an embedding of its 512 rows into the 2048 key positions. -/
def keyEmb (j : Fin 4) : Fin 512 ↪ Fin 2048 :=
  ⟨keyPos j, fun i i' h => by
    have h' : 512 * j.val + i.val = 512 * j.val + i'.val := congrArg Fin.val h
    exact Fin.ext (by omega)⟩

theorem keyEmb_apply (j : Fin 4) (i : Fin 512) : keyEmb j i = keyPos j i := rfl

/-- Different key tiles hold different positions. -/
theorem keyEmb_inj (j j' : Fin 4) (i i' : Fin 512) (h : keyEmb j i = keyEmb j' i') : j = j' := by
  have h' : 512 * j.val + i.val = 512 * j'.val + i'.val := congrArg Fin.val h
  have := i.isLt; have := i'.isLt
  exact Fin.ext (by omega)

/-- Every key position lies in some key tile. -/
theorem keyEmb_cover (k : Fin 2048) : ∃ (j : Fin 4) (i : Fin 512), keyEmb j i = k := by
  have := k.isLt
  exact ⟨⟨k.val / 512, by omega⟩, ⟨k.val % 512, by omega⟩,
    Fin.ext (by show 512 * (k.val / 512) + k.val % 512 = k.val; omega)⟩

/-! ## The carried values after each of the four steps -/

/-- What the carried buffers hold after `t` steps of one (batch, query tile). -/
def St (x0 : Vec Ideal S1x1024x1024 .f32) (x1 : Vec Ideal S1024x1024 .bf16) (x2 : Vec Ideal S1024 .f32)
    (kt vt : Fin 4 → Vec Ideal S1x512x1024 .bf16) : ℕ → Scr Ideal
  | 0 => ⟨attnQs x0 x1 x2, attnM0, attnL0, attnAcc0⟩
  | t + 1 => if h : t < 4 then stepNext (kt ⟨t, h⟩) (vt ⟨t, h⟩) (St x0 x1 x2 kt vt t) else St x0 x1 x2 kt vt t

section
variable (x0 : Vec Ideal S1x1024x1024 .f32) (x1 : Vec Ideal S1024x1024 .bf16) (x2 : Vec Ideal S1024 .f32)
  (kt vt : Fin 4 → Vec Ideal S1x512x1024 .bf16)

theorem St_succ (t : ℕ) (h : t < 4) :
    St x0 x1 x2 kt vt (t + 1) = stepNext (kt ⟨t, h⟩) (vt ⟨t, h⟩) (St x0 x1 x2 kt vt t) := by
  rw [St, dif_pos h]

theorem St_qs (t : ℕ) : (St x0 x1 x2 kt vt t).qs = attnQs x0 x1 x2 := by
  induction t with
  | zero => rfl
  | succ t ih =>
    rw [St]
    split
    · exact ih
    · exact ih

theorem St_four :
    St x0 x1 x2 kt vt 4
      = stepNext (kt 3) (vt 3) (stepNext (kt 2) (vt 2) (stepNext (kt 1) (vt 1)
          (stepFirst x0 x1 x2 (kt 0) (vt 0)))) := by
  rw [stepFirst_eq, St_succ x0 x1 x2 kt vt 3 (by omega), St_succ x0 x1 x2 kt vt 2 (by omega),
    St_succ x0 x1 x2 kt vt 1 (by omega), St_succ x0 x1 x2 kt vt 0 (by omega)]
  rfl
end

/-! ## The tile -/

theorem tile_out_eq (query key value : Cert.Attn.Act) (Wq : Cert.Attn.Mat) (bq : Cert.Attn.Vec)
    (Wk : Cert.Attn.Mat) (bk : Cert.Attn.Vec) (Wv : Cert.Attn.Mat) (bv : Cert.Attn.Vec)
    (hq : ∃ f : Cert.Attn.SAct.Idx → ℝ, query = fun i => ((f i : ℝ) : EReal))
    (hk : ∃ f : Cert.Attn.SAct.Idx → ℝ, key = fun i => ((f i : ℝ) : EReal))
    (hv : ∃ f : Cert.Attn.SAct.Idx → ℝ, value = fun i => ((f i : ℝ) : EReal))
    (hWq : ∃ f : Cert.Attn.SMat.Idx → ℝ, Wq = fun i => ((f i : ℝ) : EReal))
    (hbq : ∃ f : Cert.Attn.SVec.Idx → ℝ, bq = fun i => ((f i : ℝ) : EReal))
    (hWk : ∃ f : Cert.Attn.SMat.Idx → ℝ, Wk = fun i => ((f i : ℝ) : EReal))
    (hbk : ∃ f : Cert.Attn.SVec.Idx → ℝ, bk = fun i => ((f i : ℝ) : EReal))
    (hWv : ∃ f : Cert.Attn.SMat.Idx → ℝ, Wv = fun i => ((f i : ℝ) : EReal))
    (hbv : ∃ f : Cert.Attn.SVec.Idx → ℝ, bv = fun i => ((f i : ℝ) : EReal))
    (b : Fin 8) (qi : Fin 2)
    (x0 : Vec Ideal S1x1024x1024 .f32) (x1 : Vec Ideal S1024x1024 .bf16) (x2 : Vec Ideal S1024 .f32)
    (kt vt : Fin 4 → Vec Ideal S1x512x1024 .bf16)
    (hx0 : ∀ (q d : Fin 1024), x0 (ix3 (0 : Fin 1) q d) = query (ix3 b (qPos qi q) d))
    (hx1 : ∀ (d e : Fin 1024), x1 (ix2 d e) = Wq (ix2 d e) * Ideal.ofBits .f32 0x3D000000#32)
    (hx2 : ∀ e : Fin 1024, x2 (ix1 e) = bq (ix1 e) * Ideal.ofBits .f32 0x3D000000#32)
    (hkt : ∀ (j : Fin 4) (i : Fin 512) (e : Fin 1024),
      kt j (ix3 (0 : Fin 1) i e) = Cert.Attn.Kr key Wk bk b (keyPos j i) e)
    (hvt : ∀ (j : Fin 4) (i : Fin 512) (e : Fin 1024),
      vt j (ix3 (0 : Fin 1) i e) = Cert.Attn.Vr value Wv bv b (keyPos j i) e)
    (q e : Fin 1024) :
    let S4 := stepNext (kt 3) (vt 3) (stepNext (kt 2) (vt 2) (stepNext (kt 1) (vt 1)
      (stepFirst x0 x1 x2 (kt 0) (vt 0))))
    attnOut S4.acc S4.l (ix3 (0 : Fin 1) q e)
      = Cert.Attn.out query key value Wq bq Wk bk Wv bv b (qPos qi q) e := by
  intro S4
  obtain ⟨fq, hq⟩ := hq
  obtain ⟨fk, hk⟩ := hk
  obtain ⟨fv, hv⟩ := hv
  obtain ⟨fWq, hWq⟩ := hWq
  obtain ⟨fbq, hbq⟩ := hbq
  obtain ⟨fWk, hWk⟩ := hWk
  obtain ⟨fbk, hbk⟩ := hbk
  obtain ⟨fWv, hWv⟩ := hWv
  obtain ⟨fbv, hbv⟩ := hbv
  have hq' : ∀ i, query i = ((fq i : ℝ) : EReal) := fun i => congrFun hq i
  have hk' : ∀ i, key i = ((fk i : ℝ) : EReal) := fun i => congrFun hk i
  have hv' : ∀ i, value i = ((fv i : ℝ) : EReal) := fun i => congrFun hv i
  have hWq' : ∀ i, Wq i = ((fWq i : ℝ) : EReal) := fun i => congrFun hWq i
  have hbq' : ∀ i, bq i = ((fbq i : ℝ) : EReal) := fun i => congrFun hbq i
  have hWk' : ∀ i, Wk i = ((fWk i : ℝ) : EReal) := fun i => congrFun hWk i
  have hbk' : ∀ i, bk i = ((fbk i : ℝ) : EReal) := fun i => congrFun hbk i
  have hWv' : ∀ i, Wv i = ((fWv i : ℝ) : EReal) := fun i => congrFun hWv i
  have hbv' : ∀ i, bv i = ((fbv i : ℝ) : EReal) := fun i => congrFun hbv i
  clear hq hk hv hWq hbq hWk hbk hWv hbv
  have hS4 : S4 = St x0 x1 x2 kt vt 4 := (St_four x0 x1 x2 kt vt).symm
  -- the scores and values of row `q`, as reals
  have hscore : ∀ (t : ℕ) (h : t < 4) (i : Fin 512),
      k2_pay9 (F := Ideal) (St x0 x1 x2 kt vt t).qs (kt ⟨t, h⟩) (ix2 q i)
        = ((scR fq fk fWq fbq fWk fbk b (qPos qi q) (keyEmb ⟨t, h⟩ i) : ℝ) : EReal) := by
    intro t h i
    rw [St_qs]
    exact kscore hq' hk' hWq' hbq' hWk' hbk' b (qPos qi q) (keyPos ⟨t, h⟩ i) x0 x1 x2 (kt ⟨t, h⟩) q i
      (hx0 q) hx1 hx2 (hkt ⟨t, h⟩ i)
  have hval : ∀ (t : ℕ) (h : t < 4) (i : Fin 512),
      vt ⟨t, h⟩ (ix3 (0 : Fin 1) i e) = ((projR fv fWv fbv b (keyEmb ⟨t, h⟩ i) e : ℝ) : EReal) := by
    intro t h i
    rw [hvt]
    exact proj_coe hv' hWv' hbv' b _ e
  have hM : Cert.Attn.M query key Wq bq Wk bk b (qPos qi q)
      = (Finset.univ : Finset (Fin 2048)).fold max ⊥
          (fun k => ((scR fq fk fWq fbq fWk fbk b (qPos qi q) k : ℝ) : EReal)) := by
    unfold Cert.Attn.M Cert.Attn.rowmax Cert.Attn.cNegInf
    rw [Cert.Lib.Scale.ofBits_neg_inf]
    simp only [sc_coe hq' hk' hWq' hbq' hWk' hbk']
    exact max_bot_left _
  have hL : Cert.Attn.L query key Wq bq Wk bk b (qPos qi q)
      = ∑ k : Fin 2048, Ideal.exp (((scR fq fk fWq fbq fWk fbk b (qPos qi q) k : ℝ) : EReal)
          - Cert.Attn.M query key Wq bq Wk bk b (qPos qi q)) := by
    unfold Cert.Attn.L Cert.Attn.cZero Cert.Attn.E
    rw [Ideal.ofBits_zero_f32, zero_add]
    simp only [sc_coe hq' hk' hWq' hbq' hWk' hbk']
  have key := Cert.Lib.OnlineSoftmax.blocks_final
    (fun k => scR fq fk fWq fbq fWk fbk b (qPos qi q) k) (fun k => projR fv fWv fbv b k e)
    4 (by omega) keyEmb keyEmb_inj keyEmb_cover
    (fun t => (St x0 x1 x2 kt vt t).m (ix2 q (0 : Fin 1)))
    (fun t => (St x0 x1 x2 kt vt t).l (ix2 q (0 : Fin 1)))
    (fun t => (St x0 x1 x2 kt vt t).acc (ix2 q e))
    (k2_pay5_apply (ix2 q (0 : Fin 1))) (k2_pay6_apply (ix2 q (0 : Fin 1))) (k2_pay7_apply (ix2 q e))
    (fun t h => by
      show (St x0 x1 x2 kt vt (t + 1)).m (ix2 q (0 : Fin 1)) = _
      rw [St_succ x0 x1 x2 kt vt t h, stepNext_m]
      simp only [hscore t h])
    (fun t h => by
      show (St x0 x1 x2 kt vt (t + 1)).l (ix2 q (0 : Fin 1))
        = Ideal.exp ((St x0 x1 x2 kt vt t).m (ix2 q (0 : Fin 1))
            - (St x0 x1 x2 kt vt (t + 1)).m (ix2 q (0 : Fin 1))) * _ + _
      rw [St_succ x0 x1 x2 kt vt t h, stepNext_l]
      simp only [hscore t h])
    (fun t h => by
      show (St x0 x1 x2 kt vt (t + 1)).acc (ix2 q e)
        = Ideal.exp ((St x0 x1 x2 kt vt t).m (ix2 q (0 : Fin 1))
            - (St x0 x1 x2 kt vt (t + 1)).m (ix2 q (0 : Fin 1))) * _ + _
      rw [St_succ x0 x1 x2 kt vt t h, stepNext_acc]
      simp only [hscore t h, hval t h])
    hM hL
  rw [hS4]
  unfold attnOut
  rw [k2_pay3_apply]
  refine key.trans ?_
  unfold Cert.Attn.out Cert.Attn.P Cert.Attn.E Cert.Attn.Vr
  simp only [sc_coe hq' hk' hWq' hbq' hWk' hbk', proj_coe hv' hWv' hbv']

end Cert.KernelIdeal.TileMath
-- ==== Proof.IdealAttnVal.lean ====
/-
  The attention region, from blocks to the whole array.

  The region's grid is (8 batches, 2 query tiles of 1024 rows, 4 key tiles of 512 rows), the key tile innermost. For one
  (batch, query tile) the four points carry the streaming softmax's state; the fourth writes the output tile back. What
  it writes is, row by row, the attention output of the specification at that batch and those 1024 query positions
  (the tile mathematics), and the 16 written tiles cover the output array: index (b, s, e) lies in the tile of batch b
  and query tile s / 1024. Hence the output array as a whole is the specification's result G.
-/
import proofs.«158720_j6236292514541_2_alg».proof.Proof.IdealAttn
import proofs.«158720_j6236292514541_2_alg».proof.Proof.IdealTileMath
import proofs.«158720_j6236292514541_2_alg».proof.Proof.Spec
import Idealize.ShloMosaic.Lib.Pipeline.Value
import Idealize.ShloMosaic.Lib.ValueIdx

set_option maxRecDepth 16384

noncomputable section

open scoped BigOperators

namespace Cert.KernelIdeal.AttnVal

open Cert.KernelIdeal Cert.KernelIdeal.Gen Cert.KernelIdeal.Attn Cert.KernelIdeal.TileMath
open Idealize.ShloMosaic Idealize.ShloMosaic.TcCoe Idealize.ShloMosaic.ValueIdx Idealize.SL.Sem
open Idealize.ShloMosaic.Pipeline (Dat Cfg Window)

-- the contents of the core's buffers when the region is entered
variable (V : (c : Dev nD) → (b : Ref sig .tc) → Buf (Elt Ideal) ((c : Thread nD τ).loc b))

/-! ## The block indices -/

/-- The block indices, decided over the 64 grid points. Point t is batch t / 8, query tile (t / 4) % 2, key tile t % 4:
    the query block and the output block sit at (batch, query tile, 0), the key and value blocks at (batch, key tile, 0),
    the weight and the bias are whole. -/
theorem idx_facts2 : ∀ t : Fin cfg2.N,
    win2_0.index t (0 : Fin 3) = t.val / 8 ∧ win2_0.index t (1 : Fin 3) = (t.val / 4) % 2 ∧ win2_0.index t (2 : Fin 3) = 0
    ∧ win2_1.index t (0 : Fin 2) = 0 ∧ win2_1.index t (1 : Fin 2) = 0
    ∧ win2_2.index t (0 : Fin 1) = 0
    ∧ win2_3.index t (0 : Fin 3) = t.val / 8 ∧ win2_3.index t (1 : Fin 3) = t.val % 4 ∧ win2_3.index t (2 : Fin 3) = 0
    ∧ win2_4.index t (0 : Fin 3) = t.val / 8 ∧ win2_4.index t (1 : Fin 3) = t.val % 4 ∧ win2_4.index t (2 : Fin 3) = 0
    ∧ win2_5.index t (0 : Fin 3) = t.val / 8 ∧ win2_5.index t (1 : Fin 3) = (t.val / 4) % 2 ∧ win2_5.index t (2 : Fin 3) = 0 :=
  (by decide +kernel : ∀ t : Fin grid2.N, _)

/-! ## Each input block read at an index

A block's coordinate in the array is the block index times the block size plus the coordinate inside the block. -/

section Blocks
variable (c : Dev nD) (t : Fin cfg2.N) (B : Fin 8) (QI : Fin 2) (KV : Fin 4)

/-- The query block of point t: rows 1024 · QI + q of batch B. -/
theorem blk0 (hB : B.val = t.val / 8) (hQ : QI.val = (t.val / 4) % 2) (q d : Fin 1024) :
    iblk V c 0 t (ix3 (0 : Fin 1) q d) = V c main_arg0 (ix3 B (qPos QI q) d) := by
  obtain ⟨e0, e1, e2, -⟩ := idx_facts2 t
  show V c main_arg0 (((cfg2.win 0).blk t).view.emb (ix3 (0 : Fin 1) q d)) = _
  refine congrArg _ (funext fun a => Fin.ext ?_)
  match a with
  | ⟨0, _⟩ => show win2_0.index t (0 : Fin 3) * 1 + 1 * 0 = B.val; omega
  | ⟨1, _⟩ => show win2_0.index t (1 : Fin 3) * 1024 + 1 * q.val = 1024 * QI.val + q.val; omega
  | ⟨2, _⟩ => show win2_0.index t (2 : Fin 3) * 1024 + 1 * d.val = d.val; omega

/-- The weight block is the whole weight. -/
theorem blk1 (d e : Fin 1024) : iblk V c 1 t (ix2 d e) = V c main_v2 (ix2 d e) := by
  obtain ⟨-, -, -, e3, e4, -⟩ := idx_facts2 t
  show V c main_v2 (((cfg2.win 1).blk t).view.emb (ix2 d e)) = _
  refine congrArg _ (funext fun a => Fin.ext ?_)
  match a with
  | ⟨0, _⟩ => show win2_1.index t (0 : Fin 2) * 1024 + 1 * d.val = d.val; omega
  | ⟨1, _⟩ => show win2_1.index t (1 : Fin 2) * 1024 + 1 * e.val = e.val; omega

/-- The bias block is the whole bias. -/
theorem blk2 (e : Fin 1024) : iblk V c 2 t (ix1 e) = V c main_v4 (ix1 e) := by
  obtain ⟨-, -, -, -, -, e5, -⟩ := idx_facts2 t
  show V c main_v4 (((cfg2.win 2).blk t).view.emb (ix1 e)) = _
  refine congrArg _ (funext fun a => Fin.ext ?_)
  match a with
  | ⟨0, _⟩ => show win2_2.index t (0 : Fin 1) * 1024 + 1 * e.val = e.val; omega

/-- The key block of point t: rows 512 · KV + i of batch B. -/
theorem blk3 (hB : B.val = t.val / 8) (hK : KV.val = t.val % 4) (i : Fin 512) (e : Fin 1024) :
    iblk V c 3 t (ix3 (0 : Fin 1) i e) = V c main_v9 (ix3 B (keyPos KV i) e) := by
  obtain ⟨-, -, -, -, -, -, e6, e7, e8, -⟩ := idx_facts2 t
  show V c main_v9 (((cfg2.win 3).blk t).view.emb (ix3 (0 : Fin 1) i e)) = _
  refine congrArg _ (funext fun a => Fin.ext ?_)
  match a with
  | ⟨0, _⟩ => show win2_3.index t (0 : Fin 3) * 1 + 1 * 0 = B.val; omega
  | ⟨1, _⟩ => show win2_3.index t (1 : Fin 3) * 512 + 1 * i.val = 512 * KV.val + i.val; omega
  | ⟨2, _⟩ => show win2_3.index t (2 : Fin 3) * 1024 + 1 * e.val = e.val; omega

/-- The value block of point t: rows 512 · KV + i of batch B. -/
theorem blk4 (hB : B.val = t.val / 8) (hK : KV.val = t.val % 4) (i : Fin 512) (e : Fin 1024) :
    iblk V c 4 t (ix3 (0 : Fin 1) i e) = V c main_v12 (ix3 B (keyPos KV i) e) := by
  obtain ⟨-, -, -, -, -, -, -, -, -, e9, e10, e11, -⟩ := idx_facts2 t
  show V c main_v12 (((cfg2.win 4).blk t).view.emb (ix3 (0 : Fin 1) i e)) = _
  refine congrArg _ (funext fun a => Fin.ext ?_)
  match a with
  | ⟨0, _⟩ => show win2_4.index t (0 : Fin 3) * 1 + 1 * 0 = B.val; omega
  | ⟨1, _⟩ => show win2_4.index t (1 : Fin 3) * 512 + 1 * i.val = 512 * KV.val + i.val; omega
  | ⟨2, _⟩ => show win2_4.index t (2 : Fin 3) * 1024 + 1 * e.val = e.val; omega

/-- Where the output block of point t sits: rows 1024 · QI + q of batch B. -/
theorem emb5 (hB : B.val = t.val / 8) (hQ : QI.val = (t.val / 4) % 2) (q e : Fin 1024) :
    ((cfg2.win 5).blk t).view.emb (ix3 (0 : Fin 1) q e) = ix3 B (qPos QI q) e := by
  obtain ⟨-, -, -, -, -, -, -, -, -, -, -, -, e12, e13, e14⟩ := idx_facts2 t
  refine funext fun a => Fin.ext ?_
  match a with
  | ⟨0, _⟩ => show win2_5.index t (0 : Fin 3) * 1 + 1 * 0 = B.val; omega
  | ⟨1, _⟩ => show win2_5.index t (1 : Fin 3) * 1024 + 1 * q.val = 1024 * QI.val + q.val; omega
  | ⟨2, _⟩ => show win2_5.index t (2 : Fin 3) * 1024 + 1 * e.val = e.val; omega

end Blocks

/-! ## Four points of one (batch, query tile) -/

/-- After the fourth of four consecutive points that start at a key tile 0, the carried state is the first step followed
    by three further steps, each on its own point's key and value blocks. -/
theorem scr_four (c : Dev nD) (t0 t1 t2 t3 : Fin cfg2.N) (h0 : t0.val % 4 = 0) (h1 : t1.val = t0.val + 1)
    (h2 : t2.val = t0.val + 2) (h3 : t3.val = t0.val + 3) :
    scr V c (t3.val + 1)
      = stepNext (iblk V c 3 t3) (iblk V c 4 t3) (stepNext (iblk V c 3 t2) (iblk V c 4 t2)
          (stepNext (iblk V c 3 t1) (iblk V c 4 t1)
            (stepFirst (iblk V c 0 t0) (iblk V c 1 t0) (iblk V c 2 t0) (iblk V c 3 t0) (iblk V c 4 t0)))) := by
  have e3 : t3.val = t2.val + 1 := by omega
  have e2 : t2.val = t1.val + 1 := by omega
  rw [scr_next V c t3 (by omega), e3, scr_next V c t2 (by omega), e2, scr_next V c t1 (by omega), h1,
    scr_first V c t0 h0]

/-! ## What a writing point writes back -/

section Final
variable (c : Dev nD)
  (query key value : Cert.Attn.Act) (Wq : Cert.Attn.Mat) (bq : Cert.Attn.Vec) (Wk : Cert.Attn.Mat) (bk : Cert.Attn.Vec)
  (Wv : Cert.Attn.Mat) (bv : Cert.Attn.Vec)
  (hq : ∃ f : Cert.Attn.SAct.Idx → ℝ, query = fun i => ((f i : ℝ) : EReal))
  (hk : ∃ f : Cert.Attn.SAct.Idx → ℝ, key = fun i => ((f i : ℝ) : EReal))
  (hv : ∃ f : Cert.Attn.SAct.Idx → ℝ, value = fun i => ((f i : ℝ) : EReal))
  (hWq : ∃ f : Cert.Attn.SMat.Idx → ℝ, Wq = fun i => ((f i : ℝ) : EReal))
  (hbq : ∃ f : Cert.Attn.SVec.Idx → ℝ, bq = fun i => ((f i : ℝ) : EReal))
  (hWk : ∃ f : Cert.Attn.SMat.Idx → ℝ, Wk = fun i => ((f i : ℝ) : EReal))
  (hbk : ∃ f : Cert.Attn.SVec.Idx → ℝ, bk = fun i => ((f i : ℝ) : EReal))
  (hWv : ∃ f : Cert.Attn.SMat.Idx → ℝ, Wv = fun i => ((f i : ℝ) : EReal))
  (hbv : ∃ f : Cert.Attn.SVec.Idx → ℝ, bv = fun i => ((f i : ℝ) : EReal))
  (h0 : V c main_arg0 = query)
  (h2 : ∀ d e : Fin 1024, V c main_v2 (ix2 d e) = Wq (ix2 d e) * Ideal.ofBits .f32 0x3D000000#32)
  (h4 : ∀ e : Fin 1024, V c main_v4 (ix1 e) = bq (ix1 e) * Ideal.ofBits .f32 0x3D000000#32)
  (h9 : ∀ (b : Fin 8) (s : Fin 2048) (e : Fin 1024), V c main_v9 (ix3 b s e) = Cert.Attn.Kr key Wk bk b s e)
  (h12 : ∀ (b : Fin 8) (s : Fin 2048) (e : Fin 1024), V c main_v12 (ix3 b s e) = Cert.Attn.Vr value Wv bv b s e)

include hq hk hv hWq hbq hWk hbk hWv hbv h0 h2 h4 h9 h12 in
/-- The output tile after four consecutive points starting at a key tile 0, read at row q and column e, is the
    specification's output at batch B, query position 1024 · QI + q, column e. -/
theorem tile_of_points (t0 t1 t2 t3 : Fin cfg2.N) (B : Fin 8) (QI : Fin 2) (hm : t0.val % 4 = 0)
    (h1 : t1.val = t0.val + 1) (h2' : t2.val = t0.val + 2) (h3 : t3.val = t0.val + 3)
    (hB : B.val = t0.val / 8) (hQ : QI.val = (t0.val / 4) % 2) (q e : Fin 1024) :
    attnOut (scr V c (t3.val + 1)).acc (scr V c (t3.val + 1)).l (ix3 (0 : Fin 1) q e)
      = Cert.Attn.out query key value Wq bq Wk bk Wv bv B (qPos QI q) e := by
  rw [scr_four V c t0 t1 t2 t3 hm h1 h2' h3]
  have hB1 : B.val = t1.val / 8 := by omega
  have hB2 : B.val = t2.val / 8 := by omega
  have hB3 : B.val = t3.val / 8 := by omega
  exact tile_out_eq query key value Wq bq Wk bk Wv bv hq hk hv hWq hbq hWk hbk hWv hbv B QI
    (iblk V c 0 t0) (iblk V c 1 t0) (iblk V c 2 t0)
    (fun j => match j with
      | ⟨0, _⟩ => iblk V c 3 t0 | ⟨1, _⟩ => iblk V c 3 t1 | ⟨2, _⟩ => iblk V c 3 t2 | ⟨3, _⟩ => iblk V c 3 t3)
    (fun j => match j with
      | ⟨0, _⟩ => iblk V c 4 t0 | ⟨1, _⟩ => iblk V c 4 t1 | ⟨2, _⟩ => iblk V c 4 t2 | ⟨3, _⟩ => iblk V c 4 t3)
    (fun q d => by rw [blk0 V c t0 B QI hB hQ, h0])
    (fun d e => by rw [blk1, h2])
    (fun e => by rw [blk2, h4])
    (fun j i e => match j with
      | ⟨0, _⟩ => by rw [← h9]; exact blk3 V c t0 B ⟨0, by decide⟩ hB (by show 0 = t0.val % 4; omega) i e
      | ⟨1, _⟩ => by rw [← h9]; exact blk3 V c t1 B ⟨1, by decide⟩ hB1 (by show 1 = t1.val % 4; omega) i e
      | ⟨2, _⟩ => by rw [← h9]; exact blk3 V c t2 B ⟨2, by decide⟩ hB2 (by show 2 = t2.val % 4; omega) i e
      | ⟨3, _⟩ => by rw [← h9]; exact blk3 V c t3 B ⟨3, by decide⟩ hB3 (by show 3 = t3.val % 4; omega) i e)
    (fun j i e => match j with
      | ⟨0, _⟩ => by rw [← h12]; exact blk4 V c t0 B ⟨0, by decide⟩ hB (by show 0 = t0.val % 4; omega) i e
      | ⟨1, _⟩ => by rw [← h12]; exact blk4 V c t1 B ⟨1, by decide⟩ hB1 (by show 1 = t1.val % 4; omega) i e
      | ⟨2, _⟩ => by rw [← h12]; exact blk4 V c t2 B ⟨2, by decide⟩ hB2 (by show 2 = t2.val % 4; omega) i e
      | ⟨3, _⟩ => by rw [← h12]; exact blk4 V c t3 B ⟨3, by decide⟩ hB3 (by show 3 = t3.val % 4; omega) i e)
    q e

include hq hk hv hWq hbq hWk hbk hWv hbv h0 h2 h4 h9 h12 in
/-- What a writing point t writes back is block t of the specification's result. -/
theorem flushed5_eq (t : Fin cfg2.N) (hfl : (cfg2.win 5).flush t = true) :
    (Attn.dat (F := Ideal) V c).flushed 5 t
      = ((cfg2.win 5).blk t).view.read (Elt Ideal) (Cert.Attn.G query key value Wq bq Wk bk Wv bv) := by
  have hm : t.val % 4 = 3 := (flush2_5 t).mp hfl
  have hN : cfg2.N = 64 := N_2
  have ht : t.val < 64 := lt_of_lt_of_eq t.isLt hN
  obtain ⟨t0, ht0⟩ : ∃ t0 : Fin cfg2.N, t0.val = t.val - 3 := ⟨⟨t.val - 3, lt_of_lt_of_eq (show t.val - 3 < 64 by omega) hN.symm⟩, rfl⟩
  obtain ⟨t1, ht1⟩ : ∃ t1 : Fin cfg2.N, t1.val = t.val - 2 := ⟨⟨t.val - 2, lt_of_lt_of_eq (show t.val - 2 < 64 by omega) hN.symm⟩, rfl⟩
  obtain ⟨t2, ht2⟩ : ∃ t2 : Fin cfg2.N, t2.val = t.val - 1 := ⟨⟨t.val - 1, lt_of_lt_of_eq (show t.val - 1 < 64 by omega) hN.symm⟩, rfl⟩
  obtain ⟨B, hB⟩ : ∃ B : Fin 8, B.val = t.val / 8 := ⟨⟨t.val / 8, by omega⟩, rfl⟩
  obtain ⟨QI, hQ⟩ : ∃ QI : Fin 2, QI.val = (t.val / 4) % 2 := ⟨⟨(t.val / 4) % 2, by omega⟩, rfl⟩
  show (cfg2.win 5).cut (grid2.coords t) ((Attn.dat (F := Ideal) V c).after 5 t) = _
  rw [Attn.after_5]
  funext y
  obtain ⟨u, q, e, rfl⟩ : ∃ (u : Fin 1) (q e : Fin 1024), y = ix3 u q e := ⟨y 0, y 1, y 2, eq_ix3 y⟩
  obtain rfl : u = 0 := Subsingleton.elim _ _
  show attnOut (scr V c (t.val + 1)).acc (scr V c (t.val + 1)).l (ix3 (0 : Fin 1) q e)
    = Cert.Attn.G query key value Wq bq Wk bk Wv bv (((cfg2.win 5).blk t).view.emb (ix3 (0 : Fin 1) q e))
  rw [emb5 t B QI hB hQ, Cert.Attn.G_ix3]
  exact tile_of_points V c query key value Wq bq Wk bk Wv bv hq hk hv hWq hbq hWk hbk hWv hbv h0 h2 h4 h9 h12
    t0 t1 t2 t B QI (by omega) (by omega) (by omega) (by omega) (by omega) (by omega) q e

/-- An index of the output array is in point t's block iff each coordinate is in the block's range on its axis. -/
theorem mem_blk5 (t : Fin cfg2.N) (i : S8x2048x1024.Idx) :
    i ∈ ((cfg2.win 5).blk t).view.set ↔ ∀ a : Fin 3, win2_5.index t a * S1x1024x1024.size a ≤ (i a).val
      ∧ (i a).val < win2_5.index t a * S1x1024x1024.size a + S1x1024x1024.size a := by
  show i ∈ ((View.whole main_v13).slice (win2_5.rect t)).set ↔ _
  rw [View.set_slice_whole, Rect.mem_set_unit]
  exact Iff.rfl

/-- Every index (b, s, e) of the output array is in the block of a writing point: the last key tile of batch b and
    query tile s / 1024. -/
theorem cover5 (i : S8x2048x1024.Idx) :
    ∃ t : Fin cfg2.N, (cfg2.win 5).flush t = true ∧ i ∈ ((cfg2.win 5).blk t).view.set := by
  have hi0 : (i 0).val < 8 := (i 0).isLt
  have hi1 : (i 1).val < 2048 := (i 1).isLt
  have hi2 : (i 2).val < 1024 := (i 2).isLt
  have hN : cfg2.N = 64 := N_2
  obtain ⟨t, ht⟩ : ∃ t : Fin cfg2.N, t.val = ((i 0).val * 2 + (i 1).val / 1024) * 4 + 3 :=
    ⟨⟨((i 0).val * 2 + (i 1).val / 1024) * 4 + 3, by rw [hN]; omega⟩, rfl⟩
  obtain ⟨-, -, -, -, -, -, -, -, -, -, -, -, e12, e13, e14⟩ := idx_facts2 t
  refine ⟨t, (flush2_5 t).mpr (by omega), ?_⟩
  rw [mem_blk5]
  intro a
  match a with
  | ⟨0, _⟩ =>
    show win2_5.index t (0 : Fin 3) * 1 ≤ (i 0).val ∧ (i 0).val < win2_5.index t (0 : Fin 3) * 1 + 1
    omega
  | ⟨1, _⟩ =>
    show win2_5.index t (1 : Fin 3) * 1024 ≤ (i 1).val ∧ (i 1).val < win2_5.index t (1 : Fin 3) * 1024 + 1024
    omega
  | ⟨2, _⟩ =>
    show win2_5.index t (2 : Fin 3) * 1024 ≤ (i 2).val ∧ (i 2).val < win2_5.index t (2 : Fin 3) * 1024 + 1024
    omega

include hq hk hv hWq hbq hWk hbk hWv hbv h0 h2 h4 h9 h12 in
/-- The output array after the attention region is the specification's result of the arrays the region finds:
    the query array itself, the scaled query weight and bias, and the projected keys and values. -/
theorem attn_final :
    (Attn.dat (F := Ideal) V c).arrAt 5 cfg2.N = Cert.Attn.G query key value Wq bq Wk bk Wv bv :=
  (Attn.dat (F := Ideal) V c).arrAt_eq_of_cover 5 _
    (fun t hfl => flushed5_eq V c query key value Wq bq Wk bk Wv bv hq hk hv hWq hbq hWk hbk hWv hbv h0 h2 h4 h9 h12 t hfl)
    cover5

end Final

end Cert.KernelIdeal.AttnVal

end
-- ==== Proof.IdealProjVal.lean ====
/-
  The two key/value projection regions, from blocks to whole arrays.

  Each region walks 32 row tiles of 512 rows of a [16384, 1024] operand; at a tile it multiplies the tile by the whole
  [1024, 1024] weight, adds the bias row, and writes the result back to the same 512 rows of the output array. So the
  output array as a whole is, at row r and column e, the sum over d of operand(r, d) · weight(d, e) plus bias(e): row r
  lies in tile r / 512, every tile is written back, and the tiles cover all 16384 rows.
-/
import proofs.«158720_j6236292514541_2_alg».proof.Proof.IdealProj0
import proofs.«158720_j6236292514541_2_alg».proof.Proof.IdealProj1
import proofs.«158720_j6236292514541_2_alg».proof.Proof.LibPlainMatmul
import Idealize.ShloMosaic.Lib.ValueLayout
import Idealize.ShloMosaic.Lib.Pipeline.Value
import Idealize.ShloMosaic.Lib.ValueIdx

set_option maxRecDepth 16384

noncomputable section

open scoped BigOperators

namespace Cert.KernelIdeal.ProjVal

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem zeros1 : (![0] : Fin 1 → Nat) = fun _ => 0 := funext fun a => by fin_cases a <;> rfl
theorem zeros2 : (![0, 0] : Fin 2 → Nat) = fun _ => 0 := funext fun a => by fin_cases a <;> rfl

/-- The projection of a whole [16384, 1024] array: at (r, e), Σ_d X(r, d) · W(d, e) + b(e). -/
def projArr (X : FVec Ideal S16384x1024 .f32) (W : FVec Ideal S1024x1024 .bf16) (b : FVec Ideal S1024 .f32) :
    S16384x1024.Idx → EReal :=
  fun i => (∑ d : Fin 1024, X (ix2 (i 0) d) * W (ix2 d (i 1))) + b (ix1 (i 1))

-- the contents of the core's buffers when a region is entered
variable (V : (c : Dev nD) → (b : Ref sig .tc) → Buf (Elt Ideal) ((c : Thread nD τ).loc b))

/-! ## Region 0 -/

/-- One tile's result at (r, e): the tile's row r against the weight's column e, plus the bias at e (the changes of
    float format are the identity on the extended reals). -/
theorem tile0_apply (x : Vec Ideal S512x1024 .f32) (W : Vec Ideal S1024x1024 .bf16) (b : Vec Ideal S1024 .f32)
    (r : Fin 512) (e : Fin 1024) :
    k0_pay1 (F := Ideal) x W b (ix2 r e) = (∑ d : Fin 1024, x (ix2 r d) * W (ix2 d e)) + b (ix1 e) := by
  unfold k0_pay1
  rw [truncf_apply, addf_apply, shapeCast_self, shapeCast_self,
    (broadcastTo_1b_ab_apply _ broadcasts_S1x1024_S512x1024 r e).trans (shapeCast_a_1a_apply b shapeCasts_S1024_S1x1024 0 e)]
  exact congrArg (· + b (ix1 e))
    (PlainMatmul.matmul_zero_apply (M := 512) (K := 1024) (N := 1024)
      dot_S512x1024_S1024x1024_S512x1024_1_0_0_1_n_n_wf none (truncf .bf16 x bitsLt_bf16_f32) W r e)

/-- The block indices, decided over the 32 grid points: the operand's and the output's row tile is the point's
    number, their column tile and the weight's and bias's tiles are 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point t writes back is block t of the projection of the three arrays as the region finds them. -/
theorem flushed0_eq (c : Dev nD) (t : Fin cfg0.N) :
    (Proj0.dat (F := Ideal) V c).flushed 3 t
      = ((cfg0.win 3).blk t).view.read (Elt Ideal) (projArr (V c main_v7) (V c main_v5) (V c main_arg6)) := by
  show (cfg0.win 3).cut (grid0.coords t) ((Proj0.dat (F := Ideal) V c).after 3 t) = _
  rw [Proj0.after_3]
  unfold Proj0.outTile
  rw [View.canon_unit_zero zeros2]
  simp only [View.ld_unit_zero (S := S512x1024) zeros2, View.ld_unit_zero (S := S1024x1024) zeros2,
    View.ld_unit_zero (S := S1024) zeros1]
  obtain ⟨e0, e1, e2, e3, e4, e5, e6⟩ := idx_facts0 t
  funext j
  obtain ⟨r, e, rfl⟩ : ∃ (r : Fin 512) (e : Fin 1024), j = ix2 r e := ⟨j 0, j 1, eq_ix2 j⟩
  show k0_pay1 (F := Ideal) (Proj0.iblk V c 0 t) (Proj0.iblk V c 1 t) (Proj0.iblk V c 2 t) (ix2 r e)
    = projArr (V c main_v7) (V c main_v5) (V c main_arg6) (((cfg0.win 3).blk t).view.emb (ix2 r e))
  rw [tile0_apply]
  unfold projArr
  have hX : ∀ d : Fin 1024, Proj0.iblk V c 0 t (ix2 r d)
      = V c main_v7 (ix2 ((((cfg0.win 3).blk t).view.emb (ix2 r e)) 0) d) := fun d => by
    show V c main_v7 (((cfg0.win 0).blk t).view.emb (ix2 r d)) = _
    refine congrArg _ (funext fun a => Fin.ext ?_)
    match a with
    | ⟨0, _⟩ => show win0_0.index t (0 : Fin 2) * 512 + 1 * r.val = win0_3.index t (0 : Fin 2) * 512 + 1 * r.val; omega
    | ⟨1, _⟩ => show win0_0.index t (1 : Fin 2) * 1024 + 1 * d.val = d.val; omega
  have hW : ∀ d : Fin 1024, Proj0.iblk V c 1 t (ix2 d e)
      = V c main_v5 (ix2 d ((((cfg0.win 3).blk t).view.emb (ix2 r e)) 1)) := fun d => by
    show V c main_v5 (((cfg0.win 1).blk t).view.emb (ix2 d e)) = _
    refine congrArg _ (funext fun a => Fin.ext ?_)
    match a with
    | ⟨0, _⟩ => show win0_1.index t (0 : Fin 2) * 1024 + 1 * d.val = d.val; omega
    | ⟨1, _⟩ => show win0_1.index t (1 : Fin 2) * 1024 + 1 * e.val = win0_3.index t (1 : Fin 2) * 1024 + 1 * e.val; omega
  have hB : Proj0.iblk V c 2 t (ix1 e) = V c main_arg6 (ix1 ((((cfg0.win 3).blk t).view.emb (ix2 r e)) 1)) := by
    show V c main_arg6 (((cfg0.win 2).blk t).view.emb (ix1 e)) = _
    refine congrArg _ (funext fun a => Fin.ext ?_)
    match a with
    | ⟨0, _⟩ => show win0_2.index t (0 : Fin 1) * 1024 + 1 * e.val = win0_3.index t (1 : Fin 2) * 1024 + 1 * e.val; omega
  rw [hB]
  exact congrArg (· + _) (Finset.sum_congr rfl fun d _ => by rw [hX, hW])

/-- An index of the output array is in point t's block iff each coordinate is in the block's range on its axis. -/
theorem mem_blk0 (t : Fin cfg0.N) (i : S16384x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v8).slice (win0_3.rect t)).set ↔ _
  rw [View.set_slice_whole, Rect.mem_set_unit]
  exact Iff.rfl

/-- Every index of the output array is in the block of a point that writes back: row r is in row tile r / 512. -/
theorem cover0 (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨-, -, -, -, -, e5, e6⟩ := idx_facts0 t
  refine ⟨t, flush0_3 t, ?_⟩
  rw [mem_blk0]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- The output array after region 0: the projection of the three arrays as the region finds them. -/
theorem final0 (c : Dev nD) :
    (Proj0.dat (F := Ideal) V c).arrAt 3 cfg0.N = projArr (V c main_v7) (V c main_v5) (V c main_arg6) :=
  (Proj0.dat (F := Ideal) V c).arrAt_eq_of_cover 3 _ (fun t _ => flushed0_eq V c t) cover0

/-! ## Region 1 -/

/-- One tile's result at (r, e): the tile's row r against the weight's column e, plus the bias at e (the changes of
    float format are the identity on the extended reals). -/
theorem tile1_apply (x : Vec Ideal S512x1024 .f32) (W : Vec Ideal S1024x1024 .bf16) (b : Vec Ideal S1024 .f32)
    (r : Fin 512) (e : Fin 1024) :
    k1_pay1 (F := Ideal) x W b (ix2 r e) = (∑ d : Fin 1024, x (ix2 r d) * W (ix2 d e)) + b (ix1 e) := by
  unfold k1_pay1
  rw [truncf_apply, addf_apply, shapeCast_self, shapeCast_self,
    (broadcastTo_1b_ab_apply _ broadcasts_S1x1024_S512x1024 r e).trans (shapeCast_a_1a_apply b shapeCasts_S1024_S1x1024 0 e)]
  exact congrArg (· + b (ix1 e))
    (PlainMatmul.matmul_zero_apply (M := 512) (K := 1024) (N := 1024)
      dot_S512x1024_S1024x1024_S512x1024_1_0_0_1_n_n_wf none (truncf .bf16 x bitsLt_bf16_f32) W r e)

/-- The block indices, decided over the 32 grid points: the operand's and the output's row tile is the point's
    number, their column tile and the weight's and bias's tiles are 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point t writes back is block t of the projection of the three arrays as the region finds them. -/
theorem flushed1_eq (c : Dev nD) (t : Fin cfg1.N) :
    (Proj1.dat (F := Ideal) V c).flushed 3 t
      = ((cfg1.win 3).blk t).view.read (Elt Ideal) (projArr (V c main_v10) (V c main_v6) (V c main_arg8)) := by
  show (cfg1.win 3).cut (grid1.coords t) ((Proj1.dat (F := Ideal) V c).after 3 t) = _
  rw [Proj1.after_3]
  unfold Proj1.outTile
  rw [View.canon_unit_zero zeros2]
  simp only [View.ld_unit_zero (S := S512x1024) zeros2, View.ld_unit_zero (S := S1024x1024) zeros2,
    View.ld_unit_zero (S := S1024) zeros1]
  obtain ⟨e0, e1, e2, e3, e4, e5, e6⟩ := idx_facts1 t
  funext j
  obtain ⟨r, e, rfl⟩ : ∃ (r : Fin 512) (e : Fin 1024), j = ix2 r e := ⟨j 0, j 1, eq_ix2 j⟩
  show k1_pay1 (F := Ideal) (Proj1.iblk V c 0 t) (Proj1.iblk V c 1 t) (Proj1.iblk V c 2 t) (ix2 r e)
    = projArr (V c main_v10) (V c main_v6) (V c main_arg8) (((cfg1.win 3).blk t).view.emb (ix2 r e))
  rw [tile1_apply]
  unfold projArr
  have hX : ∀ d : Fin 1024, Proj1.iblk V c 0 t (ix2 r d)
      = V c main_v10 (ix2 ((((cfg1.win 3).blk t).view.emb (ix2 r e)) 0) d) := fun d => by
    show V c main_v10 (((cfg1.win 0).blk t).view.emb (ix2 r d)) = _
    refine congrArg _ (funext fun a => Fin.ext ?_)
    match a with
    | ⟨0, _⟩ => show win1_0.index t (0 : Fin 2) * 512 + 1 * r.val = win1_3.index t (0 : Fin 2) * 512 + 1 * r.val; omega
    | ⟨1, _⟩ => show win1_0.index t (1 : Fin 2) * 1024 + 1 * d.val = d.val; omega
  have hW : ∀ d : Fin 1024, Proj1.iblk V c 1 t (ix2 d e)
      = V c main_v6 (ix2 d ((((cfg1.win 3).blk t).view.emb (ix2 r e)) 1)) := fun d => by
    show V c main_v6 (((cfg1.win 1).blk t).view.emb (ix2 d e)) = _
    refine congrArg _ (funext fun a => Fin.ext ?_)
    match a with
    | ⟨0, _⟩ => show win1_1.index t (0 : Fin 2) * 1024 + 1 * d.val = d.val; omega
    | ⟨1, _⟩ => show win1_1.index t (1 : Fin 2) * 1024 + 1 * e.val = win1_3.index t (1 : Fin 2) * 1024 + 1 * e.val; omega
  have hB : Proj1.iblk V c 2 t (ix1 e) = V c main_arg8 (ix1 ((((cfg1.win 3).blk t).view.emb (ix2 r e)) 1)) := by
    show V c main_arg8 (((cfg1.win 2).blk t).view.emb (ix1 e)) = _
    refine congrArg _ (funext fun a => Fin.ext ?_)
    match a with
    | ⟨0, _⟩ => show win1_2.index t (0 : Fin 1) * 1024 + 1 * e.val = win1_3.index t (1 : Fin 2) * 1024 + 1 * e.val; omega
  rw [hB]
  exact congrArg (· + _) (Finset.sum_congr rfl fun d _ => by rw [hX, hW])

/-- An index of the output array is in point t's block iff each coordinate is in the block's range on its axis. -/
theorem mem_blk1 (t : Fin cfg1.N) (i : S16384x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v11).slice (win1_3.rect t)).set ↔ _
  rw [View.set_slice_whole, Rect.mem_set_unit]
  exact Iff.rfl

/-- Every index of the output array is in the block of a point that writes back: row r is in row tile r / 512. -/
theorem cover1 (i : S16384x1024.Idx) :
    ∃ t : Fin cfg1.N, (cfg1.win 3).flush t = true ∧ i ∈ ((cfg1.win 3).blk t).view.set := by
  have hi0 : (i 0).val < 16384 := (i 0).isLt
  have hi1 : (i 1).val < 1024 := (i 1).isLt
  have hN : cfg1.N = 32 := N_1
  obtain ⟨t, ht⟩ : ∃ t : Fin cfg1.N, t.val = (i 0).val / 512 := ⟨⟨(i 0).val / 512, by rw [hN]; omega⟩, rfl⟩
  obtain ⟨-, -, -, -, -, e5, e6⟩ := idx_facts1 t
  refine ⟨t, flush1_3 t, ?_⟩
  rw [mem_blk1]
  intro a
  match a with
  | ⟨0, _⟩ =>
    show win1_3.index t (0 : Fin 2) * 512 ≤ (i 0).val ∧ (i 0).val < win1_3.index t (0 : Fin 2) * 512 + 512
    omega
  | ⟨1, _⟩ =>
    show win1_3.index t (1 : Fin 2) * 1024 ≤ (i 1).val ∧ (i 1).val < win1_3.index t (1 : Fin 2) * 1024 + 1024
    omega

/-- The output array after region 1: the projection of the three arrays as the region finds them. -/
theorem final1 (c : Dev nD) :
    (Proj1.dat (F := Ideal) V c).arrAt 3 cfg1.N = projArr (V c main_v10) (V c main_v6) (V c main_arg8) :=
  (Proj1.dat (F := Ideal) V c).arrAt_eq_of_cover 3 _ (fun t _ => flushed1_eq V c t) cover1

end Cert.KernelIdeal.ProjVal

end
-- ==== Proof.IdealChainHost.lean ====
/-
  What the attention region finds in its five input arrays, as functions of the launch memory.

  Before the region the host multiplies the query weight and bias by the constant `1/32` (written
  `0x3D000000`), narrows the weights' format (the identity on the extended reals), flattens the key
  and value activations to `[16384, 1024]`, the two projection regions compute `X · W + b` on those,
  and the host folds each result back to `[8, 2048, 1024]`. Row `2048 · b + s` of a flattened array is
  position `(b, s)` of the folded one, so the projected keys and values at `(b, s, e)` are the
  specification's `Kr`, `Vr` of the launch arrays.
-/
import proofs.«158720_j6236292514541_2_alg».proof.Proof.IdealContents
import proofs.«158720_j6236292514541_2_alg».proof.Proof.IdealProjVal
import proofs.«158720_j6236292514541_2_alg».proof.Proof.Spec
import proofs.«158720_j6236292514541_2_alg».proof.Proof.LibLayoutIx
import Idealize.ShloMosaic.Lib.StableHlo.Run

set_option maxRecDepth 16384

noncomputable section

namespace Cert.KernelIdeal.Chain

open Cert.KernelIdeal Cert.KernelIdeal.Gen Cert.KernelIdeal.Run
open Idealize.ShloMosaic Idealize.ShloMosaic.TcCoe Idealize.ShloMosaic.ValueIdx Idealize.SL.Sem
open scoped BigOperators

/-! ## Flattening and folding back -/

/-- The row of the flattened array that holds position `(b, s)`. -/
def rowOf (b : Fin 8) (s : Fin 2048) : Fin 16384 :=
  ⟨2048 * b.val + s.val, by have := b.isLt; have := s.isLt; omega⟩

/-- A `[8, 2048, 1024]` array flattened to `[16384, 1024]` reads, at row `2048 b + s`, position `(b, s)`. -/
theorem flatten_apply {α : Type} (X : S8x2048x1024.Idx → α) (b : Fin 8) (s : Fin 2048) (d : Fin 1024) :
    shapeCast S16384x1024 X shapeCasts_S8x2048x1024_S16384x1024 (ix2 (rowOf b s) d) = X (ix3 b s d) :=
  shapeCast_apply X shapeCasts_S8x2048x1024_S16384x1024 _ _ (by
    rw [Shape.rowMajor_val_three, Shape.rowMajor_val_two]
    show (b.val * 2048 + s.val) * 1024 + d.val = (2048 * b.val + s.val) * 1024 + d.val
    omega)

/-- A `[16384, 1024]` array folded to `[8, 2048, 1024]` reads, at `(b, s)`, row `2048 b + s`. -/
theorem fold_apply {α : Type} (Y : S16384x1024.Idx → α) (b : Fin 8) (s : Fin 2048) (e : Fin 1024) :
    shapeCast S8x2048x1024 Y shapeCasts_S16384x1024_S8x2048x1024 (ix3 b s e) = Y (ix2 (rowOf b s) e) :=
  shapeCast_apply Y shapeCasts_S16384x1024_S8x2048x1024 _ _ (by
    rw [Shape.rowMajor_val_three, Shape.rowMajor_val_two]
    show (2048 * b.val + s.val) * 1024 + e.val = (b.val * 2048 + s.val) * 1024 + e.val
    omega)

variable (m : (ℓ : Loc nD τ sig) → Buf (Elt Ideal) ℓ) (c : Dev nD)

/-! ## After the first host stretch -/

theorem v1_v2 :
    (V1 m c main_v2 : S1024x1024.Idx → EReal)
      = truncf .bf16 (mulf (m ((c : Thread nD τ).loc main_arg3))
          (broadcastInDim S1024x1024 ![] bcast_S_S1024x1024 (constant (F := Ideal) S_ .f32 0x3D000000#32)))
          bitsLt_bf16_f32 := by
  show StableHlo.after hostOps0 (V0 m c) (Proc.devRef .tc main_v2) = _
  after_results
  all_goals rfl

theorem v1_v4 :
    (V1 m c main_v4 : S1024.Idx → EReal)
      = mulf (m ((c : Thread nD τ).loc main_arg4))
          (broadcastInDim S1024 ![] bcast_S_S1024 (constant (F := Ideal) S_ .f32 0x3D000000#32)) := by
  show StableHlo.after hostOps0 (V0 m c) (Proc.devRef .tc main_v4) = _
  after_results
  all_goals rfl

theorem v1_v5 :
    (V1 m c main_v5 : S1024x1024.Idx → EReal)
      = (truncf .bf16 (m ((c : Thread nD τ).loc main_arg5) : FVec Ideal S1024x1024 .f32) bitsLt_bf16_f32
          : FVec Ideal S1024x1024 .bf16) := by
  show StableHlo.after hostOps0 (V0 m c) (Proc.devRef .tc main_v5) = _
  after_results
  all_goals rfl

theorem v1_v6 :
    (V1 m c main_v6 : S1024x1024.Idx → EReal)
      = (truncf .bf16 (m ((c : Thread nD τ).loc main_arg7) : FVec Ideal S1024x1024 .f32) bitsLt_bf16_f32
          : FVec Ideal S1024x1024 .bf16) := by
  show StableHlo.after hostOps0 (V0 m c) (Proc.devRef .tc main_v6) = _
  after_results
  all_goals rfl

theorem v1_v7 :
    (V1 m c main_v7 : S16384x1024.Idx → EReal)
      = shapeCast S16384x1024 (m ((c : Thread nD τ).loc main_arg1)) shapeCasts_S8x2048x1024_S16384x1024 := by
  show StableHlo.after hostOps0 (V0 m c) (Proc.devRef .tc main_v7) = _
  after_results
  all_goals rfl

theorem v1_arg6 : V1 m c main_arg6 = m ((c : Thread nD τ).loc main_arg6) :=
  (V1_of m c main_arg6 (by decide)).trans rfl

end Cert.KernelIdeal.Chain
-- ==== Proof.IdealChain.lean ====
/-
  What the attention region finds in its five input arrays, as functions of the launch memory.

  The query activations pass through unchanged; the query weight and bias arrive multiplied by the
  constant `1/32` (written `0x3D000000`); the key and value arrays are the two projection regions'
  outputs folded back to `[8, 2048, 1024]`: at `(b, s, e)` the specification's `Kr` and `Vr` of the
  launch arrays, because row `2048 · b + s` of a flattened array is position `(b, s)`.
-/
import proofs.«158720_j6236292514541_2_alg».proof.Proof.IdealChainHost

set_option maxRecDepth 16384

noncomputable section

namespace Cert.KernelIdeal.Chain

open Cert.KernelIdeal Cert.KernelIdeal.Gen Cert.KernelIdeal.Run
open Idealize.ShloMosaic Idealize.ShloMosaic.TcCoe Idealize.ShloMosaic.ValueIdx Idealize.SL.Sem
open scoped BigOperators

/-- A projected array at row `r`, column `e`. -/
theorem projArr_apply (X : FVec Ideal S16384x1024 .f32) (W : FVec Ideal S1024x1024 .bf16) (bb : FVec Ideal S1024 .f32)
    (r : Fin 16384) (e : Fin 1024) :
    ProjVal.projArr X W bb (ix2 r e) = (∑ d : Fin 1024, X (ix2 r d) * W (ix2 d e)) + bb (ix1 e) := rfl

variable (m : (ℓ : Loc nD τ sig) → Buf (Elt Ideal) ℓ) (c : Dev nD)

/-! ## The key projection's output -/

/-- What the key projection leaves: the projection of the flattened keys. -/
theorem keyProj_eq :
    o2 m main_v8 c = ProjVal.projArr (V1 m c main_v7) (V1 m c main_v5) (V1 m c main_arg6) :=
  (o2_out m c).trans (ProjVal.final0 (C1 m) c)

/-- The projected keys at row `2048 b + s`, column `e`: the specification's `Kr`. -/
theorem keyProj_apply (b : Fin 8) (s : Fin 2048) (e : Fin 1024) :
    (o2 m main_v8 c : S16384x1024.Idx → EReal) (ix2 (rowOf b s) e)
      = Cert.Attn.Kr (m ((c : Thread nD τ).loc main_arg1)) (m ((c : Thread nD τ).loc main_arg5))
          (m ((c : Thread nD τ).loc main_arg6)) b s e := by
  rw [keyProj_eq, projArr_apply, v1_arg6]
  unfold Cert.Attn.Kr Cert.Attn.proj
  refine congrArg (· + _) (Finset.sum_congr rfl fun d _ => ?_)
  rw [v1_v7, v1_v5, flatten_apply, truncf_apply]

/-! ## After the second host stretch -/

section
variable (outs : Outs (F := Ideal))

theorem v3_v9 :
    (V3 m outs c main_v9 : S8x2048x1024.Idx → EReal)
      = shapeCast S8x2048x1024 (outs 2 main_v8 c : S16384x1024.Idx → EReal) shapeCasts_S16384x1024_S8x2048x1024 := by
  show StableHlo.after hostOps1 (V2 m outs c) (Proc.devRef .tc main_v9) = _
  after_results
  rw [show V2 m outs c (Proc.devRef .tc main_v8) = outs 2 main_v8 c from Function.update_self _ _ _]
  rfl

theorem v3_v10 :
    (V3 m outs c main_v10 : S16384x1024.Idx → EReal)
      = shapeCast S16384x1024 (m ((c : Thread nD τ).loc main_arg2)) shapeCasts_S8x2048x1024_S16384x1024 := by
  show StableHlo.after hostOps1 (V2 m outs c) (Proc.devRef .tc main_v10) = _
  after_results
  rw [show V2 m outs c (Proc.devRef .tc main_arg2) = m ((c : Thread nD τ).loc main_arg2) from
    (V2_of m outs c main_arg2 (by decide)).trans ((V1_of m c main_arg2 (by decide)).trans rfl)]
  rfl

theorem v3_v6 :
    (V3 m outs c main_v6 : S1024x1024.Idx → EReal)
      = (truncf .bf16 (m ((c : Thread nD τ).loc main_arg7) : FVec Ideal S1024x1024 .f32) bitsLt_bf16_f32
          : FVec Ideal S1024x1024 .bf16) :=
  (V3_of m outs c main_v6 (by decide)).trans ((V2_of m outs c main_v6 (by decide)).trans (v1_v6 m c))

theorem v3_arg8 : V3 m outs c main_arg8 = m ((c : Thread nD τ).loc main_arg8) :=
  (V3_of m outs c main_arg8 (by decide)).trans ((V2_of m outs c main_arg8 (by decide)).trans
    ((V1_of m c main_arg8 (by decide)).trans rfl))

theorem v5_v12 :
    (V5 m outs c main_v12 : S8x2048x1024.Idx → EReal)
      = shapeCast S8x2048x1024 (outs 4 main_v11 c : S16384x1024.Idx → EReal) shapeCasts_S16384x1024_S8x2048x1024 := by
  show StableHlo.after hostOps2 (V4 m outs c) (Proc.devRef .tc main_v12) = _
  after_results
  rw [show V4 m outs c (Proc.devRef .tc main_v11) = outs 4 main_v11 c from Function.update_self _ _ _]
  rfl
end

/-! ## The value projection's output -/

/-- What the value projection leaves: the projection of the flattened values. -/
theorem valProj_eq :
    o4 m main_v11 c = ProjVal.projArr (V3 m (outsA m) c main_v10) (V3 m (outsA m) c main_v6)
      (V3 m (outsA m) c main_arg8) :=
  (o4_out m c).trans (ProjVal.final1 (C3 m) c)

/-- The projected values at row `2048 b + s`, column `e`: the specification's `Vr`. -/
theorem valProj_apply (b : Fin 8) (s : Fin 2048) (e : Fin 1024) :
    (o4 m main_v11 c : S16384x1024.Idx → EReal) (ix2 (rowOf b s) e)
      = Cert.Attn.Vr (m ((c : Thread nD τ).loc main_arg2)) (m ((c : Thread nD τ).loc main_arg7))
          (m ((c : Thread nD τ).loc main_arg8)) b s e := by
  rw [valProj_eq, projArr_apply, v3_arg8]
  unfold Cert.Attn.Vr Cert.Attn.proj
  refine congrArg (· + _) (Finset.sum_congr rfl fun d _ => ?_)
  rw [v3_v10, v3_v6, flatten_apply, truncf_apply]

/-! ## What the attention region is entered with -/

/-- The query activations as launched. -/
theorem c5_query : C5 m c main_arg0 = m ((c : Thread nD τ).loc main_arg0) :=
  (V5_of m (outsB m) c main_arg0 (by decide)).trans <| (V4_of m (outsB m) c main_arg0 (by decide)).trans <|
    (V3_of m (outsB m) c main_arg0 (by decide)).trans <| (V2_of m (outsB m) c main_arg0 (by decide)).trans <|
    (V1_of m c main_arg0 (by decide)).trans rfl

/-- The query weight multiplied by `1/32`. -/
theorem c5_wq (W : Cert.Attn.Mat) (hW : W = m ((c : Thread nD τ).loc main_arg3)) (d e : Fin 1024) :
    (C5 m c main_v2 : S1024x1024.Idx → EReal) (ix2 d e) = W (ix2 d e) * Ideal.ofBits .f32 0x3D000000#32 := by
  subst hW
  have h : C5 m c main_v2 = V1 m c main_v2 :=
    (V5_of m (outsB m) c main_v2 (by decide)).trans <| (V4_of m (outsB m) c main_v2 (by decide)).trans <|
      (V3_of m (outsB m) c main_v2 (by decide)).trans (V2_of m (outsB m) c main_v2 (by decide))
  rw [h, v1_v2, truncf_apply, mulf_apply, LayoutIx.bcast_scalar, constant_apply]

/-- The query bias multiplied by `1/32`. -/
theorem c5_bq (bq : Cert.Attn.Vec) (hbq : bq = m ((c : Thread nD τ).loc main_arg4)) (e : Fin 1024) :
    (C5 m c main_v4 : S1024.Idx → EReal) (ix1 e) = bq (ix1 e) * Ideal.ofBits .f32 0x3D000000#32 := by
  subst hbq
  have h : C5 m c main_v4 = V1 m c main_v4 :=
    (V5_of m (outsB m) c main_v4 (by decide)).trans <| (V4_of m (outsB m) c main_v4 (by decide)).trans <|
      (V3_of m (outsB m) c main_v4 (by decide)).trans (V2_of m (outsB m) c main_v4 (by decide))
  rw [h, v1_v4, mulf_apply, LayoutIx.bcast_scalar, constant_apply]

/-- The projected keys, folded back: the specification's `Kr` of the launch arrays. -/
theorem c5_k (b : Fin 8) (s : Fin 2048) (e : Fin 1024) :
    (C5 m c main_v9 : S8x2048x1024.Idx → EReal) (ix3 b s e)
      = Cert.Attn.Kr (m ((c : Thread nD τ).loc main_arg1)) (m ((c : Thread nD τ).loc main_arg5))
          (m ((c : Thread nD τ).loc main_arg6)) b s e := by
  have h : C5 m c main_v9 = V3 m (outsB m) c main_v9 :=
    (V5_of m (outsB m) c main_v9 (by decide)).trans (V4_of m (outsB m) c main_v9 (by decide))
  rw [h, v3_v9, fold_apply]
  exact keyProj_apply m c b s e

/-- The projected values, folded back: the specification's `Vr` of the launch arrays. -/
theorem c5_v (b : Fin 8) (s : Fin 2048) (e : Fin 1024) :
    (C5 m c main_v12 : S8x2048x1024.Idx → EReal) (ix3 b s e)
      = Cert.Attn.Vr (m ((c : Thread nD τ).loc main_arg2)) (m ((c : Thread nD τ).loc main_arg7))
          (m ((c : Thread nD τ).loc main_arg8)) b s e := by
  show (V5 m (outsB m) c main_v12 : S8x2048x1024.Idx → EReal) (ix3 b s e) = _
  rw [v5_v12, fold_apply]
  exact valProj_apply m c b s e

end Cert.KernelIdeal.Chain
-- ==== Proof.IdealFinite.lean ====
/-
  From the precondition to real-valued inputs.

  The precondition says, of each of the nine argument arrays, that every entry x satisfies |x| < +∞, the nine tests
  joined by "and". On the extended reals |x| = max x (−x) and +∞ is the top element, so the test fails at both
  infinities and holds exactly when x is a real number. Hence each argument array is the coercion of a real-valued
  array of the same shape.
-/
import proofs.«158720_j6236292514541_2_alg».proof.Defs
import proofs.«158720_j6236292514541_2_alg».proof.Proof.Gen.Pre_finite_inputs
import Idealize.ShloMosaic.Lib.ReduceAll
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Fin

/-- The scalar shape has one index. -/
instance : Subsingleton (⟨0, ![]⟩ : Shape).Idx := ⟨fun a b => funext fun d => d.elim0⟩

/-- The f32 pattern 0x7F800000 is +∞. -/
theorem ofBits_inf : Ideal.ofBits .f32 0x7F800000#32 = (⊤ : EReal) := by
  simp [Ideal.ofBits, Ideal.ieee]

/-- An extended real whose absolute value max x (−x) is strictly below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exfalso; simp [Ideal.cmp] at h
  | coe r => exact ⟨r, rfl⟩
  | top => exfalso; simp [Ideal.cmp] at h

/-- If the conjunction over all entries of "|x| < +∞" holds for an array, the array is real-valued. -/
theorem all_real {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (⟨0, ![]⟩ : Shape) .f32 0x7F800000#32)))
          (constantI (⟨0, ![]⟩ : Shape) 1 1#1) hr hu ix0 = 1#1) :
    ∃ f : s.Idx → ℝ, x = fun i => ((f i : ℝ) : EReal) := by
  have hel : ∀ i, ∃ r : ℝ, x i = (r : EReal) := fun i => by
    have h1 := Host.reduce_andi_all _ _ hr hu ix0 e i
    rw [cmpf_apply, broadcastInDim_apply _ hb _ i ix0 (fun a => a.elim0)] at h1
    exact real_of_abs_lt_inf (x i) h1
  exact ⟨fun i => Classical.choose (hel i), funext fun i => Classical.choose_spec (hel i)⟩

open Cert.KernelIdeal Cert.Pre_finite_inputs in
/-- Under the precondition every argument array of the kernel is the coercion of a real-valued array. -/
theorem inputs_real (m : (ℓ : Loc Cert.KernelIdeal.nD Cert.KernelIdeal.τ Cert.KernelIdeal.sig) → Buf (Elt Ideal) ℓ)
    (h : Cert.Pre_KernelIdeal m) (c : Dev Cert.KernelIdeal.nD) :
    (∃ f : (⟨3, ![8, 2048, 1024]⟩ : Shape).Idx → ℝ,
        m ((c.tc : Thread Cert.KernelIdeal.nD Cert.KernelIdeal.τ).loc Cert.KernelIdeal.main_arg0) = fun i => ((f i : ℝ) : EReal))
    ∧ (∃ f : (⟨3, ![8, 2048, 1024]⟩ : Shape).Idx → ℝ,
        m ((c.tc : Thread Cert.KernelIdeal.nD Cert.KernelIdeal.τ).loc Cert.KernelIdeal.main_arg1) = fun i => ((f i : ℝ) : EReal))
    ∧ (∃ f : (⟨3, ![8, 2048, 1024]⟩ : Shape).Idx → ℝ,
        m ((c.tc : Thread Cert.KernelIdeal.nD Cert.KernelIdeal.τ).loc Cert.KernelIdeal.main_arg2) = fun i => ((f i : ℝ) : EReal))
    ∧ (∃ f : (⟨2, ![1024, 1024]⟩ : Shape).Idx → ℝ,
        m ((c.tc : Thread Cert.KernelIdeal.nD Cert.KernelIdeal.τ).loc Cert.KernelIdeal.main_arg3) = fun i => ((f i : ℝ) : EReal))
    ∧ (∃ f : (⟨1, ![1024]⟩ : Shape).Idx → ℝ,
        m ((c.tc : Thread Cert.KernelIdeal.nD Cert.KernelIdeal.τ).loc Cert.KernelIdeal.main_arg4) = fun i => ((f i : ℝ) : EReal))
    ∧ (∃ f : (⟨2, ![1024, 1024]⟩ : Shape).Idx → ℝ,
        m ((c.tc : Thread Cert.KernelIdeal.nD Cert.KernelIdeal.τ).loc Cert.KernelIdeal.main_arg5) = fun i => ((f i : ℝ) : EReal))
    ∧ (∃ f : (⟨1, ![1024]⟩ : Shape).Idx → ℝ,
        m ((c.tc : Thread Cert.KernelIdeal.nD Cert.KernelIdeal.τ).loc Cert.KernelIdeal.main_arg6) = fun i => ((f i : ℝ) : EReal))
    ∧ (∃ f : (⟨2, ![1024, 1024]⟩ : Shape).Idx → ℝ,
        m ((c.tc : Thread Cert.KernelIdeal.nD Cert.KernelIdeal.τ).loc Cert.KernelIdeal.main_arg7) = fun i => ((f i : ℝ) : EReal))
    ∧ (∃ f : (⟨1, ![1024]⟩ : Shape).Idx → ℝ,
        m ((c.tc : Thread Cert.KernelIdeal.nD Cert.KernelIdeal.τ).loc Cert.KernelIdeal.main_arg8) = fun i => ((f i : ℝ) : EReal)) := by
  have h0 := congrFun (h c) ix0
  unfold Cert.Pre_finite_inputs.fn Cert.Pre_finite_inputs.fn_part1 Cert.Pre_finite_inputs.fn_part2 at h0
  dsimp only at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real _ _ _ _ e0, all_real _ _ _ _ e1, all_real _ _ _ _ e2, all_real _ _ _ _ e3, all_real _ _ _ _ e4,
    all_real _ _ _ _ e5, all_real _ _ _ _ e6, all_real _ _ _ _ e7, all_real _ _ _ _ e8⟩

end Cert.KernelIdeal.Fin

end
-- ==== Proof.IdealResult.lean ====
/-
  The attention region's output array, after the run of the idealized program from a memory whose float inputs are finite,
  is the specification's result array of the nine argument arrays: the region's output array is the stream of tiles the
  grid points write back, each tile the softmax-weighted sum of the value rows (the tile mathematics), once the contents
  of the region's five input arrays are read back through the host stretches and the two projection regions.
-/
import proofs.«158720_j6236292514541_2_alg».proof.Proof.IdealContents
import proofs.«158720_j6236292514541_2_alg».proof.Proof.IdealAttnVal
import proofs.«158720_j6236292514541_2_alg».proof.Proof.IdealChain
import proofs.«158720_j6236292514541_2_alg».proof.Proof.IdealFinite

noncomputable section

namespace Cert.KernelIdeal.Result

open Cert.KernelIdeal Cert.KernelIdeal.Gen
open Idealize.ShloMosaic Idealize.ShloMosaic.TcCoe Idealize.SL.Sem

/-- Under the precondition, what the attention region leaves in the result array is the specification's result of the
    launch contents of the nine arguments. -/
theorem result_eq (m : (ℓ : Loc nD τ sig) → Buf (Elt Ideal) ℓ) (hpre : Cert.Pre_KernelIdeal m) (c : Dev nD) :
    Run.o6 (F := Ideal) m main_v13 c
      = Cert.Attn.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  obtain ⟨h0, h1, h2, h3, h4, h5, h6, h7, h8⟩ := Fin.inputs_real m hpre c
  rw [Run.o6_out]
  exact AttnVal.attn_final (Run.C5 m) c _ _ _ _ _ _ _ _ _ h0 h1 h2 h3 h4 h5 h6 h7 h8
    (Chain.c5_query m c) (Chain.c5_wq m c _ rfl) (Chain.c5_bq m c _ rfl) (Chain.c5_k m c) (Chain.c5_v m c)

end Cert.KernelIdeal.Result

end
-- ==== Proof.RefImports.lean ====
/-
  The reference program's generated run and its read-at-an-index lemmas, gathered under one import.
-/
import proofs.«158720_j6236292514541_2_alg».proof.Proof.Gen.ReferenceIdeal.Run
import proofs.«158720_j6236292514541_2_alg».proof.Proof.Gen.ReferenceIdeal.Read
-- ==== Proof.RefIsSpec.lean ====
/-
  The reference program computes the attention function of Spec.lean.

  The reference run's result is a long composed term of the nine argument arrays. Read one operation at a time and one
  element at a time it is: three projections (a contraction over the input feature plus a broadcast bias), the scores
  (a contraction over the projected feature times the scalar 1 / sqrt 1024), the row maximum (a fold of max from −∞
  over the key positions, then max with −∞ once more), the shifted exponentials, their row sums (from the initial
  value 0), the quotients, and the last contraction over the key positions against the projected values. Each stage is
  identified below with its counterpart in Cert.Attn at an index given by coordinates; result_eq puts them together,
  and ref_run restates the reference's run with the result written as Cert.Attn.G of the arguments.
-/
import proofs.«158720_j6236292514541_2_alg».proof.Defs
import proofs.«158720_j6236292514541_2_alg».proof.Proof.RefImports
import proofs.«158720_j6236292514541_2_alg».proof.Proof.Gen.Pre_finite_inputs
import proofs.«158720_j6236292514541_2_alg».proof.Proof.Spec
import Idealize.ShloMosaic.PureOps.Reduce
import Idealize.ShloMosaic.PureOps.Ideal.Laws

noncomputable section

open scoped BigOperators
open Idealize.ShloMosaic Idealize.ShloMosaic.TcCoe Idealize.SL.Sem Idealize.ShloMosaic.StableHlo

namespace Cert.ReferenceIdeal.RefValue

open Cert.ReferenceIdeal Cert.ReferenceIdeal.Gen Cert.ReferenceIdeal.Value Cert.ReferenceIdeal.Read
open Cert.Attn Idealize.ShloMosaic.ValueIdx

/-! ## Where each operation reads its operands, by coordinates -/

section Indices
variable (b : Fin 8) (s q k : Fin 2048) (e v : Fin 1024)

/-- A rank-3 index function is determined by its three coordinates. -/
local macro "idx3" : tactic =>
  `(tactic| (funext a; match a with | ⟨0, _⟩ => rfl | ⟨1, _⟩ => rfl | ⟨2, _⟩ => rfl))
local macro "idx2" : tactic =>
  `(tactic| (funext a; match a with | ⟨0, _⟩ => rfl | ⟨1, _⟩ => rfl))
local macro "idx1" : tactic =>
  `(tactic| (funext a; match a with | ⟨0, _⟩ => rfl))

/-- The projections contract the activation's feature d against the matrix's row d … -/
theorem l0 (d : Fin 1024) : lidx_main_v0 (ix3 b s e) d = ix3 b s d := by idx3
theorem r0 (d : Fin 1024) : ridx_main_v0 (ix3 b s e) d = ix2 d e := by idx2
theorem l4 (d : Fin 1024) : lidx_main_v4 (ix3 b s e) d = ix3 b s d := by idx3
theorem r4 (d : Fin 1024) : ridx_main_v4 (ix3 b s e) d = ix2 d e := by idx2
theorem l8 (d : Fin 1024) : lidx_main_v8 (ix3 b s e) d = ix3 b s d := by idx3
theorem r8 (d : Fin 1024) : ridx_main_v8 (ix3 b s e) d = ix2 d e := by idx2
/-- … and the bias is read at the output feature. -/
theorem b2 : idx_main_v1 (idx_main_v2 (ix3 b s e)) = ix1 e := by idx1
theorem b6 : idx_main_v5 (idx_main_v6 (ix3 b s e)) = ix1 e := by idx1
theorem b10 : idx_main_v9 (idx_main_v10 (ix3 b s e)) = ix1 e := by idx1
/-- The scores contract the projected feature of query row q against key row k. -/
theorem l14 : lidx_main_v14 (ix3 b q k) e = ix3 b q e := by idx3
theorem r14 : ridx_main_v14 (ix3 b q k) e = ix3 b k e := by idx3
/-- A row statistic is broadcast along the key positions. -/
theorem b21 : idx_main_v20 (idx_main_v21 (ix3 b q k)) = ix2 b q := by idx2
theorem b26 : idx_main_v25 (idx_main_v26 (ix3 b q k)) = ix2 b q := by idx2
/-- The row sum runs over the key positions of row (b, q). -/
theorem i24 : idx_main_v24 (ix2 b q) k = ix3 b q k := by idx3
/-- The last contraction pairs weight (b, q, k) with projected value (b, k, v). -/
theorem l28 : lidx_main_v28 (ix3 b q v) k = ix3 b q k := by idx3
theorem r28 : ridx_main_v28 (ix3 b q v) k = ix3 b k v := by idx3

/-- Dropping the key axis of the score array leaves the (batch, query) array. -/
theorem hRed : S8x2048x2048.Reduces [2] S8x2048 := by decide

/-- Row (b, q) with key coordinate k put back is (b, q, k). -/
theorem lift_ix (k' : Fin (S8x2048x2048.size 2)) :
    hRed.lift (ix2 b q) k' = ix3 b q (⟨k'.val, k'.isLt⟩ : Fin 2048) := by
  funext c; apply Fin.ext
  fin_cases c <;> rfl

end Indices

/-! ## The stages, element by element -/

section Stages
variable (x0 x1 x2 : Act) (x3 : Mat) (x4 : Vec) (x5 : Mat) (x6 : Vec) (x7 : Mat) (x8 : Vec)
variable (b : Fin 8) (s q k : Fin 2048) (e v : Fin 1024)

/-- The query projection. -/
theorem Q_eq : val_main_v3 (F := Ideal) x0 x3 x4 (ix3 b s e) = Qr x0 x3 x4 b s e := by
  rw [val_main_v3_apply, val_main_v0_apply, val_main_v2_apply, val_main_v1_apply, b2]
  unfold Qr proj
  rw [Ideal.addf_def]
  congr 1
  exact Finset.sum_congr rfl fun d _ => by rw [l0, r0]

/-- The key projection. -/
theorem K_eq : val_main_v7 (F := Ideal) x1 x5 x6 (ix3 b s e) = Kr x1 x5 x6 b s e := by
  rw [val_main_v7_apply, val_main_v4_apply, val_main_v6_apply, val_main_v5_apply, b6]
  unfold Kr proj
  rw [Ideal.addf_def]
  congr 1
  exact Finset.sum_congr rfl fun d _ => by rw [l4, r4]

/-- The value projection. -/
theorem V_eq : val_main_v11 (F := Ideal) x2 x7 x8 (ix3 b s e) = Vr x2 x7 x8 b s e := by
  rw [val_main_v11_apply, val_main_v8_apply, val_main_v10_apply, val_main_v9_apply, b10]
  unfold Vr proj
  rw [Ideal.addf_def]
  congr 1
  exact Finset.sum_congr rfl fun d _ => by rw [l8, r8]

/-- The scaled scores. -/
theorem sc_eq : val_main_v16 (F := Ideal) x0 x1 x3 x4 x5 x6 (ix3 b q k) = sc x0 x1 x3 x4 x5 x6 b q k := by
  rw [val_main_v16_apply, val_main_v14_apply, val_main_v15_apply, val_main_v13_apply, val_main_v12_apply,
    val_main_cst_apply, val_main_cst_0_apply]
  unfold sc scale cOne c1024
  simp only [Ideal.mulf_def, Ideal.hostDivf_def, Ideal.hostUnary_sqrt_def, Ideal.ofBits_def]
  congr 1
  exact Finset.sum_congr rfl fun e' _ => by rw [l14, r14, Q_eq, K_eq]

/-- The row maximum: the host's max-reduce over the key axis is the fold of max from −∞ over the key positions. -/
theorem M_eq : val_main_v19 (F := Ideal) x0 x1 x3 x4 x5 x6 (ix2 b q) = Cert.Attn.M x0 x1 x3 x4 x5 x6 b q := by
  rw [val_main_v19_apply, val_main_v18_apply, val_main_cst_2_apply]
  unfold val_main_v17
  rw [Host.reduce_eq_fold_single FloatOps.maximumf _ _ reducesTo_S8x2048x2048_S8x2048_d2 hRed h_S_]
  have hf : (val_main_v16 (F := Ideal) x0 x1 x3 x4 x5 x6 ∘ hRed.lift (ix2 b q))
      = fun k' : Fin 2048 => sc x0 x1 x3 x4 x5 x6 b q k' :=
    funext fun k' => by
      show val_main_v16 (F := Ideal) x0 x1 x3 x4 x5 x6 (hRed.lift (ix2 b q) k') = _
      rw [lift_ix, sc_eq]
      rfl
  unfold Cert.Attn.M rowmax cNegInf
  exact congrArg (fun f => max (Ideal.ofBits .f32 0xFF800000#32)
    (Finset.fold max (Ideal.ofBits .f32 0xFF800000#32) f (Finset.univ : Finset (Fin 2048)))) hf

/-- The shifted exponentials. -/
theorem E_eq : val_main_v23 (F := Ideal) x0 x1 x3 x4 x5 x6 (ix3 b q k) = E x0 x1 x3 x4 x5 x6 b q k := by
  rw [val_main_v23_apply, val_main_v22_apply, val_main_v21_apply, val_main_v20_apply, b21, sc_eq, M_eq]
  unfold E
  simp only [Ideal.hostUnary_exp_def, Ideal.subf_def]

/-- The row sums, from the initial value 0. -/
theorem L_eq : val_main_v24 (F := Ideal) x0 x1 x3 x4 x5 x6 (ix2 b q) = L x0 x1 x3 x4 x5 x6 b q := by
  rw [val_main_v24_apply, val_main_cst_3_apply]
  unfold L cZero
  rw [Ideal.ofBits_def]
  congr 1
  exact Finset.sum_congr rfl fun k' _ => by rw [i24, E_eq]

/-- The attention weights. -/
theorem P_eq : val_main_v27 (F := Ideal) x0 x1 x3 x4 x5 x6 (ix3 b q k) = P x0 x1 x3 x4 x5 x6 b q k := by
  rw [val_main_v27_apply, val_main_v26_apply, val_main_v25_apply, b26, E_eq, L_eq, Ideal.hostDivf_def]
  rfl

/-- The result at (b, q, v). -/
theorem out_eq : val_main_v28 (F := Ideal) x0 x1 x2 x3 x4 x5 x6 x7 x8 (ix3 b q v)
    = out x0 x1 x2 x3 x4 x5 x6 x7 x8 b q v := by
  rw [val_main_v28_apply]
  unfold out
  exact Finset.sum_congr rfl fun k' _ => by rw [l28, r28, P_eq, V_eq]

/-- The reference's result, as a function of its nine arguments, is the attention function G. -/
theorem result_eq : val_main_v28 (F := Ideal) x0 x1 x2 x3 x4 x5 x6 x7 x8 = G x0 x1 x2 x3 x4 x5 x6 x7 x8 := by
  funext i
  obtain ⟨b', q', v', rfl⟩ : ∃ (b' : Fin 8) (q' : Fin 2048) (v' : Fin 1024), i = ix3 b' q' v' :=
    ⟨i 0, i 1, i 2, eq_ix3 i⟩
  rw [G_ix3]
  exact out_eq x0 x1 x2 x3 x4 x5 x6 x7 x8 b' q' v'

end Stages

/-! ## The run -/

/-- From any memory with zero counters every weakly fair execution of the reference terminates with the result
    buffer at G of the argument buffers' launch contents and the nine argument buffers unchanged. -/
theorem ref_run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v28)
        = G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run Cert.ReferenceIdeal.defs _ _).mono
    (fun _ h c => ⟨(h c).1.trans ((val_main_v28_eq (F := Ideal) m c).trans (result_eq _ _ _ _ _ _ _ _ _)), (h c).2⟩)
    (Cert.ReferenceIdeal.Value.run (F := Ideal) m ρ)

/-- The reference runs and leaves its arguments unchanged: the run above with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The claim. The word-level kernel and its idealization are one program text read at two float instances: three
  projections-and-attention regions among host reshapes and casts; their frames are the run of that text as a chain of
  segments (host stretches and kernel regions), proved once for any float instance. The idealization rewrote nothing, so
  it preserves the kernel trivially. At the ideal instance the run names the result array — what the attention region's
  write-backs leave —, and under finite inputs that array is the specification's softmax attention of the projected
  queries, keys and values: the streaming (one key tile at a time) softmax with the scale 1/32 folded into the query
  projection equals the reference's softmax of the scaled scores, 1/32 being 1/sqrt(1024). The reference's own run ends at
  the same specification, so the two results agree element by element.
-/
import proofs.«158720_j6236292514541_2_alg».proof.Defs
import proofs.«158720_j6236292514541_2_alg».proof.Proof.Gen.Kernel
import proofs.«158720_j6236292514541_2_alg».proof.Proof.Gen.KernelIdeal
import proofs.«158720_j6236292514541_2_alg».proof.Proof.Gen.ReferenceIdeal
import proofs.«158720_j6236292514541_2_alg».proof.Proof.Gen.Pre_finite_inputs
import proofs.«158720_j6236292514541_2_alg».proof.Proof.WordRun
import proofs.«158720_j6236292514541_2_alg».proof.Proof.IdealRun
import proofs.«158720_j6236292514541_2_alg».proof.Proof.IdealResult
import proofs.«158720_j6236292514541_2_alg».proof.Proof.RefIsSpec

noncomputable section

namespace Cert.Proof

open Idealize.ShloMosaic Idealize.ShloMosaic.TcCoe Idealize.SL.Sem

/-- The word-level kernel runs and leaves its arguments as launched: its run with the result's contents dropped. -/
theorem frame_p : Cert.frame_Kernel := fun m ρ _ =>
  (θ_run Cert.Kernel.defs _ _).mono (fun _ h c => (h c).2) (Cert.Kernel.Run.run_main (F := Bits) m ρ)

/-- The same for the idealized kernel. -/
theorem frame_pi : Cert.frame_KernelIdeal := fun m ρ _ =>
  (θ_run Cert.KernelIdeal.defs _ _).mono (fun _ h c => (h c).2) (Cert.KernelIdeal.Run.run_main (F := Ideal) m ρ)

/-- From memories agreeing on the arguments both idealized programs end at the specification's result of the kernel's
    arguments: the kernel by its run and the value of the attention region's output, the reference by its run read back. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Result.result_eq m hpre c), (h c).2⟩)
      (Cert.KernelIdeal.Run.run_main (F := Ideal) m ρ)
  · refine (θ_run Cert.ReferenceIdeal.defs _ _).mono (fun _ h c => ⟨(h c).1.trans ?_, (h c).2⟩)
      (Cert.ReferenceIdeal.RefValue.ref_run m' ρ')
    obtain ⟨e0, e1, e2, e3, e4, e5, e6, e7, e8⟩ := hagree c
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_p, frame_pi, Cert.ReferenceIdeal.RefValue.frame_ri, trivial, algebraic⟩

end Cert.Proof

end
